-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x64x64 : Shape := ⟨4, ![2, 512, 64, 64]⟩
abbrev S2x64x64 : Shape := ⟨3, ![2, 64, 64]⟩
abbrev S_ : Shape := ⟨0, ![]⟩

class Facts : Prop where
  bcast_S_S2x512x64x64 : S_.BroadcastsInDim S2x512x64x64 (![] : Fin 0 → Fin S2x512x64x64.rank)
  reducesTo_S2x512x64x64_S_d0_1_2_3 : S2x512x64x64.ReducesTo [0, 1, 2, 3] S_
  h_S_ : 0 < S_.numel

variable [Facts]

def fn {F : FTy → Type} [FloatOps F] (main_arg0 : FVec F S2x512x64x64 .f32) (main_arg1 : IVec S2x64x64 32) : IVec S_ 1 :=
  let main_v0 : FVec F S2x512x64x64 .f32 := Host.absf main_arg0
  let main_cst : FVec F S_ .f32 := constant S_ .f32 0x7F800000#32
  let main_v1 : FVec F S2x512x64x64 .f32 := broadcastInDim S2x512x64x64 ![] bcast_S_S2x512x64x64 main_cst
  let main_v2 : IVec S2x512x64x64 1 := cmpf .olt main_v0 main_v1
  let main_c : IVec S_ 1 := constantI S_ 1 1#1
  let main_v3 : IVec S_ 1 := (fun x v => Host.reduce IntOp.andi x v reducesTo_S2x512x64x64_S_d0_1_2_3 h_S_) main_v2 main_c
  main_v3
-- ==== Kernel.lean ====
abbrev S2x512x64x64 : Shape := ⟨4, ![2, 512, 64, 64]⟩
abbrev S2x64x64 : Shape := ⟨3, ![2, 64, 64]⟩
abbrev S2x64x64x512 : Shape := ⟨4, ![2, 64, 64, 512]⟩
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S2048x512 : Shape := ⟨2, ![2048, 512]⟩
abbrev S256x512 : Shape := ⟨2, ![256, 512]⟩
abbrev S2048x1 : Shape := ⟨2, ![2048, 1]⟩
abbrev S1x256 : Shape := ⟨2, ![1, 256]⟩
abbrev S512x256 : Shape := ⟨2, ![512, 256]⟩
abbrev S2048x256 : Shape := ⟨2, ![2048, 256]⟩
abbrev S2048 : Shape := ⟨1, ![2048]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S2x512x64x64, .f32⟩
  | .hbm, ⟨1, _⟩ => ⟨S2x64x64, .i32⟩
  | .hbm, ⟨2, _⟩ => ⟨S2x64x64x512, .f32⟩
  | .hbm, ⟨3, _⟩ => ⟨S8192x512, .f32⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S8192x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S256x512, .f32⟩
  | .local _ .vmem, ⟨3, _⟩ => ⟨S256x512, .f32⟩
  | .local _ .vmem, ⟨4, _⟩ => ⟨S2048x1, .i32⟩
  | .local _ .vmem, ⟨5, _⟩ => ⟨S2048x1, .i32⟩
  | .local _ .vmem, ⟨6, _⟩ => ⟨S1x256, .i32⟩
  | .local _ .vmem, ⟨7, _⟩ => ⟨S1x256, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | .local _ .vmem, ⟨13, _⟩ => ⟨S2048x1, .f32⟩
  | _, _ => ⟨S2x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c31_i32 : BitVec 32 := 31#32
  let v68 : BitVec 1 := Scalar.cmpi .eq arg1 c31_i32
  let v69 : BitVec 32 := Scalar.extui v68
  let c0_i32_30 : BitVec 32 := 0#32
  let v70 : BitVec 1 := Scalar.cmpi .ne v69 c0_i32_30
  v70

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S2x512x64x64_S2x64x64x512_0_2_3_1 : S2x512x64x64.Transposes [0, 2, 3, 1] S2x64x64x512
  shapeCasts_S2x64x64x512_S8192x512 : S2x64x64x512.ShapeCasts S8192x512
  shapeCasts_S2x64x64_S8192 : S2x64x64.ShapeCasts S8192
  shapeCasts_S8192_S8192x1 : S8192.ShapeCasts S8192x1
  shapeCasts_S8192_S1x8192 : S8192.ShapeCasts S1x8192
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  transposes_S256x512_p1_0_S512x256 : S256x512.Transposes [1, 0] S512x256
  iota_S2048x256_d0_w32 : S2048x256.Iotas .tc 32 [0]
  iota_S2048x256_d1_w32 : S2048x256.Iotas .tc 32 [1]
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S2048x1_S2048x256 : S2048x1.Broadcasts S2048x256
  broadcasts_S1x256_S2048x256 : S1x256.Broadcasts S2048x256
  natLt_1_32 : 1 < 32
  reduces_S2048x256_S2048 : S2048x256.Reduces [1] S2048
  shapeCasts_S2048_S2048x1 : S2048.ShapeCasts S2048x1
  reducesTo_S8192x1_S_d0_1 : S8192x1.ReducesTo [0, 1] S_
  h_S_ : 0 < S_.numel
  dot_S2048x512_S512x256_S2048x256_1_0_0_1_n_n_wf : DotDims.WF S2048x512 S512x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .f32 = 32 ∨ (Rect.block (s := S8192x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S8192x512.size a
  hwx0_1 : ∀ i : grid0.Coords, EltTy.bits .f32 = 32 ∨ (Rect.block (s := S8192x512) S256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .i32 = 32 ∨ (Rect.block (s := S8192x1) S2048x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x8192.size a
  hwx0_3 : ∀ i : grid0.Coords, EltTy.bits .i32 = 32 ∨ (Rect.block (s := S1x8192) S1x256.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S8192x1.size a
  hwx0_4 : ∀ i : grid0.Coords, EltTy.bits .f32 = 32 ∨ (Rect.block (s := S8192x1) S2048x1.size (cc0_transform_4 i) (hinb0_4 i)).WholeWords (EltTy.packing .f32)

variable [Facts₀]

def dot_S2048x512_S512x256_S2048x256_1_0_0_1_n_n : DotDims S2048x512 S512x256 S2048x256 where
  lhsContracting := [1]
  rhsContracting := [0]
  lhsNonContracting := [0]
  rhsNonContracting := [1]
  lhsBatch := []
  rhsBatch := []
  wf := dot_S2048x512_S512x256_S2048x256_1_0_0_1_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x512x64x64 : Shape := ⟨4, ![2, 512, 64, 64]⟩
abbrev S2x64x64 : Shape := ⟨3, ![2, 64, 64]⟩
abbrev S2x64x64x512 : Shape := ⟨4, ![2, 64, 64, 512]⟩
abbrev S8192x512 : Shape := ⟨2, ![8192, 512]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S2x512x64x64, .f32⟩
  | .hbm, ⟨1, _⟩ => ⟨S2x64x64, .i32⟩
  | .hbm, ⟨2, _⟩ => ⟨S2x64x64x512, .f32⟩
  | .hbm, ⟨3, _⟩ => ⟨S8192x512, .f32⟩
  | .hbm, ⟨4, _⟩ => ⟨S8192, .i32⟩
  | .hbm, ⟨5, _⟩ => ⟨S8192x1, .i32⟩
  | .hbm, ⟨6, _⟩ => ⟨S1x8192, .i32⟩
  | .hbm, ⟨7, _⟩ => ⟨S8192x8192, .i32⟩
  | .hbm, ⟨8, _⟩ => ⟨S8192x8192, .i32⟩
  | .hbm, ⟨9, _⟩ => ⟨S8192x8192, .i1⟩
  | .hbm, ⟨10, _⟩ => ⟨S8192x8192, .f32⟩
  | .hbm, ⟨11, _⟩ => ⟨S512x8192, .f32⟩
  | .hbm, ⟨12, _⟩ => ⟨S8192x8192, .f32⟩
  | .hbm, ⟨13, _⟩ => ⟨S_, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S8192x8192, .f32⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .f32⟩
  | .hbm, ⟨29, _⟩ => ⟨S_, .f32⟩
  | .hbm, ⟨30, _⟩ => ⟨S8192x8192, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S8192, .f32⟩
  | .hbm, ⟨50, _⟩ => ⟨S8192, .f32⟩
  | .hbm, ⟨51, _⟩ => ⟨S8192, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S2x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_c : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_4 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_cst_8 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  transposes_S2x512x64x64_S2x64x64x512_0_2_3_1 : S2x512x64x64.Transposes [0, 2, 3, 1] S2x64x64x512
  shapeCasts_S2x64x64x512_S8192x512 : S2x64x64x512.ShapeCasts S8192x512
  shapeCasts_S2x64x64_S8192 : S2x64x64.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192x1 : S_.BroadcastsInDim S8192x1 (![] : Fin 0 → Fin S8192x1.rank)
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Runs.lean ====
/-
  What the three runs of the kernel body share.  The grid has 4 × 32 points; point t = 32·i + j handles rows
  [2048 i, 2048 (i+1)) against columns [256 j, 256 (j+1)).  At j = 0 the body first resets the four per-row running
  numbers; at every j it folds the block in; at j = 31 it also writes the rows' losses.  So there are three cases:
  A (j = 0), B (0 < j < 31), C (j = 31); the output block is written (and written back) only in case C.
-/
import proofs.«142344_j74028056314074_1_alg».proof.Proof.Gen.Kernel.Launch
import proofs.«142344_j74028056314074_1_alg».proof.Proof.Gen.Kernel.Skeleton
import proofs.«142344_j74028056314074_1_alg».proof.Proof.Gen.Kernel.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => m (c, b)
/-- after the five layout operations that precede the region (the feature matrix laid out as rows, the labels as a
    column and as a row); -/
abbrev V0 (c : Dev nD) : Valuation τ sig (Elt F) := StableHlo.after hostOps0 (V₀ m c)
/-- the same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a block that is
    not fetched again has not moved, the windows being uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, over the grid -/

/-- "This is the first block of columns" (j = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last block of columns" (j = 31). -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last block of columns the output block is not stored into, nor written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last block of columns it is. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
/-- The four per-row running numbers live in four whole buffers of the kernel's own. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x1 .f32 := Memref.whole cc0_scratch2
abbrev scM0_3 : Memref sig .tc .vmem S2048x1 .f32 := Memref.whole cc0_scratch3
abbrev VS0_0 : View sig .tc .vmem S2048x1 .f32 := (scM0_0).view
abbrev VS0_1 : View sig .tc .vmem S2048x1 .f32 := (scM0_1).view
abbrev VS0_2 : View sig .tc .vmem S2048x1 .f32 := (scM0_2).view
abbrev VS0_3 : View sig .tc .vmem S2048x1 .f32 := (scM0_3).view
/-- One staging buffer of the output window, through which its contents are stated (the choice does not matter). -/
abbrev VO0_4 : View sig .tc .vmem S2048x1 .f32 := (Memref.whole cc0_stg4_0 : Memref sig .tc .vmem S2048x1 .f32).view

/-- The kernel's own buffers, each whole at some contents, as four owned memrefs. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.Kernel.Hand

end
-- ==== Proof.K.RunA.lean ====
/-
  The body at a point of the first block of columns (j = 0): the four running numbers are reset, then the block is
  folded in.  Whatever the four buffers held before is overwritten; the output block is handed back untouched.
-/
import proofs.«142344_j74028056314074_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A.  The pieces each of the four buffers ends with are found by the run. -/
noncomputable def kernelRun0_A (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i)
    (x0 : Vec F S2048x512 .f32) (x1 : Vec F S256x512 .f32) (x2 : Vec F S2048x1 .i32) (x3 : Vec F S1x256 .i32) :
    Σ' (LS0 : List (View.Piece (Elt F) S2048x1 .f32)) (LS1 : List (View.Piece (Elt F) S2048x1 .f32)) (LS2 : List (View.Piece (Elt F) S2048x1 .f32)), { LS3 : List (View.Piece (Elt F) S2048x1 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K.RunB.lean ====
/-
  The body at a point of a middle block of columns (0 < j < 31): the block is folded into the four running numbers the
  point before left; the output block is handed back untouched.
-/
import proofs.«142344_j74028056314074_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B. -/
noncomputable def kernelRun0_B (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i)
    (x0 : Vec F S2048x512 .f32) (x1 : Vec F S256x512 .f32) (x2 : Vec F S2048x1 .i32) (x3 : Vec F S1x256 .i32) (xs0 xs1 xs2 xs3 : Vec F S2048x1 .f32) :
    Σ' (LS0 : List (View.Piece (Elt F) S2048x1 .f32)) (LS1 : List (View.Piece (Elt F) S2048x1 .f32)) (LS2 : List (View.Piece (Elt F) S2048x1 .f32)), { LS3 : List (View.Piece (Elt F) S2048x1 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.Kernel.Hand

end
-- ==== Proof.K.RunC.lean ====
/-
  The body at a point of the last block of columns (j = 31): the block is folded in, and the rows' losses are computed
  from the four running numbers and stored over the whole output block.
-/
import proofs.«142344_j74028056314074_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C. -/
noncomputable def kernelRun0_C (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i)
    (x0 : Vec F S2048x512 .f32) (x1 : Vec F S256x512 .f32) (x2 : Vec F S2048x1 .i32) (x3 : Vec F S1x256 .i32) (xs0 xs1 xs2 xs3 : Vec F S2048x1 .f32) :
    Σ' (L4 : List (View.Piece (Elt F) S2048x1 .f32)) (LS0 : List (View.Piece (Elt F) S2048x1 .f32)) (LS1 : List (View.Piece (Elt F) S2048x1 .f32)) (LS2 : List (View.Piece (Elt F) S2048x1 .f32)), { LS3 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.Kernel.Hand

end
-- ==== Proof.K.Frame.lean ====
/-
  The frame of the kernel region, point by point.  After point t the four running buffers hold what the point's case
  left there (`outsAt0`): at j = 0 the reset values with the first block folded in, afterwards the previous point's
  numbers with this block folded in; at j = 31 the output block holds the rows' losses read off those numbers.  The
  proof data say so; the body obligation is the three runs, chosen by the closed forms of the two conditions.
  The feature matrix is read through two windows (row blocks and column blocks): each holds half of the array's share.
-/
import proofs.«142344_j74028056314074_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as values -/

/-- The pieces a case stores into a running buffer tile it. -/
theorem scoverA (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i) (x0 : Vec F S2048x512 .f32) (x1 : Vec F S256x512 .f32) (x2 : Vec F S2048x1 .i32) (x3 : Vec F S1x256 .i32) (y : S2048x1.Idx) :
    (∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set)
    ∧ (∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set)
    ∧ (∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set)
    ∧ (∃ pc ∈ (kernelRun0_A c i arg2 harg2 arg3 harg3 arg4 harg4 arg5 harg5 arg6 harg6 arg7 harg7 arg8 harg8 arg9 harg9 arg10 harg10 hc0 hc1 x0 x1 x2 x3).2.2.2.1, y ∈ pc.1.set) :=
  ⟨View.cover_of_tiledL _ S2048x1.size (by sl_kernel_rfl) y, View.cover_of_tiledL _ S2048x1.size (by sl_kernel_rfl) y,
   View.cover_of_tiledL _ S2048x1.size (by sl_kernel_rfl) y, View.cover_of_tiledL _ S2048x1.size (by sl_kernel_rfl) y⟩

theorem scoverB (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i) (x0 : Vec F S2048x512 .f32) (x1 : Vec F S256x512 .f32) (x2 : Vec F S2048x1 .i32) (x3 : Vec F S1x256 .i32) (xs0 xs1 xs2 xs3 : Vec F S2048x1 .f32) (y : S2048x1.Idx) :
    (∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).1, y ∈ pc.1.set)
    ∧ (∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set)
    ∧ (∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set)
    ∧ (∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set) :=
  ⟨View.cover_of_tiledL _ S2048x1.size (by sl_kernel_rfl) y, View.cover_of_tiledL _ S2048x1.size (by sl_kernel_rfl) y,
   View.cover_of_tiledL _ S2048x1.size (by sl_kernel_rfl) y, View.cover_of_tiledL _ S2048x1.size (by sl_kernel_rfl) y⟩

theorem scoverC (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i) (x0 : Vec F S2048x512 .f32) (x1 : Vec F S256x512 .f32) (x2 : Vec F S2048x1 .i32) (x3 : Vec F S1x256 .i32) (xs0 xs1 xs2 xs3 : Vec F S2048x1 .f32) (y : S2048x1.Idx) :
    (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).1, y ∈ pc.1.set)
    ∧ (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set)
    ∧ (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set)
    ∧ (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set)
    ∧ (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set) :=
  ⟨View.cover_of_tiledL _ S2048x1.size (by sl_kernel_rfl) y, View.cover_of_tiledL _ S2048x1.size (by sl_kernel_rfl) y,
   View.cover_of_tiledL _ S2048x1.size (by sl_kernel_rfl) y, View.cover_of_tiledL _ S2048x1.size (by sl_kernel_rfl) y,
   View.cover_of_tiledL _ S2048x1.size (by sl_kernel_rfl) y⟩

/-- What case A leaves: (the output block — untouched, a placeholder nothing reads —, then the four running buffers). -/
def outsA (c : Dev nD) (t : Fin cfg0.N) (hc0 : cond0_0 (grid0.coords t)) (hc1 : ¬cond0_1 (grid0.coords t)) : Vec F S2048x1 .f32 × Vec F S2048x1 .f32 × Vec F S2048x1 .f32 × Vec F S2048x1 .f32 × Vec F S2048x1 .f32 :=
  let R := kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)
  (VO0_4.read (Elt F) VO0_4.junk, VS0_0.read (Elt F) (VS0_0.writes (Elt F) VS0_0.junk R.1), VS0_1.read (Elt F) (VS0_1.writes (Elt F) VS0_1.junk R.2.1), VS0_2.read (Elt F) (VS0_2.writes (Elt F) VS0_2.junk R.2.2.1), VS0_3.read (Elt F) (VS0_3.writes (Elt F) VS0_3.junk R.2.2.2.1))

/-- What case B leaves, from the four numbers the point before left. -/
def outsB (c : Dev nD) (t : Fin cfg0.N) (hc0 : ¬cond0_0 (grid0.coords t)) (hc1 : ¬cond0_1 (grid0.coords t)) (xs : Vec F S2048x1 .f32 × Vec F S2048x1 .f32 × Vec F S2048x1 .f32 × Vec F S2048x1 .f32) : Vec F S2048x1 .f32 × Vec F S2048x1 .f32 × Vec F S2048x1 .f32 × Vec F S2048x1 .f32 × Vec F S2048x1 .f32 :=
  let R := kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2
  (VO0_4.read (Elt F) VO0_4.junk, VS0_0.read (Elt F) (VS0_0.writes (Elt F) VS0_0.junk R.1), VS0_1.read (Elt F) (VS0_1.writes (Elt F) VS0_1.junk R.2.1), VS0_2.read (Elt F) (VS0_2.writes (Elt F) VS0_2.junk R.2.2.1), VS0_3.read (Elt F) (VS0_3.writes (Elt F) VS0_3.junk R.2.2.2.1))

/-- What case C leaves: the output block holds the losses. -/
def outsC (c : Dev nD) (t : Fin cfg0.N) (hc0 : ¬cond0_0 (grid0.coords t)) (hc1 : cond0_1 (grid0.coords t)) (xs : Vec F S2048x1 .f32 × Vec F S2048x1 .f32 × Vec F S2048x1 .f32 × Vec F S2048x1 .f32) : Vec F S2048x1 .f32 × Vec F S2048x1 .f32 × Vec F S2048x1 .f32 × Vec F S2048x1 .f32 × Vec F S2048x1 .f32 :=
  let R := kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2
  (VO0_4.read (Elt F) (VO0_4.writes (Elt F) VO0_4.junk R.1), VS0_0.read (Elt F) (VS0_0.writes (Elt F) VS0_0.junk R.2.1), VS0_1.read (Elt F) (VS0_1.writes (Elt F) VS0_1.junk R.2.2.1), VS0_2.read (Elt F) (VS0_2.writes (Elt F) VS0_2.junk R.2.2.2.1), VS0_3.read (Elt F) (VS0_3.writes (Elt F) VS0_3.junk R.2.2.2.2.1))

/-! ## Point by point -/

theorem notLast_of_first {n : ℕ} (hn : n < cfg0.N) (h0 : n % 32 = 0) : ¬cond0_1 (grid0.coords ⟨n, hn⟩) := fun h => by
  have := (hcond0_1 ⟨n, hn⟩).mp h; dsimp only at this; omega

/-- What the output block and the four running buffers hold after the body at position `n`. -/
def outsAt0 (c : Dev nD) : (n : ℕ) → n < cfg0.N → Vec F S2048x1 .f32 × Vec F S2048x1 .f32 × Vec F S2048x1 .f32 × Vec F S2048x1 .f32 × Vec F S2048x1 .f32
  | 0, hn => outsA m c ⟨0, hn⟩ ((hcond0_0 ⟨0, hn⟩).mpr (Nat.zero_mod _)) (notLast_of_first hn (Nat.zero_mod _))
  | n + 1, hn =>
    if h0 : (n + 1) % 32 = 0 then
      outsA m c ⟨n + 1, hn⟩ ((hcond0_0 ⟨n + 1, hn⟩).mpr h0) (notLast_of_first hn h0)
    else if h1 : (n + 1) % 32 = 31 then
      outsC m c ⟨n + 1, hn⟩ (fun h => h0 ((hcond0_0 ⟨n + 1, hn⟩).mp h)) ((hcond0_1 ⟨n + 1, hn⟩).mpr h1) (outsAt0 c n (Nat.lt_of_succ_lt hn)).2
    else
      outsB m c ⟨n + 1, hn⟩ (fun h => h0 ((hcond0_0 ⟨n + 1, hn⟩).mp h)) (fun h => h1 ((hcond0_1 ⟨n + 1, hn⟩).mp h)) (outsAt0 c n (Nat.lt_of_succ_lt hn)).2

theorem outsAt0_A (c : Dev nD) (t : Fin cfg0.N) (h0 : t.val % 32 = 0) :
    outsAt0 m c t.val t.isLt = outsA m c t ((hcond0_0 t).mpr h0) (notLast_of_first t.isLt h0) := by
  obtain ⟨n, hn⟩ := t
  cases n with
  | zero => rfl
  | succ n => exact (dif_pos h0)

theorem outsAt0_B (c : Dev nD) (t : Fin cfg0.N) (h0 : ¬t.val % 32 = 0) (h1 : ¬t.val % 32 = 31) :
    outsAt0 m c t.val t.isLt = outsB m c t (fun h => h0 ((hcond0_0 t).mp h)) (fun h => h1 ((hcond0_1 t).mp h))
      (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 32 = 0) (h1 : t.val % 32 = 31) :
    outsAt0 m c t.val t.isLt = outsC m c t (fun h => h0 ((hcond0_0 t).mp h)) ((hcond0_1 t).mpr h1)
      (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The four running buffers at given contents. -/
def owns4 (c : Dev nD) (xs : Vec F S2048x1 .f32 × Vec F S2048x1 .f32 × Vec F S2048x1 .f32 × Vec F S2048x1 .f32) : sProp 𝕄 :=
  iprop(owns (c : Thread nD τ) scM0_0 fullShare xs.1 ∗ owns (c : Thread nD τ) scM0_1 fullShare xs.2.1
    ∗ owns (c : Thread nD τ) scM0_2 fullShare xs.2.2.1 ∗ owns (c : Thread nD τ) scM0_3 fullShare xs.2.2.2)

/-- The invariant before position `n`: before the first point the four buffers at anything; afterwards at what the point
    before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns4 c (outsAt0 m c n hn).2

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) : PhiS m c (n + 1) hn = owns4 c (outsAt0 m c n hn).2 := rfl

theorem PhiS_pos (c : Dev nD) (n : ℕ) (h : n ≤ cfg0.N) (hz : n ≠ 0) :
    PhiS m c n h = owns4 c (outsAt0 m c (n - 1) (by omega)).2 := by
  cases n with
  | zero => exact absurd rfl hz
  | succ n => rfl

/-- Owning the four buffers at named contents is owning them at some. -/
theorem owns4_forget (c : Dev nD) (xs : Vec F S2048x1 .f32 × Vec F S2048x1 .f32 × Vec F S2048x1 .f32 × Vec F S2048x1 .f32) :
    owns4 (F := F) c xs ⊢ iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  unfold owns4
  iintro ⟨H0, H1, H2, H3⟩
  isplitl [H0]; · iexists _; iexact H0
  isplitl [H1]; · iexists _; iexact H1
  isplitl [H2]; · iexists _; iexact H2
  iexists _; iexact H3

/-! ## The proof data -/

/-- On core `c`: the arrays as the region finds them; after the body each input's buffer at its block, the output's at
    `outsAt0`; the invariant `PhiS`; nothing owed; the feature matrix's share dealt in halves to its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point: the inputs' buffers hold their blocks; the closed forms say which case the point is in; the
    invariant hands the body the four running buffers at what the point before left (at anything before the first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 32 = 0
  · have hc0 : cond0_0 (grid0.coords t) := (hcond0_0 t).mpr h0
    have hc1 : ¬cond0_1 (grid0.coords t) := notLast_of_first t.isLt h0
    rw [Dat.leavesExact_idle (dats m 0 c) 4 t (idleAt0_4 t hc1) (noFlush0_4 t hc1)]
    rw [outsAt0_A m c t h0]
    unfold outsA; dsimp only
    by_cases hz : t.val = 0
    · rw [PhiS_castSucc m c t, PhiS_zero m c _ _ hz, scopedRest_owns]
      iintro ⟨⟨HS0, HS1, HS2, HS3⟩, Ho, ⟨%d0, H0⟩, ⟨%d1, H1⟩, ⟨%d2, H2⟩, ⟨%d3, H3⟩, ⟨%d4, H4⟩⟩
      iapply ((kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3]
      · unfold owns4; dsimp only
        isplitl [HS0]
        · unfold owns; iexists _; isplitr
          swap; · iexact HS0
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).1)
        isplitl [HS1]
        · unfold owns; iexists _; isplitr
          swap; · iexact HS1
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.1)
        isplitl [HS2]
        · unfold owns; iexists _; isplitr
          swap; · iexact HS2
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.2.1)
        unfold owns; iexists _; isplitr
        swap; · iexact HS3
        ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.2.2)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      ihave HS' := (owns4_forget c _) $$ HS
      icases HS' with ⟨HS0, HS1, HS2, HS3⟩
      iapply ((kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3]
      · unfold owns4; dsimp only
        isplitl [HS0]
        · unfold owns; iexists _; isplitr
          swap; · iexact HS0
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).1)
        isplitl [HS1]
        · unfold owns; iexists _; isplitr
          swap; · iexact HS1
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.1)
        isplitl [HS2]
        · unfold owns; iexists _; isplitr
          swap; · iexact HS2
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.2.1)
        unfold owns; iexists _; isplitr
        swap; · iexact HS3
        ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.2.2)
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hz : t.val ≠ 0 := fun h => h0 (by rw [h])
    by_cases h1 : t.val % 32 = 31
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [outsAt0_C m c t h0 h1]
      unfold outsC; dsimp only
      rw [PhiS_castSucc m c t, PhiS_pos m c _ _ hz]
      unfold owns4
      iintro ⟨⟨HS0, HS1, HS2, HS3⟩, Ho, ⟨%d0, H0⟩, ⟨%d1, H1⟩, ⟨%d2, H2⟩, ⟨%d3, H3⟩, ⟨%d4, H4⟩⟩
      iapply ((kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, ⟨%e3, HS3⟩⟩
      isplitl [HS0 HS1 HS2 HS3]
      · dsimp only
        isplitl [HS0]
        · unfold owns; iexists _; isplitr
          swap; · iexact HS0
          ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.1)
        isplitl [HS1]
        · unfold owns; iexists _; isplitr
          swap; · iexact HS1
          ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.1)
        isplitl [HS2]
        · unfold owns; iexists _; isplitr
          swap; · iexact HS2
          ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.2.1)
        unfold owns; iexists _; isplitr
        swap; · iexact HS3
        ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.2.2)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).1)
    · have hc1 : ¬cond0_1 (grid0.coords t) := fun h => h1 ((hcond0_1 t).mp h)
      rw [Dat.leavesExact_idle (dats m 0 c) 4 t (idleAt0_4 t hc1) (noFlush0_4 t hc1)]
      rw [outsAt0_B m c t h0 h1]
      unfold outsB; dsimp only
      rw [PhiS_castSucc m c t, PhiS_pos m c _ _ hz]
      unfold owns4
      iintro ⟨⟨HS0, HS1, HS2, HS3⟩, Ho, ⟨%d0, H0⟩, ⟨%d1, H1⟩, ⟨%d2, H2⟩, ⟨%d3, H3⟩, ⟨%d4, H4⟩⟩
      iapply ((kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3]
      · dsimp only
        isplitl [HS0]
        · unfold owns; iexists _; isplitr
          swap; · iexact HS0
          ipureintro; exact View.read_writes_of_cover _ _ _ _ _ (fun y => (scoverB (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).1)
        isplitl [HS1]
        · unfold owns; iexists _; isplitr
          swap; · iexact HS1
          ipureintro; exact View.read_writes_of_cover _ _ _ _ _ (fun y => (scoverB (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.1)
        isplitl [HS2]
        · unfold owns; iexists _; isplitr
          swap; · iexact HS2
          ipureintro; exact View.read_writes_of_cover _ _ _ _ _ (fun y => (scoverB (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.1)
        unfold owns; iexists _; isplitr
        swap; · iexact HS3
        ipureintro; exact View.read_writes_of_cover _ _ _ _ _ (fun y => (scoverB (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.2)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After any point but the first the invariant gives the four buffers back, their contents forgotten. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scopedRest_owns]
  exact owns4_forget c _

/-- The same after the last point. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 128 := N_0; omega)

end Cert.Kernel.Hand

end
-- ==== Proof.K.Launch.lean ====
/-
  The launch: @main is five layout operations, the kernel region, and two closing operations (the sum of the rows'
  losses and its division by the number of rows).  The feature matrix is one array read through two windows; the
  region is entered by dealing the array's full share to them in halves and left by joining the halves again, after
  which the closing operations run over all of the core's buffers, the result array now holding what the write-backs
  left.  At the end every buffer is read back against the final memory.
-/
import proofs.«142344_j74028056314074_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-! ## One array, two windows -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The windows' arrays at the proof data's shares, one by one: the feature matrix twice, at the two halves. -/
theorem arrays_eq_shares (c : Dev nD) (Fw : (w : Fin cfg0.W) → Buf (Elt F) ((cfg0.win w).arr.view.loc (c : Thread nD τ))) :
    ((dats m 0 c).arrays Fw : sProp 𝕄)
      = iprop((((c : Thread nD τ).loc main_v1) ↦{fullShare.left} Fw 0) ∗ (((c : Thread nD τ).loc main_v1) ↦{fullShare.right} Fw 1)
          ∗ (((c : Thread nD τ).loc main_v3) ↦{fullShare} Fw 2) ∗ (((c : Thread nD τ).loc main_v4) ↦{fullShare} Fw 3)
          ∗ (((c : Thread nD τ).loc main_v5) ↦{fullShare} Fw 4)) := by
  have h : ((dats m 0 c).arrays Fw : sProp 𝕄)
      = bigSep Finset.univ fun w : Fin cfg0.W => (((c : Thread nD τ).loc (Pipeline.arrRef spec0 w)) ↦{(dats m 0 c).share w} Fw w : sProp 𝕄) := by
    unfold Dat.arrays
    exact bigSep_congr fun w _ => by rw [(arr_whole0 w).set_eq_univ]
  rw [h, bigSep_W0, share_0, share_1, share_2, share_3, share_4]

/-- The four distinct buffers behind the windows' arrays, each whole at the full share. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v1) ↦{fullShare} Vv main_v1) ∗ (((c : Thread nD τ).loc main_v3) ↦{fullShare} Vv main_v3)
          ∗ (((c : Thread nD τ).loc main_v4) ↦{fullShare} Vv main_v4) ∗ (((c : Thread nD τ).loc main_v5) ↦{fullShare} Vv main_v5)) := by
  unfold Pipeline.arrBufs
  exact bigSep_eq_bigSepL_of_eq [main_v1, main_v3, main_v4, main_v5] (by decide) (by decide) _

/-- Dealing the feature matrix's share to its two windows, and joining it again. -/
theorem arrays_iff (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      ⊣⊢ (dats m 0 c).arrays (fun w => Vv (Pipeline.arrRef spec0 w)) := by
  rw [arrBufs_eq, arrays_eq_shares]
  constructor
  · iintro ⟨H1, H3, H4, H5⟩
    ihave H1 := (pointsTo_share (PosShare.mem_left_op_right fullShare)).1 $$ H1
    icases H1 with ⟨Ha, Hb⟩
    isplitl [Ha]; · iexact Ha
    isplitl [Hb]; · iexact Hb
    isplitl [H3]; · iexact H3
    isplitl [H4]; · iexact H4
    iexact H5
  · iintro ⟨Ha, Hb, H3, H4, H5⟩
    isplitl [Ha Hb]
    · iapply (pointsTo_share (PosShare.mem_left_op_right fullShare)).2
      isplitl [Ha]; · iexact Ha
      iexact Hb
    isplitl [H3]; · iexact H3
    isplitl [H4]; · iexact H4
    iexact H5

/-! ## The buffers after the region -/

/-- Core `c`'s buffers when the region is left: the result array at what the write-backs made of it, every other buffer
    as the region found it. -/
def W₁ (c : Dev nD) : Valuation τ sig (Elt F) :=
  Function.update (V0 m c) (Proc.devRef .tc main_v5) ((dats m 0 c).arrAt 4 cfg0.N)

theorem W₁_v5 (c : Dev nD) : W₁ m c (Proc.devRef .tc main_v5) = (dats m 0 c).arrAt 4 cfg0.N := Function.update_self _ _ _

theorem W₁_of_ne (c : Dev nD) (b : Ref sig .tc) (hb : b ≠ main_v5) : W₁ m c (Proc.devRef .tc b) = V m c b :=
  Function.update_of_ne (fun h => hb (Proc.devRef_injective _ h)) _ _

/-- And after the two closing operations. -/
def Wfin (c : Dev nD) : Valuation τ sig (Elt F) := StableHlo.after hostOps1 (W₁ m c)

/-- Leaving the region: the windows' arrays at their final contents (the inputs never written, the two halves of the
    feature matrix joined) and the buffers that bypassed the region are all of the core's buffers at `W₁`. -/
theorem exit_held (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W₁ m c) : sProp 𝕄) := by
  rw [← Pipeline.unscopedBufs_held (Ix := Unit) (Name := ℕ) (U := UR sig nD τ) (Lvl := ℕ) c (W₁ m c)]
  rw [Pipeline.PerCore.unscopedBufs_split₀ (fun _ : Dev nD => cfgs) 0 c winFacts₀0.arr_unscoped]
  have harr : ∀ w : Fin cfg0.W, (dats m 0 c).arrAt w cfg0.N = W₁ m c (Proc.devRef .tc (Pipeline.arrRef spec0 w)) := fun w =>
    match w with
    | ⟨0, _⟩ => ((dats m 0 c).arrAt_in 0 rfl _).trans (W₁_of_ne m c main_v1 (by decide)).symm
    | ⟨1, _⟩ => ((dats m 0 c).arrAt_in 1 rfl _).trans (W₁_of_ne m c main_v1 (by decide)).symm
    | ⟨2, _⟩ => ((dats m 0 c).arrAt_in 2 rfl _).trans (W₁_of_ne m c main_v3 (by decide)).symm
    | ⟨3, _⟩ => ((dats m 0 c).arrAt_in 3 rfl _).trans (W₁_of_ne m c main_v4 (by decide)).symm
    | ⟨4, _⟩ => (W₁_v5 m c).symm
    | ⟨_ + 5, h⟩ => absurd h (Nat.not_lt.2 (Nat.le_add_left _ _))
  have hA : ((dats m 0 c).arrays ((dats m 0 c).arrAt · cfg0.N) : sProp 𝕄)
      = (dats m 0 c).arrays (fun w => W₁ m c (Proc.devRef .tc (Pipeline.arrRef spec0 w))) := by
    congr 1; funext w; exact harr w
  have hR : (Pipeline.unscopedRest (Ix := Unit) (Name := ℕ) (U := UR sig nD τ) (Lvl := ℕ) spec0 c (V m c) : sProp 𝕄)
      = Pipeline.unscopedRest spec0 c (fun b => W₁ m c (Proc.devRef .tc b)) := by
    rw [unscopedRest0_eq, unscopedRest0_eq, W₁_of_ne m c main_arg0 (by decide), W₁_of_ne m c main_arg1 (by decide), W₁_of_ne m c main_v0 (by decide),
      W₁_of_ne m c main_v2 (by decide), W₁_of_ne m c main_cst (by decide), W₁_of_ne m c main_v6 (by decide), W₁_of_ne m c main_cst_0 (by decide),
      W₁_of_ne m c main_v7 (by decide)]
  rw [hA, hR]
  iintro ⟨Ha, Hr⟩
  isplitl [Ha]
  · iapply (arrays_iff m c (fun b => W₁ m c (Proc.devRef .tc b))).2; iexact Ha
  iexact Hr

/-! ## The segments -/

/-- The five layout operations, over all of the core's buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The two closing operations (with their two constants), likewise, from the buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m) R

set_option backward.isDefEq.respectTransparency.types false in
/-- The region: entered from what the layout operations left — the windows' arrays into the pipeline, the feature matrix
    in halves, every other buffer bypassing —, left with all buffers at `W₁`. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W₁ m c) ∗ R c)
  X _ := iprop(emp)
  Y _ := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm]
    rw [Pipeline.PerCore.unscopedBufs_split₀ (fun _ : Dev nD => cfgs) 0 c winFacts₀0.arr_unscoped]
    iintro ⟨⟨⟨Hb, Hr⟩, HO⟩, -, -⟩
    ihave Ha := (arrays_iff m c (V m c)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    iintro ⟨-, -, Hr⟩
    iapply (hin m c); iexact Hr
  hout c := by
    rw [Pipeline.ownSems0_none]
    refine (hout m c).trans ?_
    iintro Hr
    isplitr; · iempintro
    isplitr; · iempintro
    iexact Hr
  hexit c := by
    iintro ⟨Ha, HO, -, HZ⟩
    imodintro
    isplitr [HO]
    · iapply (exit_held m c)
      isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

set_option backward.isDefEq.respectTransparency.types false in
/-- From any memory with zero counters every weakly fair execution of @main terminates, faulting nowhere, and every
    final state has each of the core's buffers at `Wfin`. -/
theorem run_main : θ_run defs (onTc (τ := τ) (main (F := F))) (s₀ m ρ)
    (fun r => ∀ c : Dev nD, ∀ b ∈ (Finset.univ.filter fun b : Ref sig .tc => ¬ b.isScoped),
      r.2.mem ((c : Thread nD τ).loc b) = Wfin m c (Proc.devRef .tc b)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = Wfin m c (Proc.devRef .tc b))
    (hfin := fun c s' => by
      rw [← Pipeline.unscopedBufs_held (Ix := Unit) (Name := ℕ) (U := UR sig nD τ) (Lvl := ℕ) c (Wfin m c)]
      unfold unscopedBufs
      iintro ⟨H, HSI⟩
      imodintro
      iapply (pointsTo_read_all _ (fun b => (c : Thread nD τ).loc b) (fun b => Wfin m c (Proc.devRef .tc b)) s')
      isplitl [H] <;> iassumption)
    (hQ := fun _ h => h)

/-- info: 'Cert.Kernel.Hand.run_main' depends on axioms: [propext, Classical.choice, Quot.sound] -/
#guard_msgs in #print axioms run_main

/-! ## The arguments end unchanged -/

/-- No layout operation writes a buffer other than its own result. -/
theorem not_written0 (b : Ref sig .tc) (hb : b ≠ main_v0 ∧ b ≠ main_v1 ∧ b ≠ main_v2 ∧ b ≠ main_v3 ∧ b ≠ main_v4) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

/-- Nor does a closing operation. -/
theorem not_written1 (b : Ref sig .tc) (hb : b ≠ main_cst ∧ b ≠ main_v6 ∧ b ≠ main_cst_0 ∧ b ≠ main_v7) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, StableHlo.reshape_writes, Finset.mem_singleton] <;>
    exact StableHlo.devRef_ne_of_ne ‹_›

/-- A buffer no operation writes and the region does not stage as its result ends as launched. -/
theorem Wfin_kept (c : Dev nD) (b : Ref sig .tc) (h0 : b ≠ main_v0 ∧ b ≠ main_v1 ∧ b ≠ main_v2 ∧ b ≠ main_v3 ∧ b ≠ main_v4) (h5 : b ≠ main_v5)
    (h1 : b ≠ main_cst ∧ b ≠ main_v6 ∧ b ≠ main_cst_0 ∧ b ≠ main_v7) : Wfin m c (Proc.devRef .tc b) = m ((c : Thread nD τ).loc b) :=
  (StableHlo.after_of_forall_not_mem (b := Proc.devRef .tc b) hostOps1 (W₁ m c) (not_written1 b h1)).trans
    ((W₁_of_ne m c b h5).trans (StableHlo.after_of_forall_not_mem (b := Proc.devRef .tc b) hostOps0 (V₀ m c) (not_written0 b h0)))

/-- THE FRAME: the program runs to the end, faults nowhere, and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c main_arg0 (by decide)).trans (Wfin_kept m c main_arg0 (by decide) (by decide) (by decide)),
     (h c main_arg1 (by decide)).trans (Wfin_kept m c main_arg1 (by decide) (by decide) (by decide))⟩) (run_main m ρ)

end Cert.Kernel.Hand

end
-- ==== Proof.KI.Runs.lean ====
/-
  What the three runs of the kernel body share.  The grid has 4 × 32 points; point t = 32·i + j handles rows
  [2048 i, 2048 (i+1)) against columns [256 j, 256 (j+1)).  At j = 0 the body first resets the four per-row running
  numbers; at every j it folds the block in; at j = 31 it also writes the rows' losses.  So there are three cases:
  A (j = 0), B (0 < j < 31), C (j = 31); the output block is written (and written back) only in case C.
-/
import proofs.«142344_j74028056314074_1_alg».proof.Proof.Gen.KernelIdeal.Launch
import proofs.«142344_j74028056314074_1_alg».proof.Proof.Gen.KernelIdeal.Skeleton
import proofs.«142344_j74028056314074_1_alg».proof.Proof.Gen.KernelIdeal.Points
import Idealize.ShloMosaic.Lib.Pipeline.FrameBody
import Idealize.ShloMosaic.Lib.Pipeline.FrameSuffix
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffers at launch, as a valuation; -/
abbrev V₀ (c : Dev nD) : Valuation τ sig (Elt F) := fun b => m (c, b)
/-- after the five layout operations that precede the region (the feature matrix laid out as rows, the labels as a
    column and as a row); -/
abbrev V0 (c : Dev nD) : Valuation τ sig (Elt F) := StableHlo.after hostOps0 (V₀ m c)
/-- the same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: a block that is
    not fetched again has not moved, the windows being uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body, over the grid -/

/-- "This is the first block of columns" (j = 0), as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (by decide +kernel : ∀ t : Fin grid0.N, cond0_0 (grid0.coords t) ↔ t.val % 32 = 0)

/-- "This is the last block of columns" (j = 31). -/
abbrev cond0_1 (i : grid0.Coords) : Prop := k0_cond2 i = 1#1
theorem hcond0_1 : ∀ t : Fin cfg0.N, cond0_1 (grid0.coords t) ↔ t.val % 32 = 31 :=
  (by decide +kernel : ∀ t : Fin grid0.N, cond0_1 (grid0.coords t) ↔ t.val % 32 = 31)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last block of columns the output block is not stored into, nor written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last block of columns it is. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S2048x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x1 .f32 := win0_4.stage (cfg0.slots t 4)
abbrev hs0_4 (t : Fin cfg0.N) : (ms0_4 t).IsWhole := hstage0_4 ((cfg0.slots t 4).cast nbuf0_4)
/-- The four per-row running numbers live in four whole buffers of the kernel's own. -/
abbrev scM0_0 : Memref sig .tc .vmem S2048x1 .f32 := Memref.whole cc0_scratch0
abbrev scM0_1 : Memref sig .tc .vmem S2048x1 .f32 := Memref.whole cc0_scratch1
abbrev scM0_2 : Memref sig .tc .vmem S2048x1 .f32 := Memref.whole cc0_scratch2
abbrev scM0_3 : Memref sig .tc .vmem S2048x1 .f32 := Memref.whole cc0_scratch3
abbrev VS0_0 : View sig .tc .vmem S2048x1 .f32 := (scM0_0).view
abbrev VS0_1 : View sig .tc .vmem S2048x1 .f32 := (scM0_1).view
abbrev VS0_2 : View sig .tc .vmem S2048x1 .f32 := (scM0_2).view
abbrev VS0_3 : View sig .tc .vmem S2048x1 .f32 := (scM0_3).view
/-- One staging buffer of the output window, through which its contents are stated (the choice does not matter). -/
abbrev VO0_4 : View sig .tc .vmem S2048x1 .f32 := (Memref.whole cc0_stg4_0 : Memref sig .tc .vmem S2048x1 .f32).view

/-- The kernel's own buffers, each whole at some contents, as four owned memrefs. -/
theorem scopedRest_owns (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.KernelIdeal.Hand

end
-- ==== Proof.KI.RunA.lean ====
/-
  The body at a point of the first block of columns (j = 0): the four running numbers are reset, then the block is
  folded in.  Whatever the four buffers held before is overwritten; the output block is handed back untouched.
-/
import proofs.«142344_j74028056314074_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case A.  The pieces each of the four buffers ends with are found by the run. -/
noncomputable def kernelRun0_A (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i)
    (x0 : Vec F S2048x512 .f32) (x1 : Vec F S256x512 .f32) (x2 : Vec F S2048x1 .i32) (x3 : Vec F S1x256 .i32) :
    Σ' (LS0 : List (View.Piece (Elt F) S2048x1 .f32)) (LS1 : List (View.Piece (Elt F) S2048x1 .f32)) (LS2 : List (View.Piece (Elt F) S2048x1 .f32)), { LS3 : List (View.Piece (Elt F) S2048x1 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/-
  The body at a point of a middle block of columns (0 < j < 31): the block is folded into the four running numbers the
  point before left; the output block is handed back untouched.
-/
import proofs.«142344_j74028056314074_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case B. -/
noncomputable def kernelRun0_B (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i)
    (x0 : Vec F S2048x512 .f32) (x1 : Vec F S256x512 .f32) (x2 : Vec F S2048x1 .i32) (x3 : Vec F S1x256 .i32) (xs0 xs1 xs2 xs3 : Vec F S2048x1 .f32) :
    Σ' (LS0 : List (View.Piece (Elt F) S2048x1 .f32)) (LS1 : List (View.Piece (Elt F) S2048x1 .f32)) (LS2 : List (View.Piece (Elt F) S2048x1 .f32)), { LS3 : List (View.Piece (Elt F) S2048x1 .f32) //
      ∀ (xi4 : Vec F S2048x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, ?_, ?_, ?_, fun xi4 E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    isplitl [HS1]; · iexists _; iexact HS1
    isplitl [HS2]; · iexists _; iexact HS2
    iexists _; iexact HS3

end Cert.KernelIdeal.Hand

end
-- ==== Proof.KI.RunC.lean ====
/-
  The body at a point of the last block of columns (j = 31): the block is folded in, and the rows' losses are computed
  from the four running numbers and stored over the whole output block.
-/
import proofs.«142344_j74028056314074_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Case C. -/
noncomputable def kernelRun0_C (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i)
    (x0 : Vec F S2048x512 .f32) (x1 : Vec F S256x512 .f32) (x2 : Vec F S2048x1 .i32) (x3 : Vec F S1x256 .i32) (xs0 xs1 xs2 xs3 : Vec F S2048x1 .f32) :
    Σ' (L4 : List (View.Piece (Elt F) S2048x1 .f32)) (LS0 : List (View.Piece (Elt F) S2048x1 .f32)) (LS1 : List (View.Piece (Elt F) S2048x1 .f32)) (LS2 : List (View.Piece (Elt F) S2048x1 .f32)), { LS3 : List (View.Piece (Elt F) S2048x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ owns (c : Thread nD τ) arg7 fullShare xs0 ∗ owns (c : Thread nD τ) arg8 fullShare xs1 ∗ owns (c : Thread nD τ) arg9 fullShare xs2 ∗ owns (c : Thread nD τ) arg10 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2) ∗ (∃ f, arg10.view.loc (c : Thread nD τ) ↦[arg10.view.set]{fullShare} arg10.view.writes (Elt F) f LS3)) -∗ K ⟨⟩))
          ⊢ wp frame (wpE (defs₀ (F := F)) Variants.none c none) E (cc0__contrastive_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__contrastive_kernel_eq_skeleton]; unfold cc0__contrastive_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3
    obtain rfl := harg7.eq_unread hfs0; obtain rfl := harg8.eq_unread hfs1; obtain rfl := harg9.eq_unread hfs2; obtain rfl := harg10.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    isplitl [HS1]; · iexists _; iexact HS1
    isplitl [HS2]; · iexists _; iexact HS2
    iexists _; iexact HS3

end Cert.KernelIdeal.Hand

end
-- ==== Proof.KI.Frame.lean ====
/-
  The frame of the kernel region, point by point.  After point t the four running buffers hold what the point's case
  left there (`outsAt0`): at j = 0 the reset values with the first block folded in, afterwards the previous point's
  numbers with this block folded in; at j = 31 the output block holds the rows' losses read off those numbers.  The
  proof data say so; the body obligation is the three runs, chosen by the closed forms of the two conditions.
  The feature matrix is read through two windows (row blocks and column blocks): each holds half of the array's share.
-/
import proofs.«142344_j74028056314074_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves, as values -/

/-- The pieces a case stores into a running buffer tile it. -/
theorem scoverA (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i) (x0 : Vec F S2048x512 .f32) (x1 : Vec F S256x512 .f32) (x2 : Vec F S2048x1 .i32) (x3 : Vec F S1x256 .i32) (y : S2048x1.Idx) :
    (∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set)
    ∧ (∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set)
    ∧ (∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set)
    ∧ (∃ pc ∈ (kernelRun0_A c i arg2 harg2 arg3 harg3 arg4 harg4 arg5 harg5 arg6 harg6 arg7 harg7 arg8 harg8 arg9 harg9 arg10 harg10 hc0 hc1 x0 x1 x2 x3).2.2.2.1, y ∈ pc.1.set) :=
  ⟨View.cover_of_tiledL _ S2048x1.size (by sl_kernel_rfl) y, View.cover_of_tiledL _ S2048x1.size (by sl_kernel_rfl) y,
   View.cover_of_tiledL _ S2048x1.size (by sl_kernel_rfl) y, View.cover_of_tiledL _ S2048x1.size (by sl_kernel_rfl) y⟩

theorem scoverB (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i) (x0 : Vec F S2048x512 .f32) (x1 : Vec F S256x512 .f32) (x2 : Vec F S2048x1 .i32) (x3 : Vec F S1x256 .i32) (xs0 xs1 xs2 xs3 : Vec F S2048x1 .f32) (y : S2048x1.Idx) :
    (∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).1, y ∈ pc.1.set)
    ∧ (∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set)
    ∧ (∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set)
    ∧ (∃ pc ∈ (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set) :=
  ⟨View.cover_of_tiledL _ S2048x1.size (by sl_kernel_rfl) y, View.cover_of_tiledL _ S2048x1.size (by sl_kernel_rfl) y,
   View.cover_of_tiledL _ S2048x1.size (by sl_kernel_rfl) y, View.cover_of_tiledL _ S2048x1.size (by sl_kernel_rfl) y⟩

theorem scoverC (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i) (x0 : Vec F S2048x512 .f32) (x1 : Vec F S256x512 .f32) (x2 : Vec F S2048x1 .i32) (x3 : Vec F S1x256 .i32) (xs0 xs1 xs2 xs3 : Vec F S2048x1 .f32) (y : S2048x1.Idx) :
    (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).1, y ∈ pc.1.set)
    ∧ (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.1, y ∈ pc.1.set)
    ∧ (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.1, y ∈ pc.1.set)
    ∧ (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1, y ∈ pc.1.set)
    ∧ (∃ pc ∈ (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1, y ∈ pc.1.set) :=
  ⟨View.cover_of_tiledL _ S2048x1.size (by sl_kernel_rfl) y, View.cover_of_tiledL _ S2048x1.size (by sl_kernel_rfl) y,
   View.cover_of_tiledL _ S2048x1.size (by sl_kernel_rfl) y, View.cover_of_tiledL _ S2048x1.size (by sl_kernel_rfl) y,
   View.cover_of_tiledL _ S2048x1.size (by sl_kernel_rfl) y⟩

/-- What case A leaves: (the output block — untouched, a placeholder nothing reads —, then the four running buffers). -/
def outsA (c : Dev nD) (t : Fin cfg0.N) (hc0 : cond0_0 (grid0.coords t)) (hc1 : ¬cond0_1 (grid0.coords t)) : Vec F S2048x1 .f32 × Vec F S2048x1 .f32 × Vec F S2048x1 .f32 × Vec F S2048x1 .f32 × Vec F S2048x1 .f32 :=
  let R := kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)
  (VO0_4.read (Elt F) VO0_4.junk, VS0_0.read (Elt F) (VS0_0.writes (Elt F) VS0_0.junk R.1), VS0_1.read (Elt F) (VS0_1.writes (Elt F) VS0_1.junk R.2.1), VS0_2.read (Elt F) (VS0_2.writes (Elt F) VS0_2.junk R.2.2.1), VS0_3.read (Elt F) (VS0_3.writes (Elt F) VS0_3.junk R.2.2.2.1))

/-- What case B leaves, from the four numbers the point before left. -/
def outsB (c : Dev nD) (t : Fin cfg0.N) (hc0 : ¬cond0_0 (grid0.coords t)) (hc1 : ¬cond0_1 (grid0.coords t)) (xs : Vec F S2048x1 .f32 × Vec F S2048x1 .f32 × Vec F S2048x1 .f32 × Vec F S2048x1 .f32) : Vec F S2048x1 .f32 × Vec F S2048x1 .f32 × Vec F S2048x1 .f32 × Vec F S2048x1 .f32 × Vec F S2048x1 .f32 :=
  let R := kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2
  (VO0_4.read (Elt F) VO0_4.junk, VS0_0.read (Elt F) (VS0_0.writes (Elt F) VS0_0.junk R.1), VS0_1.read (Elt F) (VS0_1.writes (Elt F) VS0_1.junk R.2.1), VS0_2.read (Elt F) (VS0_2.writes (Elt F) VS0_2.junk R.2.2.1), VS0_3.read (Elt F) (VS0_3.writes (Elt F) VS0_3.junk R.2.2.2.1))

/-- What case C leaves: the output block holds the losses. -/
def outsC (c : Dev nD) (t : Fin cfg0.N) (hc0 : ¬cond0_0 (grid0.coords t)) (hc1 : cond0_1 (grid0.coords t)) (xs : Vec F S2048x1 .f32 × Vec F S2048x1 .f32 × Vec F S2048x1 .f32 × Vec F S2048x1 .f32) : Vec F S2048x1 .f32 × Vec F S2048x1 .f32 × Vec F S2048x1 .f32 × Vec F S2048x1 .f32 × Vec F S2048x1 .f32 :=
  let R := kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2
  (VO0_4.read (Elt F) (VO0_4.writes (Elt F) VO0_4.junk R.1), VS0_0.read (Elt F) (VS0_0.writes (Elt F) VS0_0.junk R.2.1), VS0_1.read (Elt F) (VS0_1.writes (Elt F) VS0_1.junk R.2.2.1), VS0_2.read (Elt F) (VS0_2.writes (Elt F) VS0_2.junk R.2.2.2.1), VS0_3.read (Elt F) (VS0_3.writes (Elt F) VS0_3.junk R.2.2.2.2.1))

/-! ## Point by point -/

theorem notLast_of_first {n : ℕ} (hn : n < cfg0.N) (h0 : n % 32 = 0) : ¬cond0_1 (grid0.coords ⟨n, hn⟩) := fun h => by
  have := (hcond0_1 ⟨n, hn⟩).mp h; dsimp only at this; omega

/-- What the output block and the four running buffers hold after the body at position `n`. -/
def outsAt0 (c : Dev nD) : (n : ℕ) → n < cfg0.N → Vec F S2048x1 .f32 × Vec F S2048x1 .f32 × Vec F S2048x1 .f32 × Vec F S2048x1 .f32 × Vec F S2048x1 .f32
  | 0, hn => outsA m c ⟨0, hn⟩ ((hcond0_0 ⟨0, hn⟩).mpr (Nat.zero_mod _)) (notLast_of_first hn (Nat.zero_mod _))
  | n + 1, hn =>
    if h0 : (n + 1) % 32 = 0 then
      outsA m c ⟨n + 1, hn⟩ ((hcond0_0 ⟨n + 1, hn⟩).mpr h0) (notLast_of_first hn h0)
    else if h1 : (n + 1) % 32 = 31 then
      outsC m c ⟨n + 1, hn⟩ (fun h => h0 ((hcond0_0 ⟨n + 1, hn⟩).mp h)) ((hcond0_1 ⟨n + 1, hn⟩).mpr h1) (outsAt0 c n (Nat.lt_of_succ_lt hn)).2
    else
      outsB m c ⟨n + 1, hn⟩ (fun h => h0 ((hcond0_0 ⟨n + 1, hn⟩).mp h)) (fun h => h1 ((hcond0_1 ⟨n + 1, hn⟩).mp h)) (outsAt0 c n (Nat.lt_of_succ_lt hn)).2

theorem outsAt0_A (c : Dev nD) (t : Fin cfg0.N) (h0 : t.val % 32 = 0) :
    outsAt0 m c t.val t.isLt = outsA m c t ((hcond0_0 t).mpr h0) (notLast_of_first t.isLt h0) := by
  obtain ⟨n, hn⟩ := t
  cases n with
  | zero => rfl
  | succ n => exact (dif_pos h0)

theorem outsAt0_B (c : Dev nD) (t : Fin cfg0.N) (h0 : ¬t.val % 32 = 0) (h1 : ¬t.val % 32 = 31) :
    outsAt0 m c t.val t.isLt = outsB m c t (fun h => h0 ((hcond0_0 t).mp h)) (fun h => h1 ((hcond0_1 t).mp h))
      (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans (dif_neg h1)

theorem outsAt0_C (c : Dev nD) (t : Fin cfg0.N) (h0 : ¬t.val % 32 = 0) (h1 : t.val % 32 = 31) :
    outsAt0 m c t.val t.isLt = outsC m c t (fun h => h0 ((hcond0_0 t).mp h)) ((hcond0_1 t).mpr h1)
      (outsAt0 m c (t.val - 1) (Nat.lt_of_le_of_lt (Nat.sub_le _ _) t.isLt)).2 := by
  obtain ⟨n, hn⟩ := t
  cases n with
  | zero => exact absurd (Nat.zero_mod _) h0
  | succ n => exact (dif_neg h0).trans (dif_pos h1)

/-- The four running buffers at given contents. -/
def owns4 (c : Dev nD) (xs : Vec F S2048x1 .f32 × Vec F S2048x1 .f32 × Vec F S2048x1 .f32 × Vec F S2048x1 .f32) : sProp 𝕄 :=
  iprop(owns (c : Thread nD τ) scM0_0 fullShare xs.1 ∗ owns (c : Thread nD τ) scM0_1 fullShare xs.2.1
    ∗ owns (c : Thread nD τ) scM0_2 fullShare xs.2.2.1 ∗ owns (c : Thread nD τ) scM0_3 fullShare xs.2.2.2)

/-- The invariant before position `n`: before the first point the four buffers at anything; afterwards at what the point
    before left. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => owns4 c (outsAt0 m c n hn).2

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl

theorem PhiS_succ (c : Dev nD) (n : ℕ) (hn : n < cfg0.N) : PhiS m c (n + 1) hn = owns4 c (outsAt0 m c n hn).2 := rfl

theorem PhiS_pos (c : Dev nD) (n : ℕ) (h : n ≤ cfg0.N) (hz : n ≠ 0) :
    PhiS m c n h = owns4 c (outsAt0 m c (n - 1) (by omega)).2 := by
  cases n with
  | zero => exact absurd rfl hz
  | succ n => rfl

/-- Owning the four buffers at named contents is owning them at some. -/
theorem owns4_forget (c : Dev nD) (xs : Vec F S2048x1 .f32 × Vec F S2048x1 .f32 × Vec F S2048x1 .f32 × Vec F S2048x1 .f32) :
    owns4 (F := F) c xs ⊢ iprop((∃ d, owns (c : Thread nD τ) scM0_0 fullShare d) ∗ (∃ d, owns (c : Thread nD τ) scM0_1 fullShare d)
          ∗ (∃ d, owns (c : Thread nD τ) scM0_2 fullShare d) ∗ (∃ d, owns (c : Thread nD τ) scM0_3 fullShare d)) := by
  unfold owns4
  iintro ⟨H0, H1, H2, H3⟩
  isplitl [H0]; · iexists _; iexact H0
  isplitl [H1]; · iexists _; iexact H1
  isplitl [H2]; · iexists _; iexact H2
  iexists _; iexact H3

/-! ## The proof data -/

/-- On core `c`: the arrays as the region finds them; after the body each input's buffer at its block, the output's at
    `outsAt0`; the invariant `PhiS`; nothing owed; the feature matrix's share dealt in halves to its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t)

set_option maxHeartbeats 4800000 in
/-- The body at any point: the inputs' buffers hold their blocks; the closed forms say which case the point is in; the
    invariant hands the body the four running buffers at what the point before left (at anything before the first
    point) and takes them back at this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  by_cases h0 : t.val % 32 = 0
  · have hc0 : cond0_0 (grid0.coords t) := (hcond0_0 t).mpr h0
    have hc1 : ¬cond0_1 (grid0.coords t) := notLast_of_first t.isLt h0
    rw [Dat.leavesExact_idle (dats m 0 c) 4 t (idleAt0_4 t hc1) (noFlush0_4 t hc1)]
    rw [outsAt0_A m c t h0]
    unfold outsA; dsimp only
    by_cases hz : t.val = 0
    · rw [PhiS_castSucc m c t, PhiS_zero m c _ _ hz, scopedRest_owns]
      iintro ⟨⟨HS0, HS1, HS2, HS3⟩, Ho, ⟨%d0, H0⟩, ⟨%d1, H1⟩, ⟨%d2, H2⟩, ⟨%d3, H3⟩, ⟨%d4, H4⟩⟩
      iapply ((kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3]
      · unfold owns4; dsimp only
        isplitl [HS0]
        · unfold owns; iexists _; isplitr
          swap; · iexact HS0
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).1)
        isplitl [HS1]
        · unfold owns; iexists _; isplitr
          swap; · iexact HS1
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.1)
        isplitl [HS2]
        · unfold owns; iexists _; isplitr
          swap; · iexact HS2
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.2.1)
        unfold owns; iexists _; isplitr
        swap; · iexact HS3
        ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.2.2)
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨HS, Ho, ⟨%d0, H0⟩, ⟨%d1, H1⟩, ⟨%d2, H2⟩, ⟨%d3, H3⟩, ⟨%d4, H4⟩⟩
      ihave HS' := (owns4_forget c _) $$ HS
      icases HS' with ⟨HS0, HS1, HS2, HS3⟩
      iapply ((kernelRun0_A (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3]
      · unfold owns4; dsimp only
        isplitl [HS0]
        · unfold owns; iexists _; isplitr
          swap; · iexact HS0
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).1)
        isplitl [HS1]
        · unfold owns; iexists _; isplitr
          swap; · iexact HS1
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.1)
        isplitl [HS2]
        · unfold owns; iexists _; isplitr
          swap; · iexact HS2
          ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.2.1)
        unfold owns; iexists _; isplitr
        swap; · iexact HS3
        ipureintro; exact View.read_writes_of_cover _ _ _ _ _ (fun y => (scoverA (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) y).2.2.2)
      isplitl [Ho]; · iexact Ho
      isplitl [H0]; · iexact H0
      isplitl [H1]; · iexact H1
      isplitl [H2]; · iexact H2
      isplitl [H3]; · iexact H3
      iexists _; iexact H4
  · have hc0 : ¬cond0_0 (grid0.coords t) := fun h => h0 ((hcond0_0 t).mp h)
    have hz : t.val ≠ 0 := fun h => h0 (by rw [h])
    by_cases h1 : t.val % 32 = 31
    · have hc1 : cond0_1 (grid0.coords t) := (hcond0_1 t).mpr h1
      rw [show (dats m 0 c).leavesExact 4 t = owns (c : Thread nD τ) (ms0_4 t) fullShare ((dats m 0 c).after 4 t) from by
        unfold Dat.leavesExact; rw [liveAt0_4 t hc1], after0_4]
      rw [outsAt0_C m c t h0 h1]
      unfold outsC; dsimp only
      rw [PhiS_castSucc m c t, PhiS_pos m c _ _ hz]
      unfold owns4
      iintro ⟨⟨HS0, HS1, HS2, HS3⟩, Ho, ⟨%d0, H0⟩, ⟨%d1, H1⟩, ⟨%d2, H2⟩, ⟨%d3, H3⟩, ⟨%d4, H4⟩⟩
      iapply ((kernelRun0_C (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2.2.2.2 Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      isplitl [HS2]; · iexact HS2
      isplitl [HS3]; · iexact HS3
      iintro ⟨H0, H1, H2, H3, ⟨%e4, H4⟩, ⟨%e0, HS0⟩, ⟨%e1, HS1⟩, ⟨%e2, HS2⟩, ⟨%e3, HS3⟩⟩
      isplitl [HS0 HS1 HS2 HS3]
      · dsimp only
        isplitl [HS0]
        · unfold owns; iexists _; isplitr
          swap; · iexact HS0
          ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.1)
        isplitl [HS1]
        · unfold owns; iexists _; isplitr
          swap; · iexact HS1
          ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.1)
        isplitl [HS2]
        · unfold owns; iexists _; isplitr
          swap; · iexact HS2
          ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.2.1)
        unfold owns; iexists _; isplitr
        swap; · iexact HS3
        ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.2.2)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (fun y => (scoverC (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).1)
    · have hc1 : ¬cond0_1 (grid0.coords t) := fun h => h1 ((hcond0_1 t).mp h)
      rw [Dat.leavesExact_idle (dats m 0 c) 4 t (idleAt0_4 t hc1) (noFlush0_4 t hc1)]
      rw [outsAt0_B m c t h0 h1]
      unfold outsB; dsimp only
      rw [PhiS_castSucc m c t, PhiS_pos m c _ _ hz]
      unfold owns4
      iintro ⟨⟨HS0, HS1, HS2, HS3⟩, Ho, ⟨%d0, H0⟩, ⟨%d1, H1⟩, ⟨%d2, H2⟩, ⟨%d3, H3⟩, ⟨%d4, H4⟩⟩
      iapply ((kernelRun0_B (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2).2.2.2.2 _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      isplitl [HS2]; · iexact HS2
      isplitl [HS3]; · iexact HS3
      iintro ⟨H0, H1, H2, H3, H4, ⟨%e0, HS0⟩, ⟨%e1, HS1⟩, ⟨%e2, HS2⟩, ⟨%e3, HS3⟩⟩
      isplitl [HS0 HS1 HS2 HS3]
      · dsimp only
        isplitl [HS0]
        · unfold owns; iexists _; isplitr
          swap; · iexact HS0
          ipureintro; exact View.read_writes_of_cover _ _ _ _ _ (fun y => (scoverB (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).1)
        isplitl [HS1]
        · unfold owns; iexists _; isplitr
          swap; · iexact HS1
          ipureintro; exact View.read_writes_of_cover _ _ _ _ _ (fun y => (scoverB (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.1)
        isplitl [HS2]
        · unfold owns; iexists _; isplitr
          swap; · iexact HS2
          ipureintro; exact View.read_writes_of_cover _ _ _ _ _ (fun y => (scoverB (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.1)
        unfold owns; iexists _; isplitr
        swap; · iexact HS3
        ipureintro; exact View.read_writes_of_cover _ _ _ _ _ (fun y => (scoverB (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2 y).2.2.2)
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) :
    (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]

/-- After any point but the first the invariant gives the four buffers back, their contents forgotten. -/
theorem Phi_out (c : Dev nD) (t : Fin (cfg0.N + 1)) (ht : t.val ≠ 0) :
    (dats m 0 c).Φ t ⊢ (Pipeline.scopedRest (Ix := Unit) (Name := ℕ) (U := UR sig nD τ) (Lvl := ℕ) (Val := Elt F) spec0 c : sProp 𝕄) := by
  rw [show (dats m 0 c).Φ t = PhiS m c t.val (Nat.le_of_lt_succ t.isLt) from rfl, PhiS_pos m c _ _ ht, scopedRest_owns]
  exact owns4_forget c _

/-- The same after the last point. -/
theorem hout (c : Dev nD) :
    (dats m 0 c).Φ (Fin.last cfg0.N) ⊢ (Pipeline.scopedRest (Ix := Unit) (Name := ℕ) (U := UR sig nD τ) (Lvl := ℕ) (Val := Elt F) spec0 c : sProp 𝕄) :=
  Phi_out m c _ (by rw [Fin.val_last]; have : cfg0.N = 128 := N_0; omega)

end Cert.KernelIdeal.Hand

end
-- ==== Proof.KI.Launch.lean ====
/-
  The launch: @main is five layout operations, the kernel region, and two closing operations (the sum of the rows'
  losses and its division by the number of rows).  The feature matrix is one array read through two windows; the
  region is entered by dealing the array's full share to them in halves and left by joining the halves again, after
  which the closing operations run over all of the core's buffers, the result array now holding what the write-backs
  left.  At the end every buffer is read back against the final memory.
-/
import proofs.«142344_j74028056314074_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none
abbrev EP : Emb (UR sig nD τ) (MT nD τ sig Unit (Elt F) ℕ (UR sig nD τ) ℕ) := emb₁
/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers: the core owing nothing. -/
abbrev R (c : Dev nD) : sProp 𝕄 := iprop(∃ W, owes (c : Thread nD τ) (0 : CellTallies nD τ sig Unit) W)

/-! ## One array, two windows -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- The windows' arrays at the proof data's shares, one by one: the feature matrix twice, at the two halves. -/
theorem arrays_eq_shares (c : Dev nD) (Fw : (w : Fin cfg0.W) → Buf (Elt F) ((cfg0.win w).arr.view.loc (c : Thread nD τ))) :
    ((dats m 0 c).arrays Fw : sProp 𝕄)
      = iprop((((c : Thread nD τ).loc main_v1) ↦{fullShare.left} Fw 0) ∗ (((c : Thread nD τ).loc main_v1) ↦{fullShare.right} Fw 1)
          ∗ (((c : Thread nD τ).loc main_v3) ↦{fullShare} Fw 2) ∗ (((c : Thread nD τ).loc main_v4) ↦{fullShare} Fw 3)
          ∗ (((c : Thread nD τ).loc main_v5) ↦{fullShare} Fw 4)) := by
  have h : ((dats m 0 c).arrays Fw : sProp 𝕄)
      = bigSep Finset.univ fun w : Fin cfg0.W => (((c : Thread nD τ).loc (Pipeline.arrRef spec0 w)) ↦{(dats m 0 c).share w} Fw w : sProp 𝕄) := by
    unfold Dat.arrays
    exact bigSep_congr fun w _ => by rw [(arr_whole0 w).set_eq_univ]
  rw [h, bigSep_W0, share_0, share_1, share_2, share_3, share_4]

/-- The four distinct buffers behind the windows' arrays, each whole at the full share. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v1) ↦{fullShare} Vv main_v1) ∗ (((c : Thread nD τ).loc main_v3) ↦{fullShare} Vv main_v3)
          ∗ (((c : Thread nD τ).loc main_v4) ↦{fullShare} Vv main_v4) ∗ (((c : Thread nD τ).loc main_v5) ↦{fullShare} Vv main_v5)) := by
  unfold Pipeline.arrBufs
  exact bigSep_eq_bigSepL_of_eq [main_v1, main_v3, main_v4, main_v5] (by decide) (by decide) _

/-- Dealing the feature matrix's share to its two windows, and joining it again. -/
theorem arrays_iff (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      ⊣⊢ (dats m 0 c).arrays (fun w => Vv (Pipeline.arrRef spec0 w)) := by
  rw [arrBufs_eq, arrays_eq_shares]
  constructor
  · iintro ⟨H1, H3, H4, H5⟩
    ihave H1 := (pointsTo_share (PosShare.mem_left_op_right fullShare)).1 $$ H1
    icases H1 with ⟨Ha, Hb⟩
    isplitl [Ha]; · iexact Ha
    isplitl [Hb]; · iexact Hb
    isplitl [H3]; · iexact H3
    isplitl [H4]; · iexact H4
    iexact H5
  · iintro ⟨Ha, Hb, H3, H4, H5⟩
    isplitl [Ha Hb]
    · iapply (pointsTo_share (PosShare.mem_left_op_right fullShare)).2
      isplitl [Ha]; · iexact Ha
      iexact Hb
    isplitl [H3]; · iexact H3
    isplitl [H4]; · iexact H4
    iexact H5

/-! ## The buffers after the region -/

/-- Core `c`'s buffers when the region is left: the result array at what the write-backs made of it, every other buffer
    as the region found it. -/
def W₁ (c : Dev nD) : Valuation τ sig (Elt F) :=
  Function.update (V0 m c) (Proc.devRef .tc main_v5) ((dats m 0 c).arrAt 4 cfg0.N)

theorem W₁_v5 (c : Dev nD) : W₁ m c (Proc.devRef .tc main_v5) = (dats m 0 c).arrAt 4 cfg0.N := Function.update_self _ _ _

theorem W₁_of_ne (c : Dev nD) (b : Ref sig .tc) (hb : b ≠ main_v5) : W₁ m c (Proc.devRef .tc b) = V m c b :=
  Function.update_of_ne (fun h => hb (Proc.devRef_injective _ h)) _ _

/-- And after the two closing operations. -/
def Wfin (c : Dev nD) : Valuation τ sig (Elt F) := StableHlo.after hostOps1 (W₁ m c)

/-- Leaving the region: the windows' arrays at their final contents (the inputs never written, the two halves of the
    feature matrix joined) and the buffers that bypassed the region are all of the core's buffers at `W₁`. -/
theorem exit_held (c : Dev nD) :
    iprop((dats m 0 c).arrays ((dats m 0 c).arrAt · cfg0.N)
        ∗ Pipeline.unscopedRest (Ix := Unit) (Name := ℕ) (U := UR sig nD τ) (Lvl := ℕ) spec0 c (V m c))
      ⊢ (StableHlo.held (c : Thread nD τ) (Pipeline.ucRefs τ sig) (W₁ m c) : sProp 𝕄) := by
  rw [← Pipeline.unscopedBufs_held (Ix := Unit) (Name := ℕ) (U := UR sig nD τ) (Lvl := ℕ) c (W₁ m c)]
  rw [Pipeline.PerCore.unscopedBufs_split₀ (fun _ : Dev nD => cfgs) 0 c winFacts₀0.arr_unscoped]
  have harr : ∀ w : Fin cfg0.W, (dats m 0 c).arrAt w cfg0.N = W₁ m c (Proc.devRef .tc (Pipeline.arrRef spec0 w)) := fun w =>
    match w with
    | ⟨0, _⟩ => ((dats m 0 c).arrAt_in 0 rfl _).trans (W₁_of_ne m c main_v1 (by decide)).symm
    | ⟨1, _⟩ => ((dats m 0 c).arrAt_in 1 rfl _).trans (W₁_of_ne m c main_v1 (by decide)).symm
    | ⟨2, _⟩ => ((dats m 0 c).arrAt_in 2 rfl _).trans (W₁_of_ne m c main_v3 (by decide)).symm
    | ⟨3, _⟩ => ((dats m 0 c).arrAt_in 3 rfl _).trans (W₁_of_ne m c main_v4 (by decide)).symm
    | ⟨4, _⟩ => (W₁_v5 m c).symm
    | ⟨_ + 5, h⟩ => absurd h (Nat.not_lt.2 (Nat.le_add_left _ _))
  have hA : ((dats m 0 c).arrays ((dats m 0 c).arrAt · cfg0.N) : sProp 𝕄)
      = (dats m 0 c).arrays (fun w => W₁ m c (Proc.devRef .tc (Pipeline.arrRef spec0 w))) := by
    congr 1; funext w; exact harr w
  have hR : (Pipeline.unscopedRest (Ix := Unit) (Name := ℕ) (U := UR sig nD τ) (Lvl := ℕ) spec0 c (V m c) : sProp 𝕄)
      = Pipeline.unscopedRest spec0 c (fun b => W₁ m c (Proc.devRef .tc b)) := by
    rw [unscopedRest0_eq, unscopedRest0_eq, W₁_of_ne m c main_arg0 (by decide), W₁_of_ne m c main_arg1 (by decide), W₁_of_ne m c main_v0 (by decide),
      W₁_of_ne m c main_v2 (by decide), W₁_of_ne m c main_cst (by decide), W₁_of_ne m c main_v6 (by decide), W₁_of_ne m c main_cst_0 (by decide),
      W₁_of_ne m c main_v7 (by decide)]
  rw [hA, hR]
  iintro ⟨Ha, Hr⟩
  isplitl [Ha]
  · iapply (arrays_iff m c (fun b => W₁ m c (Proc.devRef .tc b))).2; iexact Ha
  iexact Hr

/-! ## The segments -/

/-- The five layout operations, over all of the core's buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (by intro _ h; (repeat (cases h with | head => rfl | tail _ h => ?_)); exact nomatch h) (V₀ m) R

/-- The two closing operations (with their two constants), likewise, from the buffers as the region left them. -/
def seg1 : Pipeline.HostSeg (Name := ℕ) (U := UR sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (by intro _ h; (repeat (cases h with | head => rfl | tail _ h => ?_)); exact nomatch h) (W₁ m) R

set_option backward.isDefEq.respectTransparency.types false in
/-- The region: entered from what the layout operations left — the windows' arrays into the pipeline, the feature matrix
    in halves, every other buffer bypassing —, left with all buffers at `W₁`. -/
def reg0 : Pipeline.RegionSeg (pcfgs (F := F)) adm (dats m) () defs₀ 𝒱₀ L lv 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (W₁ m c) ∗ R c)
  X _ := iprop(emp)
  Y _ := iprop(emp)
  Z c := Pipeline.unscopedRest spec0 c (V m c)
  hentry c := by
    rw [show StableHlo.held (c : Thread nD τ) (Pipeline.ucRefs τ sig) (V0 m c) = unscopedBufs c (V m c) from (Pipeline.unscopedBufs_held c _).symm]
    rw [Pipeline.PerCore.unscopedBufs_split₀ (fun _ : Dev nD => cfgs) 0 c winFacts₀0.arr_unscoped]
    iintro ⟨⟨⟨Hb, Hr⟩, HO⟩, -, -⟩
    ihave Ha := (arrays_iff m c (V m c)).1 $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    iintro ⟨-, -, Hr⟩
    iapply (hin m c); iexact Hr
  hout c := by
    rw [Pipeline.ownSems0_none]
    refine (hout m c).trans ?_
    iintro Hr
    isplitr; · iempintro
    isplitr; · iempintro
    iexact Hr
  hexit c := by
    iintro ⟨Ha, HO, -, HZ⟩
    imodintro
    isplitr [HO]
    · iapply (exit_held m c)
      isplitl [Ha]; · iexact Ha
      iexact HZ
    · unfold Pipeline.Dat.owesAt Pipeline.owesWithin
      icases HO with ⟨%W, -, HO⟩; iexists W; iexact HO

/-- @main as the list of the three. -/
abbrev segs : List (Pipeline.Seg (pcfgs (F := F)) adm (dats m) () defs₀ 𝒱₀ L lv) := [.host (seg0 m), .region (reg0 m), .host (seg1 m)]

/-! ## The run -/

set_option backward.isDefEq.respectTransparency.types false in
/-- From any memory with zero counters every weakly fair execution of @main terminates, faulting nowhere, and every
    final state has each of the core's buffers at `Wfin`. -/
theorem run_main : θ_run defs (onTc (τ := τ) (main (F := F))) (s₀ m ρ)
    (fun r => ∀ c : Dev nD, ∀ b ∈ (Finset.univ.filter fun b : Ref sig .tc => ¬ b.isScoped),
      r.2.mem ((c : Thread nD τ).loc b) = Wfin m c (Proc.devRef .tc b)) :=
  Pipeline.θ_run_regions_kit (pcfgs (F := F)) adm (dats m) () cellOf_inj EP defs₀ 𝒱₀ L lv m ρ main (segs m)
    (fun c Q => by rw [main_segs adm (dats m) () 𝒱₀ L lv (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Wfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => ∀ b ∈ (Finset.univ.filter fun b : Ref sig .tc => ¬ b.isScoped), s.mem ((c : Thread nD τ).loc b) = Wfin m c (Proc.devRef .tc b))
    (hfin := fun c s' => by
      rw [← Pipeline.unscopedBufs_held (Ix := Unit) (Name := ℕ) (U := UR sig nD τ) (Lvl := ℕ) c (Wfin m c)]
      unfold unscopedBufs
      iintro ⟨H, HSI⟩
      imodintro
      iapply (pointsTo_read_all _ (fun b => (c : Thread nD τ).loc b) (fun b => Wfin m c (Proc.devRef .tc b)) s')
      isplitl [H] <;> iassumption)
    (hQ := fun _ h => h)

/-- info: 'Cert.KernelIdeal.Hand.run_main' depends on axioms: [propext, Classical.choice, Quot.sound] -/
#guard_msgs in #print axioms run_main

/-! ## The arguments end unchanged -/

/-- No layout operation writes a buffer other than its own result. -/
theorem not_written0 (b : Ref sig .tc) (hb : b ≠ main_v0 ∧ b ≠ main_v1 ∧ b ≠ main_v2 ∧ b ≠ main_v3 ∧ b ≠ main_v4) :
    ∀ op ∈ (hostOps0 (F := F)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

/-- Nor does a closing operation. -/
theorem not_written1 (b : Ref sig .tc) (hb : b ≠ main_cst ∧ b ≠ main_v6 ∧ b ≠ main_cst_0 ∧ b ≠ main_v7) :
    ∀ op ∈ (hostOps1 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, StableHlo.binary_writes, StableHlo.nullary_writes, StableHlo.reshape_writes, Finset.mem_singleton] <;>
    exact StableHlo.devRef_ne_of_ne ‹_›

/-- A buffer no operation writes and the region does not stage as its result ends as launched. -/
theorem Wfin_kept (c : Dev nD) (b : Ref sig .tc) (h0 : b ≠ main_v0 ∧ b ≠ main_v1 ∧ b ≠ main_v2 ∧ b ≠ main_v3 ∧ b ≠ main_v4) (h5 : b ≠ main_v5)
    (h1 : b ≠ main_cst ∧ b ≠ main_v6 ∧ b ≠ main_cst_0 ∧ b ≠ main_v7) : Wfin m c (Proc.devRef .tc b) = m ((c : Thread nD τ).loc b) :=
  (StableHlo.after_of_forall_not_mem (b := Proc.devRef .tc b) hostOps1 (W₁ m c) (not_written1 b h1)).trans
    ((W₁_of_ne m c b h5).trans (StableHlo.after_of_forall_not_mem (b := Proc.devRef .tc b) hostOps0 (V₀ m c) (not_written0 b h0)))

/-- THE FRAME: the program runs to the end, faults nowhere, and leaves its two arguments as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c main_arg0 (by decide)).trans (Wfin_kept m c main_arg0 (by decide) (by decide) (by decide)),
     (h c main_arg1 (by decide)).trans (Wfin_kept m c main_arg1 (by decide) (by decide) (by decide))⟩) (run_main m ρ)

end Cert.KernelIdeal.Hand

end
-- ==== Proof.Spec.lean ====
/-
  The mathematics both programs compute, on the extended reals, stated with no program in sight.

  A feature matrix f : N × C gives similarities  sim n k = (Σ_c f n c · f k c) / θ  (θ the shared single-precision
  word for one tenth). Row n of the loss compares column k's label with its own (an indicator msk k ∈ {0, 1}) and is

      M  = max_k sim n k                      (a fold of max from −∞)
      Z  = Σ_k exp (sim n k − M) · (1 − [k = n]) + ε
      loss n = − (Σ_k msk k · ((sim n k − M) − log Z)) / (Σ_k msk k + ε)

  and the result is the mean of the N row losses.  That is `rowLoss` / `total` below: the plain two-pass form.

  The streamed form visits the columns block by block (T blocks of B columns) and keeps four numbers per row: the
  running maximum m, the running sum l of exponentials taken relative to m, the running masked sum s of similarities
  and the running count c of equal labels.  One block updates them by `step`: the new maximum m' = max m (block max),
  l' = exp (m − m') · l + Σ_block [k ≠ n] exp (sim − m'),  s' = s + Σ_block msk · sim,  c' = c + Σ_block msk; from
  (−∞, 0, 0, 0).  After the last block the row's loss is read off as `rowOut`:
      (0 − ((s − m·c) − c · log (l + ε))) / (c + ε).
  Rescaling by exp (m − m') telescopes, exp a · exp b = exp (a + b), as long as every similarity is a real number, and
  Σ msk · (sim − M − L) = s − M·c − c·L is distributivity over reals: the two forms agree on finite data.
-/
import Idealize.ShloMosaic.PureOps.Ideal
import Mathlib.Algebra.BigOperators.Fin
import Mathlib.Logic.Equiv.Fin.Basic

noncomputable section

namespace Cert.Spec

open Idealize.ShloMosaic
open scoped BigOperators

/-- The temperature's word (single precision, nearest to one tenth), -/
def theta : EReal := Ideal.ofBits .f32 0x3DCCCCCD#32
/-- the stabiliser's word (single precision, nearest to 10⁻⁸), -/
def eps : EReal := Ideal.ofBits .f32 0x322BCC77#32
/-- and the number of rows, 8192, as the word the programs divide by. -/
def rows : EReal := Ideal.ofBits .f32 0x46000000#32

/-! ## The plain form -/

/-- A row's maximum: the fold of max from −∞. -/
def rowMaxOf {K : ℕ} (raw : Fin K → EReal) : EReal := (Finset.univ : Finset (Fin K)).fold max ⊥ raw

/-- The softmax denominator of row `n` with its own column left out, plus ε. -/
def rowZ {K : ℕ} (raw : Fin K → EReal) (n : Fin K) : EReal :=
  (∑ k : Fin K, Ideal.exp (raw k - rowMaxOf raw) * (1 - (if n = k then (1 : EReal) else 0))) + eps

/-- Row `n`'s loss from its similarities `raw` and its label indicator `msk`. -/
def rowLoss {K : ℕ} (raw msk : Fin K → EReal) (n : Fin K) : EReal :=
  Ideal.div (-(∑ k : Fin K, msk k * ((raw k - rowMaxOf raw) - Ideal.log (rowZ raw n)))) ((∑ k : Fin K, msk k) + eps)

/-- The mean of the row losses. -/
def total {K : ℕ} (loss : Fin K → EReal) : EReal := Ideal.div (∑ n : Fin K, loss n) rows

/-! ## The streamed form -/

/-- The four running numbers of a row: maximum, rescaled sum of exponentials, masked sum, count. -/
structure St where
  m : EReal
  l : EReal
  s : EReal
  c : EReal

/-- Before the first block. -/
def St.init : St := ⟨⊥, 0, 0, 0⟩

/-- One block of `B` columns: its similarities `raw`, label indicators `msk`, and which column (if any) is the row's own. -/
def step {B : ℕ} (st : St) (raw msk : Fin B → EReal) (own : Fin B → Prop) [DecidablePred own] : St :=
  let m' := max st.m ((Finset.univ : Finset (Fin B)).fold max ⊥ raw)
  { m := m'
    l := Ideal.exp (st.m - m') * st.l + ∑ r : Fin B, (if own r then (0 : EReal) else Ideal.exp (raw r - m'))
    s := st.s + ∑ r : Fin B, msk r * raw r
    c := st.c + ∑ r : Fin B, msk r }

/-- The row's loss read off the four numbers after the last block. -/
def rowOut (st : St) : EReal :=
  Ideal.div (0 - ((st.s - st.m * st.c) - st.c * Ideal.log (st.l + eps))) (st.c + eps)

/-- Column `r` of block `j` among `T·B` consecutive columns: `j·B + r`. -/
def col {T B : ℕ} (j : Fin T) (r : Fin B) : Fin (T * B) := finProdFinEquiv (j, r)

theorem col_val {T B : ℕ} (j : Fin T) (r : Fin B) : (col j r).val = r.val + B * j.val := rfl

/-- The four numbers of row `n` after its first `j` blocks (all of them once `j` reaches `T`). -/
def stateAt {T B : ℕ} (raw msk : Fin (T * B) → EReal) (n : Fin (T * B)) : ℕ → St
  | 0 => St.init
  | j + 1 =>
    if h : j < T then
      step (stateAt raw msk n j) (fun r => raw (col ⟨j, h⟩ r)) (fun r => msk (col ⟨j, h⟩ r)) (fun r => col ⟨j, h⟩ r = n)
    else stateAt raw msk n j

/-! ## From a feature matrix and labels -/

/-- The similarity of rows `n` and `k` of a feature matrix, over the temperature. -/
def sim {N C : ℕ} (f : Fin N → Fin C → EReal) (n k : Fin N) : EReal := Ideal.div (∑ c : Fin C, f n c * f k c) theta

/-- Whether rows `n` and `k` carry one label, as 1 or 0. -/
def same {N : ℕ} (lab : Fin N → BitVec 32) (n k : Fin N) : EReal := if lab n = lab k then 1 else 0

/-- The loss in the plain two-pass form. -/
def result {N C : ℕ} (f : Fin N → Fin C → EReal) (lab : Fin N → BitVec 32) : EReal :=
  total fun n => rowLoss (sim f n) (same lab n) n

/-- The loss in the streamed form, `T` blocks of `B` columns. -/
def streamed {T B C : ℕ} (f : Fin (T * B) → Fin C → EReal) (lab : Fin (T * B) → BitVec 32) : EReal :=
  total fun n => rowOut (stateAt (sim f n) (same lab n) n T)

end Cert.Spec

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.LibColumns.lean ====
/-
  Columns of a matrix, and a matrix assembled from columns, read at an index — for any extents and any element type.

  A column taken out of an `[a, n]` matrix as a one-column slice and flattened to a vector reads, at `i`, the matrix
  at `(i, column)`. A vector made a one-column matrix again (by a broadcast along a new trailing unit axis) reads the
  vector at the row. Twelve one-column matrices laid side by side read, at `(r, k)`, the `k`-th of them at row `r`.
  And a vector of per-column values laid as one row by a broadcast (`[b] → [1, b]`) and repeated down the rows by another
  (`[1, b] → [a, b]`) reads, at `(p, c)`, the vector at `c`.
-/
import Idealize.ShloMosaic.Lib.ValueLayout
import Idealize.ShloMosaic.Lib.Pipeline.Value

noncomputable section

namespace Cert.LibColumns

open Idealize.ShloMosaic Idealize.ShloMosaic.ValueIdx

variable {α : Type}

/-! ## One column in, one column out -/

/-- An `[a, 1]` array cast to `[a]` reads, at `i`, the operand's one column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- Column `k` of an `[a, n]` matrix — the one-column slice at offset `o = k`, cast to a vector — reads, at `i`,
    the matrix at `(i, k)`. -/
theorem column_apply {a n : ℕ} (o : ℕ) (x : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (i : Fin a) (k : Fin n) (hk : k.val = o) :
    shapeCast ⟨1, ![a]⟩ (extractStridedSlice ⟨2, ![a, 1]⟩ ![0, o] x hs) hc (ix1 i) = x (ix2 i k) :=
  (shapeCast_a1_a_apply _ hc i).trans (slice2_axis1_apply o x hs i (0 : Fin 1) k (by show k.val = o + 0; omega))

/-- A vector `[a]` broadcast along a new trailing unit axis (`dims = [0]`) reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (i : Fin a) (u : Fin 1) : broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-! ## A row of per-column values over a matrix, the host's way -/

/-- A vector `[b]` laid as one row by a broadcast (`dims = [1]`) reads, at `(u, c)`, the vector at `c`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (c : Fin b) : broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A one-row matrix `[1, b]` repeated down `a` rows by a broadcast (`dims = [0, 1]`) reads, at `(p, c)`, the row at `c`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => exact (if_pos rfl).symm
  | ⟨1, _⟩ =>
    show c.val = if b = 1 then 0 else c.val
    split
    · have := c.isLt; omega
    · rfl

/-- Per-column values `x : [b]` laid as a row and repeated down the rows, both by broadcasts: `x c` everywhere in column `c`. -/
theorem perColumnHost_apply {a b : ℕ} (x : (⟨1, ![b]⟩ : Shape).Idx → α)
    (h₁ : (⟨1, ![b]⟩ : Shape).BroadcastsInDim ⟨2, ![1, b]⟩ (![1] : Fin 1 → Fin (⟨2, ![1, b]⟩ : Shape).rank))
    (h₂ : (⟨2, ![1, b]⟩ : Shape).BroadcastsInDim ⟨2, ![a, b]⟩ (![0, 1] : Fin 2 → Fin (⟨2, ![a, b]⟩ : Shape).rank))
    (p : Fin a) (c : Fin b) :
    broadcastInDim ⟨2, ![a, b]⟩ ![0, 1] h₂ (broadcastInDim ⟨2, ![1, b]⟩ ![1] h₁ x) (ix2 p c) = x (ix1 c) :=
  (broadcastInDim_1b_ab_apply _ h₂ p c).trans (broadcastInDim_b_1b_apply x h₁ 0 c)

/-! ## Twelve columns side by side -/

/-- Twelve one-column matrices concatenated along the column axis read, at `(r, k)`, the `k`-th of them at row `r`. -/
theorem stack12_apply {a : ℕ} (p0 p1 p2 p3 p4 p5 p6 p7 p8 p9 p10 p11 : (⟨2, ![a, 1]⟩ : Shape).Idx → α)
    (h : Shape.Concatenates [(⟨2, ![a, 1]⟩ : Shape), ⟨2, ![a, 1]⟩, ⟨2, ![a, 1]⟩, ⟨2, ![a, 1]⟩, ⟨2, ![a, 1]⟩, ⟨2, ![a, 1]⟩,
      ⟨2, ![a, 1]⟩, ⟨2, ![a, 1]⟩, ⟨2, ![a, 1]⟩, ⟨2, ![a, 1]⟩, ⟨2, ![a, 1]⟩, ⟨2, ![a, 1]⟩] ⟨2, ![a, 12]⟩ 1)
    (r : Fin a) (k : Fin 12) :
    concatenate ⟨2, ![a, 12]⟩ 1 [⟨⟨2, ![a, 1]⟩, p0⟩, ⟨⟨2, ![a, 1]⟩, p1⟩, ⟨⟨2, ![a, 1]⟩, p2⟩, ⟨⟨2, ![a, 1]⟩, p3⟩,
        ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩,
        ⟨⟨2, ![a, 1]⟩, p9⟩, ⟨⟨2, ![a, 1]⟩, p10⟩, ⟨⟨2, ![a, 1]⟩, p11⟩] h (ix2 r k)
      = (![p0, p1, p2, p3, p4, p5, p6, p7, p8, p9, p10, p11] : Fin 12 → (⟨2, ![a, 1]⟩ : Shape).Idx → α) k (ix2 r (0 : Fin 1)) := by
  refine concatenate_ofFn_unit_apply (t := ⟨2, ![a, 12]⟩) (s₁ := ⟨2, ![a, 1]⟩) (1 : Fin 2) (N := 12)
    (![p0, p1, p2, p3, p4, p5, p6, p7, p8, p9, p10, p11] : Fin 12 → (⟨2, ![a, 1]⟩ : Shape).Idx → α) h rfl rfl (ix2 r k) k rfl
    (ix2 r (0 : Fin 1)) fun b hb => ?_
  match b with
  | ⟨0, _⟩ => rfl
  | ⟨1, _⟩ => exact absurd rfl hb

/-- Twelve values listed, a function applied to the `k`-th of them: it is the `k`-th of the twelve results. -/
theorem vec12_map {β γ : Type} (g : β → γ) (a0 a1 a2 a3 a4 a5 a6 a7 a8 a9 a10 a11 : β)
    (m0 m1 m2 m3 m4 m5 m6 m7 m8 m9 m10 m11 : γ)
    (h0 : g a0 = m0) (h1 : g a1 = m1) (h2 : g a2 = m2) (h3 : g a3 = m3) (h4 : g a4 = m4) (h5 : g a5 = m5)
    (h6 : g a6 = m6) (h7 : g a7 = m7) (h8 : g a8 = m8) (h9 : g a9 = m9) (h10 : g a10 = m10) (h11 : g a11 = m11)
    (k : Fin 12) :
    g ((![a0, a1, a2, a3, a4, a5, a6, a7, a8, a9, a10, a11] : Fin 12 → β) k)
      = (![m0, m1, m2, m3, m4, m5, m6, m7, m8, m9, m10, m11] : Fin 12 → γ) k := by
  subst h0 h1 h2 h3 h4 h5 h6 h7 h8 h9 h10 h11
  fin_cases k <;> rfl

end Cert.LibColumns

end
-- ==== Proof.KI.HostValue.lean ====
/-
  The host side of the program that calls the kernel: what the region finds in its arrays, block by block, and what the
  operations after the region make of the rows' losses.

  Before the region five layout operations run: the feature array is transposed (channels last) and laid out as a matrix,
  one row per position; the labels are laid out as a vector, and that vector again as a one-column and as a one-row
  matrix. None of them touches an argument. The region's grid has 4 × 32 points; point t = 32·i + j reads rows
  [2048 i, 2048 (i + 1)) of the feature matrix and of the label column, and rows [256 j, 256 (j + 1)) of the feature
  matrix and the matching stretch of the label row: a block's element sits, on each axis, at the block index times the
  block's size plus its own coordinate. After the region the rows' losses (a one-column matrix) are summed from zero and
  divided by the number of rows: the mean.
-/
import proofs.«142344_j74028056314074_1_alg».proof.Proof.KI.Runs
import proofs.«142344_j74028056314074_1_alg».proof.Proof.Spec
import proofs.«142344_j74028056314074_1_alg».proof.Proof.LibRowwise
import proofs.«142344_j74028056314074_1_alg».proof.Proof.LibColumns
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostValue

open Cert.KernelIdeal Cert.KernelIdeal.Gen Cert.KernelIdeal.Hand
open Idealize.ShloMosaic Idealize.ShloMosaic.TcCoe Idealize.ShloMosaic.ValueIdx Idealize.SL.Sem
open scoped BigOperators

variable (m : (ℓ : Loc nD τ sig) → Buf (Elt Ideal) ℓ) (c : Dev nD)

/-! ## The feature matrix and the labels as the region finds them -/

/-- The feature matrix: row n (a position), column k (a channel). -/
def feat : Fin 8192 → Fin 512 → EReal := fun n k => (V (F := Ideal) m c main_v1 : S8192x512.Idx → EReal) (ix2 n k)

/-- The label of position n. -/
def lab : Fin 8192 → BitVec 32 := fun n => (V (F := Ideal) m c main_v2 : S8192.Idx → BitVec 32) (ix1 n)

/-! ## The arrays the layout operations wrote, and the arguments they left alone -/

/-- No layout operation writes an argument. -/
theorem not_written (b : Ref sig .tc) (hb : b ≠ main_v0 ∧ b ≠ main_v1 ∧ b ≠ main_v2 ∧ b ≠ main_v3 ∧ b ≠ main_v4) :
    ∀ op ∈ (hostOps0 (F := Ideal)), Proc.devRef .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.reshape_writes, Finset.mem_singleton] <;>
    exact StableHlo.devRef_ne_of_ne ‹_›

/-- The feature array reaches the region as launched, -/
theorem V_arg0 : V (F := Ideal) m c main_arg0 = m ((c.tc : Thread nD τ).loc main_arg0) :=
  StableHlo.after_of_forall_not_mem (b := Proc.devRef .tc main_arg0) hostOps0 (V₀ m c) (not_written main_arg0 (by decide))

/-- and so does the label array. -/
theorem V_arg1 : V (F := Ideal) m c main_arg1 = m ((c.tc : Thread nD τ).loc main_arg1) :=
  StableHlo.after_of_forall_not_mem (b := Proc.devRef .tc main_arg1) hostOps0 (V₀ m c) (not_written main_arg1 (by decide))

/-- The feature matrix is the transposed array (channels last) laid out one row per position. -/
theorem V_v1 : (V (F := Ideal) m c main_v1 : S8192x512.Idx → EReal)
    = shapeCast S8192x512 (transpose S2x64x64x512 [0, 2, 3, 1] (m ((c.tc : Thread nD τ).loc main_arg0))
        transposes_S2x512x64x64_S2x64x64x512_0_2_3_1) shapeCasts_S2x64x64x512_S8192x512 := by
  dsimp only [V, V0, hostOps0]; after_results; rfl

/-- The labels are the label array laid out as one vector; -/
theorem V_v2 : (V (F := Ideal) m c main_v2 : S8192.Idx → BitVec 32)
    = shapeCast S8192 (m ((c.tc : Thread nD τ).loc main_arg1)) shapeCasts_S2x64x64_S8192 := by
  dsimp only [V, V0, hostOps0]; after_results; rfl

/-- the label column is that vector as a one-column matrix, -/
theorem V_v3 : (V (F := Ideal) m c main_v3 : S8192x1.Idx → BitVec 32)
    = shapeCast S8192x1 (V (F := Ideal) m c main_v2 : S8192.Idx → BitVec 32) shapeCasts_S8192_S8192x1 := by
  dsimp only [V, V0, hostOps0]; after_results; rfl

/-- and the label row the same vector as a one-row matrix. -/
theorem V_v4 : (V (F := Ideal) m c main_v4 : S1x8192.Idx → BitVec 32)
    = shapeCast S1x8192 (V (F := Ideal) m c main_v2 : S8192.Idx → BitVec 32) shapeCasts_S8192_S1x8192 := by
  dsimp only [V, V0, hostOps0]; after_results; rfl

theorem feat_eq (n : Fin 8192) (k : Fin 512) :
    feat m c n k = shapeCast S8192x512 (transpose S2x64x64x512 [0, 2, 3, 1] (m ((c.tc : Thread nD τ).loc main_arg0))
        transposes_S2x512x64x64_S2x64x64x512_0_2_3_1) shapeCasts_S2x64x64x512_S8192x512 (ix2 n k) :=
  congrFun (V_v1 m c) (ix2 n k)

theorem lab_eq (n : Fin 8192) :
    lab m c n = shapeCast S8192 (m ((c.tc : Thread nD τ).loc main_arg1)) shapeCasts_S2x64x64_S8192 (ix1 n) :=
  congrFun (V_v2 m c) (ix1 n)

/-- Row n of the label column is position n's label, -/
theorem labCol_apply (n : Fin 8192) :
    (V (F := Ideal) m c main_v3 : S8192x1.Idx → BitVec 32) (ix2 n (0 : Fin 1)) = lab m c n := by
  rw [V_v3]
  exact LibRowwise.shapeCast_a_a1_apply _ shapeCasts_S8192_S8192x1 n 0

/-- and so is column n of the label row. -/
theorem labRow_apply (n : Fin 8192) :
    (V (F := Ideal) m c main_v4 : S1x8192.Idx → BitVec 32) (ix2 (0 : Fin 1) n) = lab m c n := by
  rw [V_v4]
  exact shapeCast_a_1a_apply _ shapeCasts_S8192_S1x8192 0 n

/-! ## The grid: point t = 32·i + j -/

/-- The grid has 128 points. -/
theorem lt_points (t : Fin cfg0.N) : t.val < 128 := Nat.lt_of_lt_of_eq t.isLt N_0

/-- A point's two coordinates. -/
theorem coords_val : ∀ t : Fin cfg0.N, (grid0.coords t 0).val = t.val / 32 ∧ (grid0.coords t 1).val = t.val % 32 :=
  (by decide +kernel : ∀ t : Fin grid0.N, (grid0.coords t 0).val = t.val / 32 ∧ (grid0.coords t 1).val = t.val % 32)

/-- The windows' block indices at a point, decided once over the grid: the row-block windows follow i, the
    column-block windows follow j. -/
theorem index0 : ∀ t : Fin cfg0.N, win0_0.index t (0 : Fin 2) = t.val / 32 ∧ win0_0.index t (1 : Fin 2) = 0 :=
  (by decide +kernel : ∀ t : Fin grid0.N, win0_0.index t (0 : Fin 2) = t.val / 32 ∧ win0_0.index t (1 : Fin 2) = 0)
theorem index1 : ∀ t : Fin cfg0.N, win0_1.index t (0 : Fin 2) = t.val % 32 ∧ win0_1.index t (1 : Fin 2) = 0 :=
  (by decide +kernel : ∀ t : Fin grid0.N, win0_1.index t (0 : Fin 2) = t.val % 32 ∧ win0_1.index t (1 : Fin 2) = 0)
theorem index2 : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)
theorem index3 : ∀ t : Fin cfg0.N, win0_3.index t (0 : Fin 2) = 0 ∧ win0_3.index t (1 : Fin 2) = t.val % 32 :=
  (by decide +kernel : ∀ t : Fin grid0.N, win0_3.index t (0 : Fin 2) = 0 ∧ win0_3.index t (1 : Fin 2) = t.val % 32)
theorem index4 : ∀ t : Fin cfg0.N, win0_4.index t (0 : Fin 2) = t.val / 32 ∧ win0_4.index t (1 : Fin 2) = 0 :=
  (by decide +kernel : ∀ t : Fin grid0.N, win0_4.index t (0 : Fin 2) = t.val / 32 ∧ win0_4.index t (1 : Fin 2) = 0)

/-- Row p of point t's block of rows, as a row of the whole matrix: 2048 i + p. -/
def rowOf (t : Fin cfg0.N) (p : Fin 2048) : Fin 8192 :=
  ⟨2048 * (t.val / 32) + p.val, by have := lt_points t; have := p.isLt; omega⟩

/-- Row r of point t's block of columns, as a row of the whole matrix: 256 j + r. -/
def colOf (t : Fin cfg0.N) (r : Fin 256) : Fin 8192 :=
  ⟨256 * (t.val % 32) + r.val, by have := r.isLt; omega⟩

theorem rowOf_val (t : Fin cfg0.N) (p : Fin 2048) : (rowOf t p).val = 2048 * (t.val / 32) + p.val := rfl
theorem colOf_val (t : Fin cfg0.N) (r : Fin 256) : (colOf t r).val = 256 * (t.val % 32) + r.val := rfl

/-! ## The four input blocks at an index -/

/-- Window 0's block at point t is rows 2048 i … of the feature matrix. -/
theorem rowFeat_apply (t : Fin cfg0.N) (p : Fin 2048) (k : Fin 512) :
    (iblk (F := Ideal) m c 0 t : S2048x512.Idx → EReal) (ix2 p k) = feat m c (rowOf t p) k := by
  obtain ⟨e0, e1⟩ := index0 t
  unfold iblk
  rw [View.read_apply]
  show (V (F := Ideal) m c main_v1 : S8192x512.Idx → EReal) _ = (V (F := Ideal) m c main_v1 : S8192x512.Idx → EReal) _
  refine congrArg (V (F := Ideal) m c main_v1 : S8192x512.Idx → EReal) ?_
  funext a
  apply Fin.ext
  match a with
  | ⟨0, _⟩ => show win0_0.index t (0 : Fin 2) * 2048 + 1 * p.val = 2048 * (t.val / 32) + p.val; rw [e0]; omega
  | ⟨1, _⟩ => show win0_0.index t (1 : Fin 2) * 512 + 1 * k.val = k.val; rw [e1]; omega

/-- Window 1's block at point t is rows 256 j … of the feature matrix. -/
theorem colFeat_apply (t : Fin cfg0.N) (r : Fin 256) (k : Fin 512) :
    (iblk (F := Ideal) m c 1 t : S256x512.Idx → EReal) (ix2 r k) = feat m c (colOf t r) k := by
  obtain ⟨e0, e1⟩ := index1 t
  unfold iblk
  rw [View.read_apply]
  show (V (F := Ideal) m c main_v1 : S8192x512.Idx → EReal) _ = (V (F := Ideal) m c main_v1 : S8192x512.Idx → EReal) _
  refine congrArg (V (F := Ideal) m c main_v1 : S8192x512.Idx → EReal) ?_
  funext a
  apply Fin.ext
  match a with
  | ⟨0, _⟩ => show win0_1.index t (0 : Fin 2) * 256 + 1 * r.val = 256 * (t.val % 32) + r.val; rw [e0]; omega
  | ⟨1, _⟩ => show win0_1.index t (1 : Fin 2) * 512 + 1 * k.val = k.val; rw [e1]; omega

/-- Window 2's block at point t is rows 2048 i … of the label column. -/
theorem rowLab_apply (t : Fin cfg0.N) (p : Fin 2048) :
    (iblk (F := Ideal) m c 2 t : S2048x1.Idx → BitVec 32) (ix2 p (0 : Fin 1)) = lab m c (rowOf t p) := by
  obtain ⟨e0, e1⟩ := index2 t
  rw [← labCol_apply m c (rowOf t p)]
  unfold iblk
  rw [View.read_apply]
  show (V (F := Ideal) m c main_v3 : S8192x1.Idx → BitVec 32) _ = (V (F := Ideal) m c main_v3 : S8192x1.Idx → BitVec 32) _
  refine congrArg (V (F := Ideal) m c main_v3 : S8192x1.Idx → BitVec 32) ?_
  funext a
  apply Fin.ext
  match a with
  | ⟨0, _⟩ => show win0_2.index t (0 : Fin 2) * 2048 + 1 * p.val = 2048 * (t.val / 32) + p.val; rw [e0]; omega
  | ⟨1, _⟩ => show win0_2.index t (1 : Fin 2) * 1 + 1 * 0 = 0; rw [e1]

/-- Window 3's block at point t is columns 256 j … of the label row. -/
theorem colLab_apply (t : Fin cfg0.N) (r : Fin 256) :
    (iblk (F := Ideal) m c 3 t : S1x256.Idx → BitVec 32) (ix2 (0 : Fin 1) r) = lab m c (colOf t r) := by
  obtain ⟨e0, e1⟩ := index3 t
  rw [← labRow_apply m c (colOf t r)]
  unfold iblk
  rw [View.read_apply]
  show (V (F := Ideal) m c main_v4 : S1x8192.Idx → BitVec 32) _ = (V (F := Ideal) m c main_v4 : S1x8192.Idx → BitVec 32) _
  refine congrArg (V (F := Ideal) m c main_v4 : S1x8192.Idx → BitVec 32) ?_
  funext a
  apply Fin.ext
  match a with
  | ⟨0, _⟩ => show win0_3.index t (0 : Fin 2) * 1 + 1 * 0 = 0; rw [e0]
  | ⟨1, _⟩ => show win0_3.index t (1 : Fin 2) * 256 + 1 * r.val = 256 * (t.val % 32) + r.val; rw [e1]; omega

/-! ## After the region: the mean of the rows' losses -/

/-- The operations after the region turn the one-column matrix of row losses, whatever the region left there, into
    their mean: the sum from zero over both axes, divided by the number of rows. -/
theorem tail_eq (W : Valuation τ sig (Elt Ideal)) :
    (StableHlo.after (hostOps1 (F := Ideal)) W (Proc.devRef .tc main_v7) : S_.Idx → EReal)
      = fun _ => Cert.Spec.total (fun n : Fin 8192 => (W (Proc.devRef .tc main_v5) : S8192x1.Idx → EReal) (ix2 n (0 : Fin 1))) := by
  dsimp only [hostOps1]
  after_results
  generalize (W (Proc.devRef .tc main_v5) : S8192x1.Idx → EReal) = L
  funext i
  show Ideal.div (Host.reduceAdd (F := Ideal) L (constant (F := Ideal) S_ .f32 0x00000000#32) reducesTo_S8192x1_S_d0_1 h_S_ i)
      (Ideal.ofBits .f32 0x46000000#32) = _
  simp only [Host.reduceAdd, Ideal.hostReduceAdd_def]
  rw [Ideal.hostReduceAdd_total reducesTo_S8192x1_S_d0_1 (fun b => b.elim0) L _ i, sum_idx2]
  simp only [Fin.sum_univ_one, constant_apply, Ideal.ofBits_zero_f32, zero_add]
  rfl

end Cert.KernelIdeal.HostValue

end
-- ==== Proof.KI.Final.lean ====
/-
  The kernel program's result: the streamed loss of its own feature matrix and labels.

  The region writes the result array back one block of 2048 rows at a time, at the last block of columns of each block
  of rows (the points t with t mod 32 = 31): the block written there holds, at row p, the loss read off the four
  running numbers of row 2048 · (t / 32) + p after all 32 blocks of columns. Those four write-backs tile the array, so
  after the region the array holds every row's loss; the two closing operations then take their mean.
-/
import proofs.«142344_j74028056314074_1_alg».proof.Proof.KI.Launch
import proofs.«142344_j74028056314074_1_alg».proof.Proof.KI.HostValue
import proofs.«142344_j74028056314074_1_alg».proof.Proof.Spec
import Idealize.ShloMosaic.Lib.Pipeline.Value

set_option maxRecDepth 16384

noncomputable section

namespace Cert.KernelIdeal.Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

/-- Row n's loss, read off its four running numbers after all 32 blocks of columns. -/
def lossOf : Fin 8192 → EReal := fun n =>
  Spec.rowOut (Spec.stateAt (T := 32) (B := 256) (Spec.sim (HostValue.feat m c) n) (Spec.same (HostValue.lab m c) n) n 32)

/-- The result array holding every row's loss in its one column. -/
def G : S8192x1.Idx → EReal := fun i => lossOf m c ⟨(i 0).val, (i 0).isLt⟩

/-- Its row n is row n's loss. -/
theorem G_row (n : Fin 8192) : G m c (ix2 n (0 : Fin 1)) = lossOf m c n := rfl

/-! ## What the last block of columns writes back -/

/- The block written at the last block of columns of a block of rows holds, at row p, the loss of row 2048 · (t / 32) + p. -/
variable (out_apply : ∀ (t : Fin cfg0.N) (h31 : t.val % 32 = 31) (p : Fin 2048), (outsAt0 (F := Ideal) m c t.val t.isLt).1 (ix2 p 0) = Spec.rowOut (Spec.stateAt (T := 32) (B := 256) (Spec.sim (HostValue.feat m c) (HostValue.rowOf t p)) (Spec.same (HostValue.lab m c) (HostValue.rowOf t p)) (HostValue.rowOf t p) 32))

include out_apply in
/-- What a point that writes back writes is its block of the array of losses. -/
theorem hG (t : Fin cfg0.N) (hf : (cfg0.win 4).flush t = true) :
    (dats (F := Ideal) m 0 c).flushed 4 t = ((cfg0.win 4).blk t).view.read (Elt Ideal) (G m c) := by
  have h31 : t.val % 32 = 31 := (flush0_4 t).mp hf
  obtain ⟨e0, e1⟩ := HostValue.index4 t
  show (cfg0.win 4).cut (grid0.coords t) ((dats (F := Ideal) m 0 c).after 4 t) = _
  rw [after0_4]
  funext j
  have h1 : (j 1).val < 1 := (j 1).isLt
  have hj : j = ix2 (⟨(j 0).val, (j 0).isLt⟩ : Fin 2048) (0 : Fin 1) := by
    funext a
    match a with
    | ⟨0, _⟩ => rfl
    | ⟨1, _⟩ => exact Fin.ext (by show (j 1).val = 0; omega)
  show (outsAt0 (F := Ideal) m c t.val t.isLt).1 j = G m c (((cfg0.win 4).blk t).view.emb j)
  rw [hj, out_apply t h31 ⟨(j 0).val, (j 0).isLt⟩]
  show lossOf m c (HostValue.rowOf t ⟨(j 0).val, (j 0).isLt⟩) = lossOf m c ⟨_, _⟩
  refine congrArg (lossOf m c) (Fin.ext ?_)
  show 2048 * (t.val / 32) + (j 0).val = win0_4.index t (0 : Fin 2) * 2048 + 1 * (j 0).val
  rw [e0]; omega

/-! ## The write-backs tile the array -/

/-- An index of the array is in point t's block iff each coordinate is in the block's range on its axis. -/
theorem mem_blk4 (t : Fin cfg0.N) (i : S8192x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v5).slice (win0_4.rect t)).set ↔ _
  rw [View.set_slice_whole, Rect.mem_set_unit]
  exact Iff.rfl

/-- Row n lies in the block written at the last block of columns of its block of rows. -/
theorem hcover (i : S8192x1.Idx) : ∃ t : Fin cfg0.N, (cfg0.win 4).flush t = true ∧ i ∈ ((cfg0.win 4).blk t).view.set := by
  have hi0 : (i 0).val < 8192 := (i 0).isLt
  have hi1 : (i 1).val < 1 := (i 1).isLt
  have hN : cfg0.N = 128 := N_0
  refine ⟨⟨32 * ((i 0).val / 2048) + 31, by rw [hN]; omega⟩, (flush0_4 _).mpr (by show (32 * ((i 0).val / 2048) + 31) % 32 = 31; omega), ?_⟩
  obtain ⟨e0, e1⟩ := HostValue.index4 (⟨32 * ((i 0).val / 2048) + 31, by rw [hN]; omega⟩ : Fin cfg0.N)
  rw [mem_blk4]
  intro a
  match a with
  | ⟨0, _⟩ =>
    show win0_4.index _ (0 : Fin 2) * 2048 ≤ (i 0).val ∧ (i 0).val < win0_4.index _ (0 : Fin 2) * 2048 + 2048
    rw [e0]
    show (32 * ((i 0).val / 2048) + 31) / 32 * 2048 ≤ (i 0).val ∧ (i 0).val < (32 * ((i 0).val / 2048) + 31) / 32 * 2048 + 2048
    omega
  | ⟨1, _⟩ =>
    show win0_4.index _ (1 : Fin 2) * 1 ≤ (i 1).val ∧ (i 1).val < win0_4.index _ (1 : Fin 2) * 1 + 1
    rw [e1]; omega

include out_apply in
/-- After the region the result array holds every row's loss. -/
theorem final4 : (dats (F := Ideal) m 0 c).arrAt 4 cfg0.N = G m c :=
  (dats (F := Ideal) m 0 c).arrAt_eq_of_cover 4 (G m c) (hG m c out_apply) (hcover)

/-! ## The program's result -/

include out_apply in
/-- The program's result is the streamed loss of its feature matrix and labels. -/
theorem result7 : (Wfin (F := Ideal) m c (Proc.devRef .tc main_v7) : S_.Idx → EReal)
    = fun _ => Spec.streamed (T := 32) (B := 256) (HostValue.feat m c) (HostValue.lab m c) := by
  unfold Wfin
  rw [HostValue.tail_eq (W₁ m c)]
  funext _
  show Spec.total (fun n : Fin 8192 => (W₁ m c (Proc.devRef .tc main_v5) : S8192x1.Idx → EReal) (ix2 n (0 : Fin 1))) = _
  rw [W₁_v5, final4 m c out_apply]
  rfl

end Cert.KernelIdeal.Final

end
-- ==== Proof.KI.Pieces.lean ====
/-
  What the three runs of the kernel body leave in the four running buffers and in the output block, as values.

  Each run finds, per buffer, the list of pieces its stores left (the later on top). Every store of the body goes through
  the whole-buffer rectangle at zero offsets, so the topmost piece alone decides the contents, and every load through that
  rectangle reads the buffer's contents back (or, after a store, the stored value). Read this way: a middle block of
  columns leaves the four numbers folded with the block; the first block does the same from the reset values it has just
  stored; the last block moreover writes the rows' losses, computed from the four folded numbers.
-/
import proofs.«142344_j74028056314074_1_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The zero offsets of a whole-buffer rectangle, however spelt. -/
theorem hz2 : (![0, 0] : Fin 2 → Nat) = fun _ => 0 := funext fun a => by fin_cases a <;> rfl

/-! ## A middle block of columns: each running buffer gets one store, of its number folded with the block -/

theorem pieceB0 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i) (x0 : Vec F S2048x512 .f32) (x1 : Vec F S256x512 .f32) (x2 : Vec F S2048x1 .i32) (x3 : Vec F S1x256 .i32) (xs0 xs1 xs2 xs3 : Vec F S2048x1 .f32) :
    arg7.view.read (Elt F) (arg7.view.writes (Elt F) arg7.view.junk (kernelRun0_B c i arg2 harg2 arg3 harg3 arg4 harg4 arg5 harg5 arg6 harg6 arg7 harg7 arg8 harg8 arg9 harg9 arg10 harg10 hc0 hc1 x0 x1 x2 x3 xs0 xs1 xs2 xs3).1)
      = k0_pay1 (k0_pay13 x0 x1 xs0) := by
  rw [View.read_writes_junk_eq_canon]
  unfold kernelRun0_B
  dsimp only
  rw [View.canon_unit_zero hz2]
  simp only [View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

theorem pieceB1 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i) (x0 : Vec F S2048x512 .f32) (x1 : Vec F S256x512 .f32) (x2 : Vec F S2048x1 .i32) (x3 : Vec F S1x256 .i32) (xs0 xs1 xs2 xs3 : Vec F S2048x1 .f32) :
    arg8.view.read (Elt F) (arg8.view.writes (Elt F) arg8.view.junk (kernelRun0_B c i arg2 harg2 arg3 harg3 arg4 harg4 arg5 harg5 arg6 harg6 arg7 harg7 arg8 harg8 arg9 harg9 arg10 harg10 hc0 hc1 x0 x1 x2 x3 xs0 xs1 xs2 xs3).2.1)
      = k0_pay2 (k0_pay11 i) (k0_pay14 x0 x1 xs0) (k0_pay15 x0 x1 xs0) xs1 := by
  rw [View.read_writes_junk_eq_canon]
  unfold kernelRun0_B
  dsimp only
  rw [View.canon_unit_zero hz2]
  simp only [View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

theorem pieceB2 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i) (x0 : Vec F S2048x512 .f32) (x1 : Vec F S256x512 .f32) (x2 : Vec F S2048x1 .i32) (x3 : Vec F S1x256 .i32) (xs0 xs1 xs2 xs3 : Vec F S2048x1 .f32) :
    arg9.view.read (Elt F) (arg9.view.writes (Elt F) arg9.view.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.1)
      = k0_pay3 (k0_pay10 x0 x1) (k0_pay12 x2 x3) xs2 := by
  rw [View.read_writes_junk_eq_canon]
  unfold kernelRun0_B
  dsimp only
  rw [View.canon_unit_zero hz2]
  simp only [View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

theorem pieceB3 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : ¬cond0_1 i) (x0 : Vec F S2048x512 .f32) (x1 : Vec F S256x512 .f32) (x2 : Vec F S2048x1 .i32) (x3 : Vec F S1x256 .i32) (xs0 xs1 xs2 xs3 : Vec F S2048x1 .f32) :
    arg10.view.read (Elt F) (arg10.view.writes (Elt F) arg10.view.junk (kernelRun0_B c i arg2 harg2 arg3 harg3 arg4 harg4 arg5 harg5 arg6 harg6 arg7 harg7 arg8 harg8 arg9 harg9 arg10 harg10 hc0 hc1 x0 x1 x2 x3 xs0 xs1 xs2 xs3).2.2.2.1)
      = k0_pay4 (k0_pay12 x2 x3) xs3 := by
  rw [View.read_writes_junk_eq_canon]
  unfold kernelRun0_B
  dsimp only
  rw [View.canon_unit_zero hz2]
  simp only [View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

/-! ## The first block of columns: the reset values are stored, read back, and folded with the block -/

theorem pieceA0 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i) (x0 : Vec F S2048x512 .f32) (x1 : Vec F S256x512 .f32) (x2 : Vec F S2048x1 .i32) (x3 : Vec F S1x256 .i32) :
    arg7.view.read (Elt F) (arg7.view.writes (Elt F) arg7.view.junk (kernelRun0_A c i arg2 harg2 arg3 harg3 arg4 harg4 arg5 harg5 arg6 harg6 arg7 harg7 arg8 harg8 arg9 harg9 arg10 harg10 hc0 hc1 x0 x1 x2 x3).1)
      = k0_pay1 (k0_pay13 x0 x1 (k0_pay6 (F := F))) := by
  rw [View.read_writes_junk_eq_canon]
  unfold kernelRun0_A
  dsimp only
  sl_unfold_words
  rw [View.canon_cons_unit_zero (S := S2048x1) hz2]
  simp only [View.readCov_unit_zero (S := S2048x1) _ hz2, View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

theorem pieceA1 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i) (x0 : Vec F S2048x512 .f32) (x1 : Vec F S256x512 .f32) (x2 : Vec F S2048x1 .i32) (x3 : Vec F S1x256 .i32) :
    arg8.view.read (Elt F) (arg8.view.writes (Elt F) arg8.view.junk (kernelRun0_A c i arg2 harg2 arg3 harg3 arg4 harg4 arg5 harg5 arg6 harg6 arg7 harg7 arg8 harg8 arg9 harg9 arg10 harg10 hc0 hc1 x0 x1 x2 x3).2.1)
      = k0_pay2 (k0_pay11 i) (k0_pay14 x0 x1 (k0_pay6 (F := F))) (k0_pay15 x0 x1 (k0_pay6 (F := F))) (k0_pay7 (F := F)) := by
  rw [View.read_writes_junk_eq_canon]
  unfold kernelRun0_A
  dsimp only
  sl_unfold_words
  rw [View.canon_cons_unit_zero (S := S2048x1) hz2]
  simp only [View.readCov_unit_zero (S := S2048x1) _ hz2, View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

theorem pieceA2 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i) (x0 : Vec F S2048x512 .f32) (x1 : Vec F S256x512 .f32) (x2 : Vec F S2048x1 .i32) (x3 : Vec F S1x256 .i32) :
    arg9.view.read (Elt F) (arg9.view.writes (Elt F) arg9.view.junk (kernelRun0_A c i arg2 harg2 arg3 harg3 arg4 harg4 arg5 harg5 arg6 harg6 arg7 harg7 arg8 harg8 arg9 harg9 arg10 harg10 hc0 hc1 x0 x1 x2 x3).2.2.1)
      = k0_pay3 (k0_pay10 x0 x1) (k0_pay12 x2 x3) (k0_pay8 (F := F)) := by
  rw [View.read_writes_junk_eq_canon]
  unfold kernelRun0_A
  dsimp only
  sl_unfold_words
  rw [View.canon_cons_unit_zero (S := S2048x1) hz2]
  simp only [View.readCov_unit_zero (S := S2048x1) _ hz2, View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

theorem pieceA3 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : cond0_0 i) (hc1 : ¬cond0_1 i) (x0 : Vec F S2048x512 .f32) (x1 : Vec F S256x512 .f32) (x2 : Vec F S2048x1 .i32) (x3 : Vec F S1x256 .i32) :
    arg10.view.read (Elt F) (arg10.view.writes (Elt F) arg10.view.junk (kernelRun0_A c i arg2 harg2 arg3 harg3 arg4 harg4 arg5 harg5 arg6 harg6 arg7 harg7 arg8 harg8 arg9 harg9 arg10 harg10 hc0 hc1 x0 x1 x2 x3).2.2.2.1)
      = k0_pay4 (k0_pay12 x2 x3) (k0_pay9 (F := F)) := by
  rw [View.read_writes_junk_eq_canon]
  unfold kernelRun0_A
  dsimp only
  sl_unfold_words
  rw [View.canon_cons_unit_zero (S := S2048x1) hz2]
  simp only [View.readCov_unit_zero (S := S2048x1) _ hz2, View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

/-! ## The last block of columns: the four numbers are folded as in the middle, then the losses are written from them -/

theorem pieceC1 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i) (x0 : Vec F S2048x512 .f32) (x1 : Vec F S256x512 .f32) (x2 : Vec F S2048x1 .i32) (x3 : Vec F S1x256 .i32) (xs0 xs1 xs2 xs3 : Vec F S2048x1 .f32) :
    arg7.view.read (Elt F) (arg7.view.writes (Elt F) arg7.view.junk (kernelRun0_C c i arg2 harg2 arg3 harg3 arg4 harg4 arg5 harg5 arg6 harg6 arg7 harg7 arg8 harg8 arg9 harg9 arg10 harg10 hc0 hc1 x0 x1 x2 x3 xs0 xs1 xs2 xs3).2.1)
      = k0_pay1 (k0_pay13 x0 x1 xs0) := by
  rw [View.read_writes_junk_eq_canon]
  unfold kernelRun0_C
  dsimp only
  sl_unfold_words
  rw [View.canon_unit_zero hz2]
  simp only [View.readCov_unit_zero (S := S2048x1) _ hz2, View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

theorem pieceC2 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i) (x0 : Vec F S2048x512 .f32) (x1 : Vec F S256x512 .f32) (x2 : Vec F S2048x1 .i32) (x3 : Vec F S1x256 .i32) (xs0 xs1 xs2 xs3 : Vec F S2048x1 .f32) :
    arg8.view.read (Elt F) (arg8.view.writes (Elt F) arg8.view.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.1)
      = k0_pay2 (k0_pay11 i) (k0_pay14 x0 x1 xs0) (k0_pay15 x0 x1 xs0) xs1 := by
  rw [View.read_writes_junk_eq_canon]
  unfold kernelRun0_C
  dsimp only
  sl_unfold_words
  rw [View.canon_unit_zero hz2]
  simp only [View.readCov_unit_zero (S := S2048x1) _ hz2, View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

theorem pieceC3 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i) (x0 : Vec F S2048x512 .f32) (x1 : Vec F S256x512 .f32) (x2 : Vec F S2048x1 .i32) (x3 : Vec F S1x256 .i32) (xs0 xs1 xs2 xs3 : Vec F S2048x1 .f32) :
    arg9.view.read (Elt F) (arg9.view.writes (Elt F) arg9.view.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.1)
      = k0_pay3 (k0_pay10 x0 x1) (k0_pay12 x2 x3) xs2 := by
  rw [View.read_writes_junk_eq_canon]
  unfold kernelRun0_C
  dsimp only
  sl_unfold_words
  rw [View.canon_unit_zero hz2]
  simp only [View.readCov_unit_zero (S := S2048x1) _ hz2, View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

theorem pieceC4 (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i) (x0 : Vec F S2048x512 .f32) (x1 : Vec F S256x512 .f32) (x2 : Vec F S2048x1 .i32) (x3 : Vec F S1x256 .i32) (xs0 xs1 xs2 xs3 : Vec F S2048x1 .f32) :
    arg10.view.read (Elt F) (arg10.view.writes (Elt F) arg10.view.junk (kernelRun0_C c i arg2 harg2 arg3 harg3 arg4 harg4 arg5 harg5 arg6 harg6 arg7 harg7 arg8 harg8 arg9 harg9 arg10 harg10 hc0 hc1 x0 x1 x2 x3 xs0 xs1 xs2 xs3).2.2.2.2.1)
      = k0_pay4 (k0_pay12 x2 x3) xs3 := by
  rw [View.read_writes_junk_eq_canon]
  unfold kernelRun0_C
  dsimp only
  sl_unfold_words
  rw [View.canon_unit_zero hz2]
  simp only [View.readCov_unit_zero (S := S2048x1) _ hz2, View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

/-- The output block, read through any view of its shape: the losses computed from the four folded numbers. -/
theorem pieceC0 (v : View sig .tc .vmem S2048x1 .f32) (c : Dev nD) (i : grid0.Coords) (arg2 : Memref sig .tc .vmem S2048x512 .f32) (harg2 : arg2.IsWhole) (arg3 : Memref sig .tc .vmem S256x512 .f32) (harg3 : arg3.IsWhole) (arg4 : Memref sig .tc .vmem S2048x1 .i32) (harg4 : arg4.IsWhole) (arg5 : Memref sig .tc .vmem S1x256 .i32) (harg5 : arg5.IsWhole) (arg6 : Memref sig .tc .vmem S2048x1 .f32) (harg6 : arg6.IsWhole) (arg7 : Memref sig .tc .vmem S2048x1 .f32) (harg7 : arg7.IsWhole) (arg8 : Memref sig .tc .vmem S2048x1 .f32) (harg8 : arg8.IsWhole) (arg9 : Memref sig .tc .vmem S2048x1 .f32) (harg9 : arg9.IsWhole) (arg10 : Memref sig .tc .vmem S2048x1 .f32) (harg10 : arg10.IsWhole) (hc0 : ¬cond0_0 i) (hc1 : cond0_1 i) (x0 : Vec F S2048x512 .f32) (x1 : Vec F S256x512 .f32) (x2 : Vec F S2048x1 .i32) (x3 : Vec F S1x256 .i32) (xs0 xs1 xs2 xs3 : Vec F S2048x1 .f32) :
    v.read (Elt F) (v.writes (Elt F) v.junk (kernelRun0_C c i arg2 harg2 arg3 harg3 arg4 harg4 arg5 harg5 arg6 harg6 arg7 harg7 arg8 harg8 arg9 harg9 arg10 harg10 hc0 hc1 x0 x1 x2 x3 xs0 xs1 xs2 xs3).1)
      = k0_pay5 (k0_pay2 (k0_pay11 i) (k0_pay14 x0 x1 xs0) (k0_pay15 x0 x1 xs0) xs1) (k0_pay4 (k0_pay12 x2 x3) xs3) (k0_pay3 (k0_pay10 x0 x1) (k0_pay12 x2 x3) xs2) (k0_pay1 (k0_pay13 x0 x1 xs0)) := by
  rw [View.read_writes_junk_eq_canon]
  unfold kernelRun0_C
  dsimp only
  sl_unfold_words
  rw [View.canon_unit_zero hz2]
  simp only [View.readCov_unit_zero (S := S2048x1) _ hz2, View.readAt_eq_ld, harg2.read_unread, harg3.read_unread, harg4.read_unread, harg5.read_unread, harg7.read_unread,
    harg8.read_unread, harg9.read_unread, harg10.read_unread, View.ld_unit_zero (S := S2048x512) hz2,
    View.ld_unit_zero (S := S256x512) hz2, View.ld_unit_zero (S := S2048x1) hz2, View.ld_unit_zero (S := S1x256) hz2]

/-! ## The three cases at a point of the grid -/

set_option maxHeartbeats 1600000 in
/-- A middle block of columns leaves the output block untouched and the four numbers folded with the block. -/
theorem outsB_eq (c : Dev nD) (t : Fin cfg0.N) (hc0 : ¬cond0_0 (grid0.coords t)) (hc1 : ¬cond0_1 (grid0.coords t))
    (xs : Vec F S2048x1 .f32 × Vec F S2048x1 .f32 × Vec F S2048x1 .f32 × Vec F S2048x1 .f32) :
    outsB m c t hc0 hc1 xs =
      (VO0_4.read (Elt F) VO0_4.junk,
       k0_pay1 (k0_pay13 (iblk m c 0 t) (iblk m c 1 t) xs.1),
       k0_pay2 (k0_pay11 (grid0.coords t)) (k0_pay14 (iblk m c 0 t) (iblk m c 1 t) xs.1) (k0_pay15 (iblk m c 0 t) (iblk m c 1 t) xs.1) xs.2.1,
       k0_pay3 (k0_pay10 (iblk m c 0 t) (iblk m c 1 t)) (k0_pay12 (iblk m c 2 t) (iblk m c 3 t)) xs.2.2.1,
       k0_pay4 (k0_pay12 (iblk m c 2 t) (iblk m c 3 t)) xs.2.2.2) := by
  unfold outsB
  dsimp only
  rw [pieceB0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2,
    pieceB1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2,
    pieceB2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2,
    pieceB3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2]

set_option maxHeartbeats 1600000 in
/-- The first block of columns leaves the same with the reset values in place of the numbers before. -/
theorem outsA_eq (c : Dev nD) (t : Fin cfg0.N) (hc0 : cond0_0 (grid0.coords t)) (hc1 : ¬cond0_1 (grid0.coords t)) :
    outsA m c t hc0 hc1 =
      (VO0_4.read (Elt F) VO0_4.junk,
       k0_pay1 (k0_pay13 (iblk m c 0 t) (iblk m c 1 t) (k0_pay6 (F := F))),
       k0_pay2 (k0_pay11 (grid0.coords t)) (k0_pay14 (iblk m c 0 t) (iblk m c 1 t) (k0_pay6 (F := F))) (k0_pay15 (iblk m c 0 t) (iblk m c 1 t) (k0_pay6 (F := F))) (k0_pay7 (F := F)),
       k0_pay3 (k0_pay10 (iblk m c 0 t) (iblk m c 1 t)) (k0_pay12 (iblk m c 2 t) (iblk m c 3 t)) (k0_pay8 (F := F)),
       k0_pay4 (k0_pay12 (iblk m c 2 t) (iblk m c 3 t)) (k0_pay9 (F := F))) := by
  unfold outsA
  dsimp only
  rw [pieceA0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
    pieceA1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
    pieceA2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t),
    pieceA3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t)]

set_option maxHeartbeats 1600000 in
/-- The last block of columns folds the four numbers as a middle one does and writes the rows' losses from them. -/
theorem outsC_eq (c : Dev nD) (t : Fin cfg0.N) (hc0 : ¬cond0_0 (grid0.coords t)) (hc1 : cond0_1 (grid0.coords t))
    (xs : Vec F S2048x1 .f32 × Vec F S2048x1 .f32 × Vec F S2048x1 .f32 × Vec F S2048x1 .f32) :
    outsC m c t hc0 hc1 xs =
      (k0_pay5 (k0_pay2 (k0_pay11 (grid0.coords t)) (k0_pay14 (iblk m c 0 t) (iblk m c 1 t) xs.1) (k0_pay15 (iblk m c 0 t) (iblk m c 1 t) xs.1) xs.2.1) (k0_pay4 (k0_pay12 (iblk m c 2 t) (iblk m c 3 t)) xs.2.2.2) (k0_pay3 (k0_pay10 (iblk m c 0 t) (iblk m c 1 t)) (k0_pay12 (iblk m c 2 t) (iblk m c 3 t)) xs.2.2.1) (k0_pay1 (k0_pay13 (iblk m c 0 t) (iblk m c 1 t) xs.1)),
       k0_pay1 (k0_pay13 (iblk m c 0 t) (iblk m c 1 t) xs.1),
       k0_pay2 (k0_pay11 (grid0.coords t)) (k0_pay14 (iblk m c 0 t) (iblk m c 1 t) xs.1) (k0_pay15 (iblk m c 0 t) (iblk m c 1 t) xs.1) xs.2.1,
       k0_pay3 (k0_pay10 (iblk m c 0 t) (iblk m c 1 t)) (k0_pay12 (iblk m c 2 t) (iblk m c 3 t)) xs.2.2.1,
       k0_pay4 (k0_pay12 (iblk m c 2 t) (iblk m c 3 t)) xs.2.2.2) := by
  unfold outsC
  dsimp only
  rw [pieceC0 VO0_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2,
    pieceC1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2,
    pieceC2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2,
    pieceC3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2,
    pieceC4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) xs.1 xs.2.1 xs.2.2.1 xs.2.2.2]

end Cert.KernelIdeal.Hand

end
-- ==== Proof.LibFiniteSums.lean ====
/-
  General laws for finite sums of REAL entries inside the extended reals.

  On the extended reals multiplication does not distribute over addition at the infinities, so a scale cannot be
  moved across a sum in general. For sums whose entries are all real it can: the sum of coerced reals is the coerced
  real sum, and there the ring laws apply. These are the laws behind folding a per-channel scale (a batch-norm
  scale, a gate) into the weights of a linear map, and behind packing two images side by side with block-diagonal
  weights: the off-diagonal blocks contribute 0 · (a real) = 0.
-/
import Mathlib.Data.EReal.Operations
import Mathlib.Algebra.BigOperators.Ring.Finset
import Mathlib.Algebra.BigOperators.Fin
import Mathlib.Algebra.BigOperators.Field
import Mathlib.Tactic.FinCases
import Mathlib.Tactic.Ring

noncomputable section

namespace Cert.LibFiniteSums

open scoped BigOperators

variable {ι κ : Type*}

/-- The sum of coerced reals is the coerced real sum. -/
theorem coe_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum of products of reals, inside the extended reals, is a real. -/
theorem coe_sum_mul (s : Finset ι) (x w : ι → ℝ) :
    (∑ i ∈ s, ((x i : ℝ) : EReal) * ((w i : ℝ) : EReal)) = ((∑ i ∈ s, x i * w i : ℝ) : EReal) := by
  rw [← coe_sum]; exact Finset.sum_congr rfl fun i _ => (EReal.coe_mul _ _).symm

/-- A scale applied AFTER a contraction of reals is the same contraction with the scale folded into the weights:
    (Σ_i x_i w_i) · s = Σ_i x_i (w_i s). -/
theorem sum_mul_scale (s : Finset ι) (x w : ι → ℝ) (c : ℝ) :
    (∑ i ∈ s, ((x i : ℝ) : EReal) * ((w i : ℝ) : EReal)) * ((c : ℝ) : EReal)
      = ∑ i ∈ s, ((x i : ℝ) : EReal) * (((w i : ℝ) : EReal) * ((c : ℝ) : EReal)) := by
  rw [coe_sum_mul, ← EReal.coe_mul, Finset.sum_mul]
  rw [show (∑ i ∈ s, ((x i : ℝ) : EReal) * (((w i : ℝ) : EReal) * ((c : ℝ) : EReal)))
      = ∑ i ∈ s, ((x i * (w i * c) : ℝ) : EReal) from
    Finset.sum_congr rfl fun i _ => by rw [← EReal.coe_mul, ← EReal.coe_mul], coe_sum]
  congr 1
  exact Finset.sum_congr rfl fun i _ => by ring

/-- The same with a bias added on both sides (the folded batch-norm form). -/
theorem sum_mul_scale_add (s : Finset ι) (x w : ι → ℝ) (c b : ℝ) :
    (∑ i ∈ s, ((x i : ℝ) : EReal) * ((w i : ℝ) : EReal)) * ((c : ℝ) : EReal) + ((b : ℝ) : EReal)
      = (∑ i ∈ s, ((x i : ℝ) : EReal) * (((w i : ℝ) : EReal) * ((c : ℝ) : EReal))) + ((b : ℝ) : EReal) := by
  rw [sum_mul_scale]

/-- A gate folded into a contraction: Σ_i (w_i · c · g_i) · z_i = (Σ_i (z_i g_i) w_i) · c. -/
theorem sum_gate_fold (s : Finset ι) (z g w : ι → ℝ) (c : ℝ) :
    (∑ i ∈ s, (((w i : ℝ) : EReal) * ((c : ℝ) : EReal) * ((g i : ℝ) : EReal)) * ((z i : ℝ) : EReal))
      = (∑ i ∈ s, (((z i : ℝ) : EReal) * ((g i : ℝ) : EReal)) * ((w i : ℝ) : EReal)) * ((c : ℝ) : EReal) := by
  rw [show (∑ i ∈ s, (((w i : ℝ) : EReal) * ((c : ℝ) : EReal) * ((g i : ℝ) : EReal)) * ((z i : ℝ) : EReal))
      = ∑ i ∈ s, ((w i * c * g i * z i : ℝ) : EReal) from
    Finset.sum_congr rfl fun i _ => by rw [← EReal.coe_mul, ← EReal.coe_mul, ← EReal.coe_mul], coe_sum]
  rw [show (∑ i ∈ s, (((z i : ℝ) : EReal) * ((g i : ℝ) : EReal)) * ((w i : ℝ) : EReal))
      = ∑ i ∈ s, ((z i * g i * w i : ℝ) : EReal) from
    Finset.sum_congr rfl fun i _ => by rw [← EReal.coe_mul, ← EReal.coe_mul], coe_sum, ← EReal.coe_mul, Finset.sum_mul]
  congr 1
  exact Finset.sum_congr rfl fun i _ => by ring

/-- Two images packed side by side with block-diagonal weights: contracting the pair index against the Kronecker
    delta leaves the one image's contraction. -/
theorem sum_block_diag [Fintype ι] (p : Fin 2) (x : Fin 2 → ι → ℝ) (w : ι → ℝ) :
    (∑ q : Fin 2, ∑ i : ι, ((x q i : ℝ) : EReal) * (((if q = p then (1 : ℝ) else 0 : ℝ) : EReal) * ((w i : ℝ) : EReal)))
      = ∑ i : ι, ((x p i : ℝ) : EReal) * ((w i : ℝ) : EReal) := by
  rw [show (∑ q : Fin 2, ∑ i : ι, ((x q i : ℝ) : EReal) * (((if q = p then (1 : ℝ) else 0 : ℝ) : EReal) * ((w i : ℝ) : EReal)))
      = ∑ q : Fin 2, ((∑ i : ι, x q i * ((if q = p then (1 : ℝ) else 0) * w i) : ℝ) : EReal) from
    Finset.sum_congr rfl fun q _ => by
      rw [← coe_sum]; exact Finset.sum_congr rfl fun i _ => by rw [← EReal.coe_mul, ← EReal.coe_mul]]
  rw [coe_sum, coe_sum_mul]
  congr 1
  rw [Fin.sum_univ_two]
  fin_cases p <;> simp

/-- The mean over a rectangle taken at once is the mean of the row means (all entries real):
    (Σ_h Σ_w z) / (H·W) = (Σ_h (Σ_w z) / W) / H. -/
theorem mean_of_row_means {H W : ℕ} (z : Fin H → Fin W → ℝ) (hH : (H : ℝ) ≠ 0) (hW : (W : ℝ) ≠ 0) :
    (∑ h, ∑ w, z h w) / ((H : ℝ) * (W : ℝ)) = (∑ h, (∑ w, z h w) / (W : ℝ)) / (H : ℝ) := by
  rw [← Finset.sum_div, div_div, mul_comm]

end Cert.LibFiniteSums

end
-- ==== Proof.Online.lean ====
/-
  The streamed row loss equals the plain two-pass row loss on finite data.

  A row's loss is read either in two passes (the row maximum M first, then the sums relative to M) or in one pass
  over T blocks of B columns that keeps a running maximum m and a running sum l of exponentials relative to m.
  When a block raises the maximum from m to m', the old sum is rescaled by exp (m − m'); on real data
  exp (m − m') · exp (x − m) = exp (x − m'), so after j blocks l is the sum of exp (x k − m_j) over the columns seen
  so far, m_j their maximum.  Before the first block the maximum is −∞ and the sum is empty: exp (−∞ − m') · 0 = 0.
  After the last block every column has been seen, m is the row maximum, and
      0 − ((s − m·c) − c·L) = −Σ msk k · ((x k − m) − L)
  is distributivity over the reals.  The three constants (temperature, stabiliser, row count) are positive reals,
  so the similarities of a real feature matrix are real, and the two forms of the whole loss agree.
-/
import proofs.«142344_j74028056314074_1_alg».proof.Proof.Spec
import proofs.«142344_j74028056314074_1_alg».proof.Proof.LibFiniteSums

noncomputable section

namespace Cert.Online

open Idealize.ShloMosaic
open Cert.Spec
open scoped BigOperators

/-! ## The three constants are positive reals -/

/-- The stabiliser's word denotes 11258999 · 2⁻⁵⁰. -/
theorem eps_val : eps = (((11258999 : ℝ) * (2 : ℝ) ^ (-50 : Int) : ℝ) : EReal) := by
  simp [eps, Ideal.ofBits, Ideal.ieee, -EReal.coe_mul]

/-- The temperature's word denotes 13421773 · 2⁻²⁷. -/
theorem theta_val : theta = (((13421773 : ℝ) * (2 : ℝ) ^ (-27 : Int) : ℝ) : EReal) := by
  simp [theta, Ideal.ofBits, Ideal.ieee, -EReal.coe_mul]

/-- The row count's word denotes 8192. -/
theorem rows_val : rows = ((8192 : ℝ) : EReal) := by
  simp [rows, Ideal.ofBits, Ideal.ieee, -EReal.coe_mul]; norm_num

/-- The word of −∞ (sign set, exponent all ones, fraction zero) denotes the bottom element. -/
theorem negInf_val : Ideal.ofBits .f32 0xFF800000#32 = (⊥ : EReal) := by
  simp [Ideal.ofBits, Ideal.ieee]

theorem eps_pos_real : ∃ e : ℝ, 0 < e ∧ Cert.Spec.eps = (e : EReal) :=
  ⟨_, by positivity, eps_val⟩

theorem theta_pos_real : ∃ th : ℝ, 0 < th ∧ Cert.Spec.theta = (th : EReal) :=
  ⟨_, by positivity, theta_val⟩

theorem rows_pos_real : ∃ r : ℝ, 0 < r ∧ Cert.Spec.rows = (r : EReal) :=
  ⟨_, by norm_num, rows_val⟩

/-! ## Similarities are real, label indicators are 0 or 1 -/

theorem sim_real {N C : ℕ} (f : Fin N → Fin C → EReal) (hf : ∀ n c, ∃ x : ℝ, f n c = (x : EReal)) (n k : Fin N) :
    ∃ x : ℝ, Cert.Spec.sim f n k = (x : EReal) := by
  choose g hg using hf
  obtain ⟨th, hth, hθ⟩ := theta_pos_real
  refine ⟨(∑ c : Fin C, g n c * g k c) * (1 / th), ?_⟩
  unfold Cert.Spec.sim
  rw [hθ, Ideal.div_coe hth.ne']
  simp only [hg]
  rw [Cert.LibFiniteSums.coe_sum_mul, ← EReal.coe_mul]

theorem same_zero_or_one {N : ℕ} (lab : Fin N → BitVec 32) (n k : Fin N) :
    Cert.Spec.same lab n k = 0 ∨ Cert.Spec.same lab n k = 1 := by
  unfold Cert.Spec.same
  split_ifs
  · exact Or.inr rfl
  · exact Or.inl rfl

/-! ## The columns seen after j blocks -/

section Seen

variable {T B : ℕ}

/-- The columns of the first j blocks: those below j·B. -/
def seen (T B j : ℕ) : Finset (Fin (T * B)) := Finset.univ.filter fun k => k.val < j * B

theorem mem_seen {j : ℕ} (k : Fin (T * B)) : k ∈ seen T B j ↔ k.val < j * B := by
  simp [seen]

theorem seen_zero : seen T B 0 = ∅ := by
  ext k; simp [seen]

/-- After all T blocks every column has been seen. -/
theorem seen_all : seen T B T = Finset.univ := by
  ext k; simp [seen]

/-- Block j's columns, as an embedding of the block's positions. -/
def colEmb (j : Fin T) : Fin B ↪ Fin (T * B) :=
  ⟨col j, fun _ _ hab => (Prod.mk.inj (finProdFinEquiv.injective hab)).2⟩

theorem colEmb_apply (j : Fin T) (r : Fin B) : colEmb j r = col j r := rfl

/-- Block j adds exactly its own B columns to the columns seen. -/
theorem seen_succ {j : ℕ} (h : j < T) :
    seen T B (j + 1) = seen T B j ∪ Finset.univ.map (colEmb ⟨j, h⟩) := by
  ext k
  simp only [mem_seen, Finset.mem_union, Finset.mem_map, Finset.mem_univ, true_and, colEmb_apply]
  rw [Nat.add_one_mul]
  constructor
  · intro hk
    by_cases hlt : k.val < j * B
    · exact Or.inl hlt
    · refine Or.inr ⟨⟨k.val - j * B, by omega⟩, Fin.ext ?_⟩
      rw [col_val]
      show k.val - j * B + B * j = k.val
      rw [Nat.mul_comm B j]; omega
  · rintro (hlt | ⟨r, rfl⟩)
    · omega
    · rw [col_val]
      show r.val + B * j < j * B + B
      have := r.isLt
      rw [Nat.mul_comm B j]; omega

theorem seen_disjoint {j : ℕ} (h : j < T) :
    Disjoint (seen T B j) (Finset.univ.map (colEmb ⟨j, h⟩)) := by
  rw [Finset.disjoint_left]
  intro k hk hk'
  rw [mem_seen] at hk
  simp only [Finset.mem_map, Finset.mem_univ, true_and, colEmb_apply] at hk'
  obtain ⟨r, rfl⟩ := hk'
  rw [col_val] at hk
  have hk2 : r.val + B * j < j * B := hk
  rw [Nat.mul_comm B j] at hk2
  omega

theorem seen_subset_succ {j : ℕ} (h : j < T) : seen T B j ⊆ seen T B (j + 1) := by
  rw [seen_succ h]; exact Finset.subset_union_left

/-- A sum over the columns seen after block j: the sum before it plus the block's own entries. -/
theorem sum_seen_succ {β : Type*} [AddCommMonoid β] {j : ℕ} (h : j < T) (g : Fin (T * B) → β) :
    ∑ k ∈ seen T B (j + 1), g k = ∑ k ∈ seen T B j, g k + ∑ r : Fin B, g (col ⟨j, h⟩ r) := by
  rw [seen_succ h, Finset.sum_union (seen_disjoint h), Finset.sum_map]
  rfl

/-- The maximum over the columns seen after block j: the larger of the maximum before it and the block's. -/
theorem sup_seen_succ {j : ℕ} (h : j < T) (raw : Fin (T * B) → EReal) :
    (seen T B (j + 1)).sup raw
      = max ((seen T B j).sup raw) ((Finset.univ : Finset (Fin B)).fold max ⊥ fun r => raw (col ⟨j, h⟩ r)) := by
  rw [seen_succ h, Finset.sup_union, Finset.sup_map]
  rfl

end Seen

/-! ## Real data: maxima, exponentials, rescaling -/

/-- The maximum of finitely many reals, at least one, is a real. -/
theorem sup_coe_real {ι : Type*} (S : Finset ι) (raw : ι → EReal) (x : ι → ℝ) (hx : ∀ k, raw k = (x k : EReal)) :
    S.Nonempty → ∃ m : ℝ, S.sup raw = (m : EReal) := by
  classical
  induction S using Finset.induction_on with
  | empty => intro h; exact absurd h Finset.not_nonempty_empty
  | insert a S ha ih =>
    intro _
    rw [Finset.sup_insert, hx a]
    rcases S.eq_empty_or_nonempty with rfl | hS
    · exact ⟨x a, by simp⟩
    · obtain ⟨m, hm⟩ := ih hS
      exact ⟨max (x a) m, by rw [hm]; exact (EReal.coe_strictMono.monotone.map_max).symm⟩

/-- One entry of the sum of exponentials, on real data, is a real. -/
theorem term_coe (p : Prop) [Decidable p] (x m : ℝ) :
    (if p then (0 : EReal) else Ideal.exp ((x : EReal) - (m : EReal)))
      = ((if p then 0 else Real.exp (x - m) : ℝ) : EReal) := by
  split_ifs
  · rfl
  · rw [← EReal.coe_sub, Ideal.exp_coe]

/-- Raising the reference point from M to M' rescales the sum of exponentials by exp (M − M'). With no entry the
    sum is 0 and the factor does not matter; with entries both reference points are real. -/
theorem rescale {ι : Type*} [DecidableEq ι] (S : Finset ι) (n : ι) (raw : ι → EReal) (x : ι → ℝ)
    (hx : ∀ k, raw k = (x k : EReal)) (M M' : EReal)
    (h : S.Nonempty → ∃ m m' : ℝ, M = (m : EReal) ∧ M' = (m' : EReal)) :
    Ideal.exp (M - M') * ∑ k ∈ S, (if k = n then (0 : EReal) else Ideal.exp (raw k - M))
      = ∑ k ∈ S, (if k = n then (0 : EReal) else Ideal.exp (raw k - M')) := by
  rcases S.eq_empty_or_nonempty with rfl | hS
  · simp
  · obtain ⟨m, m', rfl, rfl⟩ := h hS
    simp only [hx, term_coe]
    rw [Cert.LibFiniteSums.coe_sum, Cert.LibFiniteSums.coe_sum, ← EReal.coe_sub, Ideal.exp_coe, ← EReal.coe_mul,
      Finset.mul_sum]
    congr 1
    refine Finset.sum_congr rfl fun k _ => ?_
    split_ifs
    · simp
    · rw [← Real.exp_add]; congr 1; ring

/-! ## The state after j blocks -/

/-- The running sum of exponentials after one more block. -/
theorem l_step {T B : ℕ} {j : ℕ} (h : j < T) (raw : Fin (T * B) → EReal) (n : Fin (T * B)) (x : Fin (T * B) → ℝ)
    (hx : ∀ k, raw k = (x k : EReal)) :
    Ideal.exp ((seen T B j).sup raw - (seen T B (j + 1)).sup raw)
        * (∑ k ∈ seen T B j, (if k = n then (0 : EReal) else Ideal.exp (raw k - (seen T B j).sup raw)))
      + ∑ r : Fin B, (if col ⟨j, h⟩ r = n then (0 : EReal) else Ideal.exp (raw (col ⟨j, h⟩ r) - (seen T B (j + 1)).sup raw))
      = ∑ k ∈ seen T B (j + 1), (if k = n then (0 : EReal) else Ideal.exp (raw k - (seen T B (j + 1)).sup raw)) := by
  have hr := rescale (seen T B j) n raw x hx ((seen T B j).sup raw) ((seen T B (j + 1)).sup raw) (fun hne => by
    obtain ⟨m, hm⟩ := sup_coe_real _ raw x hx hne
    obtain ⟨m', hm'⟩ := sup_coe_real _ raw x hx (hne.mono (seen_subset_succ h))
    exact ⟨m, m', hm, hm'⟩)
  rw [hr, sum_seen_succ h]

/-- After j blocks the four running numbers are: the maximum over the columns seen, the sum over them (the row's
    own column left out) of the exponentials relative to that maximum, the masked sum and the count. -/
theorem stateAt_eq {T B : ℕ} (raw msk : Fin (T * B) → EReal) (n : Fin (T * B)) (x : Fin (T * B) → ℝ)
    (hx : ∀ k, raw k = (x k : EReal)) : ∀ j : ℕ, j ≤ T →
    stateAt raw msk n j =
      { m := (seen T B j).sup raw
        l := ∑ k ∈ seen T B j, (if k = n then (0 : EReal) else Ideal.exp (raw k - (seen T B j).sup raw))
        s := ∑ k ∈ seen T B j, msk k * raw k
        c := ∑ k ∈ seen T B j, msk k } := by
  intro j
  induction j with
  | zero => intro _; simp [stateAt, St.init, seen_zero]
  | succ j ih =>
    intro hj
    have h : j < T := hj
    rw [stateAt, dif_pos h, ih (Nat.le_of_lt h)]
    simp only [step]
    rw [← sup_seen_succ h raw, l_step h raw n x hx, ← sum_seen_succ h, ← sum_seen_succ h]

/-! ## Reading the loss off the last state -/

/-- Leaving the row's own column out is multiplying its entry by 1 − 1 = 0 and the others by 1 − 0 = 1. -/
theorem own_factor {ι : Type*} [DecidableEq ι] (n k : ι) (a : EReal) :
    (if k = n then (0 : EReal) else a) = a * (1 - (if n = k then (1 : EReal) else 0)) := by
  have h11 : (1 : EReal) - 1 = 0 := by
    rw [← EReal.coe_one, ← EReal.coe_sub, sub_self, EReal.coe_zero]
  by_cases h : k = n
  · subst h; simp [h11]
  · have h' : ¬ n = k := fun e => h e.symm
    simp [h, h']

/-- Distributivity over the reals: 0 − ((s − m·c) − c·L) = −Σ μ k · ((x k − m) − L). -/
theorem numerator_real {ι : Type*} (S : Finset ι) (μ x : ι → ℝ) (m L : ℝ) :
    0 - ((∑ k ∈ S, μ k * x k - m * ∑ k ∈ S, μ k) - (∑ k ∈ S, μ k) * L)
      = -(∑ k ∈ S, μ k * ((x k - m) - L)) := by
  have h : ∑ k ∈ S, μ k * ((x k - m) - L) = ∑ k ∈ S, μ k * x k - m * ∑ k ∈ S, μ k - (∑ k ∈ S, μ k) * L := by
    rw [Finset.mul_sum, Finset.sum_mul, ← Finset.sum_sub_distrib, ← Finset.sum_sub_distrib]
    exact Finset.sum_congr rfl fun k _ => by ring
  rw [h]; ring

/-- The same inside the extended reals, every entry being real. -/
theorem numerator_eq {ι : Type*} (S : Finset ι) (raw msk : ι → EReal) (x μ : ι → ℝ)
    (hx : ∀ k, raw k = (x k : EReal)) (hμ : ∀ k, msk k = (μ k : EReal)) (m L : ℝ) :
    0 - ((∑ k ∈ S, msk k * raw k - (m : EReal) * ∑ k ∈ S, msk k) - (∑ k ∈ S, msk k) * (L : EReal))
      = -(∑ k ∈ S, msk k * ((raw k - (m : EReal)) - (L : EReal))) := by
  have hs : ∑ k ∈ S, msk k * raw k = ((∑ k ∈ S, μ k * x k : ℝ) : EReal) := by
    simp only [hx, hμ]; exact Cert.LibFiniteSums.coe_sum_mul S μ x
  have hc : ∑ k ∈ S, msk k = ((∑ k ∈ S, μ k : ℝ) : EReal) := by
    simp only [hμ]; exact Cert.LibFiniteSums.coe_sum S μ
  have hr : ∑ k ∈ S, msk k * ((raw k - (m : EReal)) - (L : EReal))
      = ((∑ k ∈ S, μ k * ((x k - m) - L) : ℝ) : EReal) := by
    rw [← Cert.LibFiniteSums.coe_sum]
    exact Finset.sum_congr rfl fun k _ => by
      rw [hx, hμ, ← EReal.coe_sub, ← EReal.coe_sub, ← EReal.coe_mul]
  rw [hs, hc, hr, ← EReal.coe_mul, ← EReal.coe_sub, ← EReal.coe_mul, ← EReal.coe_sub, ← EReal.coe_zero,
    ← EReal.coe_sub, ← EReal.coe_neg, numerator_real]

/-- The main law with real witnesses for the similarities and the label indicators. -/
theorem rowOut_stateAt_real {T B : ℕ} (hT : 0 < T) (hB : 0 < B) (raw msk : Fin (T * B) → EReal) (n : Fin (T * B))
    (x μ : Fin (T * B) → ℝ) (hx : ∀ k, raw k = (x k : EReal)) (hμ : ∀ k, msk k = (μ k : EReal)) :
    rowOut (stateAt raw msk n T) = rowLoss raw msk n := by
  haveI : Nonempty (Fin (T * B)) := ⟨⟨0, Nat.mul_pos hT hB⟩⟩
  obtain ⟨m, hm⟩ := sup_coe_real Finset.univ raw x hx Finset.univ_nonempty
  obtain ⟨e, he, heps⟩ := eps_pos_real
  have hmax : rowMaxOf raw = (m : EReal) := hm
  have hl : ∑ k, (if k = n then (0 : EReal) else Ideal.exp (raw k - (m : EReal)))
      = ((∑ k, (if k = n then 0 else Real.exp (x k - m)) : ℝ) : EReal) := by
    rw [← Cert.LibFiniteSums.coe_sum]
    exact Finset.sum_congr rfl fun k _ => by rw [hx k, term_coe]
  have hl0 : 0 ≤ ∑ k, (if k = n then 0 else Real.exp (x k - m)) :=
    Finset.sum_nonneg fun k _ => by
      split_ifs
      · exact le_rfl
      · exact (Real.exp_pos _).le
  generalize (∑ k, (if k = n then 0 else Real.exp (x k - m))) = lr at hl hl0
  have hZ : rowZ raw n = ((lr + e : ℝ) : EReal) := by
    unfold rowZ
    rw [hmax, heps, EReal.coe_add, ← hl]
    congr 1
    exact Finset.sum_congr rfl fun k _ => (own_factor n k _).symm
  have hlog : Ideal.log ((lr + e : ℝ) : EReal) = ((Real.log (lr + e) : ℝ) : EReal) := by
    rw [Ideal.log_coe, if_neg (by linarith)]
  rw [stateAt_eq raw msk n x hx T le_rfl, seen_all, hm]
  unfold rowOut rowLoss
  simp only []
  rw [hZ, hmax, hl, heps, ← EReal.coe_add, hlog]
  congr 1
  exact numerator_eq Finset.univ raw msk x μ hx hμ m (Real.log (lr + e))

/-- THE MAIN LAW: on real similarities and 0/1 label indicators the streamed row loss is the plain row loss. -/
theorem rowOut_stateAt {T B : ℕ} (hT : 0 < T) (hB : 0 < B) (raw msk : Fin (T * B) → EReal) (n : Fin (T * B))
    (hraw : ∀ k, ∃ x : ℝ, raw k = (x : EReal)) (hmsk : ∀ k, msk k = 0 ∨ msk k = 1) :
    Cert.Spec.rowOut (Cert.Spec.stateAt raw msk n T) = Cert.Spec.rowLoss raw msk n := by
  choose x hx using hraw
  have hμ : ∀ k, ∃ u : ℝ, msk k = (u : EReal) := fun k => by
    rcases hmsk k with h | h
    · exact ⟨0, by rw [h]; rfl⟩
    · exact ⟨1, by rw [h]; rfl⟩
  choose μ hμ' using hμ
  exact rowOut_stateAt_real hT hB raw msk n x μ hx hμ'

/-! ## The whole loss -/

theorem streamed_eq_result {T B C : ℕ} (hT : 0 < T) (hB : 0 < B) (f : Fin (T * B) → Fin C → EReal)
    (lab : Fin (T * B) → BitVec 32) (hf : ∀ n c, ∃ x : ℝ, f n c = (x : EReal)) :
    Cert.Spec.streamed f lab = Cert.Spec.result f lab := by
  unfold Cert.Spec.streamed Cert.Spec.result
  congr 1
  funext n
  exact rowOut_stateAt hT hB (sim f n) (same lab n) n (fun k => sim_real f hf n k) (fun k => same_zero_or_one lab n k)

end Cert.Online

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.KI.Payloads.lean ====
/-
  The block body's arithmetic, read entry by entry on the extended reals.

  One grid point holds a block of 2048 feature rows and a block of 256 feature rows (the columns of a 2048 × 256
  block of similarities), the two blocks' labels, and four running numbers per row. This module reads each pure
  term of the body at an index written by coordinates (row p, column r):
  the similarity is the inner product of the two feature rows over the temperature (changes of float format are
  the identity, a product into the zero accumulator is the plain sum); the label indicator is 1 or 0 as the two
  labels agree; the own-column bit says that the row's global number 2048·i₀ + p is the column's 256·i₁ + r;
  the update of the four running numbers is the specification's step on those three rows of data; the final
  read-off is the specification's; and the reset values are −∞, 0, 0, 0.
-/
import proofs.«142344_j74028056314074_1_alg».proof.Proof.Gen.KernelIdeal.Skeleton
import proofs.«142344_j74028056314074_1_alg».proof.Proof.Spec
import proofs.«142344_j74028056314074_1_alg».proof.Proof.Online
import proofs.«142344_j74028056314074_1_alg».proof.Proof.LibRowwise
import proofs.«142344_j74028056314074_1_alg».proof.Proof.LibMatmul2d
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadValue

open Idealize.ShloMosaic Idealize.ShloMosaic.ValueIdx
open Cert.KernelIdeal Cert.KernelIdeal.Gen
open scoped BigOperators

/-- The similarity block at (p, r): the inner product of feature row p of the row block with feature row r of the
    column block, over the temperature. The format changes are the identity on extended reals, the transposed
    column block read at (c, r) is the column block at (r, c), and the product into the zero accumulator is the sum. -/
theorem raw_apply (x0 : Vec Ideal S2048x512 .f32) (x1 : Vec Ideal S256x512 .f32) (p : Fin 2048) (r : Fin 256) :
    k0_pay10 (F := Ideal) x0 x1 (ix2 p r)
      = Ideal.div (∑ c : Fin 512, x0 (ix2 p c) * x1 (ix2 r c)) Cert.Spec.theta := by
  unfold k0_pay10
  try dsimp only
  refine (divf_apply _ _ _).trans ?_
  refine congrArg₂ Ideal.div ?_ rfl
  refine (Cert.LibMatmul2d.matmul_plain_apply (M := 2048) (K := 512) (N := 256) _ _ p r).trans ?_
  refine Finset.sum_congr rfl fun c _ => ?_
  refine congrArg₂ (· * ·) ?_ ?_
  · show shapeCast S2048x512 x0 _ (ix2 p c) = x0 (ix2 p c)
    rw [shapeCast_self]
  · refine (transpose_ix2_apply _ _ c r).trans ?_
    show shapeCast S256x512 x1 _ (ix2 r c) = x1 (ix2 r c)
    rw [shapeCast_self]

/-- The bit of an equality test, widened to 32 bits and read as a signed integer, is 1 or 0. -/
theorem sitofp_eq_bit (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · have hc : IntOp.cmpi .eq a b = 1#1 := by simp [IntOp.cmpi, h]
    have h1 : ((1#1 : BitVec 1).setWidth 32).toInt = 1 := by decide
    rw [hc, h1, if_pos h]
    simp
  · have hc : IntOp.cmpi .eq a b = 0#1 := by
      show BitVec.ofBool (a == b) = 0#1
      rw [beq_eq_false_iff_ne.mpr h]; rfl
    have h0 : ((0#1 : BitVec 1).setWidth 32).toInt = 0 := by decide
    rw [hc, h0, if_neg h]
    simp

/-- The label indicator block at (p, r): 1 when row p's label equals column r's, else 0. -/
theorem msk_apply (x2 : Vec Ideal S2048x1 .i32) (x3 : Vec Ideal S1x256 .i32) (p : Fin 2048) (r : Fin 256) :
    k0_pay12 (F := Ideal) x2 x3 (ix2 p r)
      = if (x2 (ix2 p 0) : BitVec 32) = x3 (ix2 0 r) then (1 : EReal) else 0 := by
  unfold k0_pay12
  try dsimp only
  refine (sitofp_apply _ _).trans ?_
  refine (congrArg (FloatOps.sitofp (F := Ideal) .f32) (extui_apply _ _ _)).trans ?_
  have e1 : broadcastTo S2048x256 (shapeCast S2048x1 x2 shapeCasts_S2048x1_S2048x1) broadcasts_S2048x1_S2048x256 (ix2 p r)
      = x2 (ix2 p 0) := by
    refine (Cert.LibRowwise.broadcastTo_a1_ab_apply (a := 2048) (b := 256) _ _ p r).trans ?_
    rw [shapeCast_self]
  have e2 : broadcastTo S2048x256 (shapeCast S1x256 x3 shapeCasts_S1x256_S1x256) broadcasts_S1x256_S2048x256 (ix2 p r)
      = x3 (ix2 0 r) := by
    refine (broadcastTo_1b_ab_apply (a := 2048) (b := 256) _ _ p r).trans ?_
    rw [shapeCast_self]
  show FloatOps.sitofp (F := Ideal) .f32 ((IntOp.cmpi .eq
      (broadcastTo S2048x256 (shapeCast S2048x1 x2 shapeCasts_S2048x1_S2048x1) broadcasts_S2048x1_S2048x256 (ix2 p r))
      (broadcastTo S2048x256 (shapeCast S1x256 x3 shapeCasts_S1x256_S1x256) broadcasts_S1x256_S2048x256 (ix2 p r))).setWidth 32) = _
  rw [e1, e2]
  exact sitofp_eq_bit _ _

/-- The bit of an equality test is 1 exactly when the two words are equal. -/
theorem cmpi_eq_one_iff (u v : BitVec 32) : IntOp.cmpi .eq u v = 1#1 ↔ u = v := by
  show BitVec.ofBool (u == v) = 1#1 ↔ u = v
  by_cases h : u = v
  · subst h
    rw [beq_self_eq_true]
    exact ⟨fun _ => rfl, fun _ => rfl⟩
  · rw [beq_eq_false_iff_ne.mpr h]
    exact ⟨fun h' => absurd h' (by decide), fun h' => absurd h' h⟩

/-- The own-column test at (p, r): the row's global number 2048·i₀ + p equals the column's 256·i₁ + r. The grid is
    4 × 32, so both numbers are far below 2³² and the 32-bit words compare as the numbers do. -/
theorem own_apply (i : grid0.Coords) (p : Fin 2048) (r : Fin 256) :
    k0_pay11 i (ix2 p r) = 1#1 ↔ 2048 * (i 0).val + p.val = 256 * (i 1).val + r.val := by
  have h0 : (i 0).val < 4 := (i 0).isLt
  have h1 : (i 1).val < 32 := (i 1).isLt
  have hp := p.isLt
  have hr := r.isLt
  unfold k0_pay11
  try dsimp only
  show IntOp.cmpi .eq
      (IntOp.addi (IntOp.muli (BitVec.ofNat 32 (i 0).val) 2048#32) (iota .tc S2048x256 32 [0] _ (ix2 p r)))
      (IntOp.addi (IntOp.muli (BitVec.ofNat 32 (i 1).val) 256#32) (iota .tc S2048x256 32 [1] _ (ix2 p r))) = 1#1 ↔ _
  rw [iota_single_apply, iota_single_apply, cmpi_eq_one_iff]
  show (BitVec.ofNat 32 (i 0).val * 2048#32 + BitVec.ofNat 32 p.val
      = BitVec.ofNat 32 (i 1).val * 256#32 + BitVec.ofNat 32 r.val) ↔ _
  rw [← BitVec.toNat_inj]
  simp only [BitVec.toNat_add, BitVec.toNat_mul, BitVec.toNat_ofNat]
  omega

/-- A column that is not the row's own has the test bit 0. -/
theorem own_apply_ne (i : grid0.Coords) (p : Fin 2048) (r : Fin 256) (h : k0_pay11 i (ix2 p r) ≠ 1#1) :
    k0_pay11 i (ix2 p r) = 0#1 := eq_zero_of_ne_one h

/-- The new running maximum at row p: the larger of the old one and the block's row maximum (a fold of max from −∞). -/
theorem max_apply (x0 : Vec Ideal S2048x512 .f32) (x1 : Vec Ideal S256x512 .f32) (v31 : Vec Ideal S2048x1 .f32)
    (p : Fin 2048) :
    k0_pay13 (F := Ideal) x0 x1 v31 (ix2 p 0)
      = max (v31 (ix2 p 0))
          ((Finset.univ : Finset (Fin 256)).fold max ⊥ fun r => k0_pay10 (F := Ideal) x0 x1 (ix2 p r)) := by
  unfold k0_pay13
  try dsimp only
  refine (maximumf_apply _ _ _).trans ?_
  refine congrArg (max (v31 (ix2 p 0))) ?_
  refine (Cert.LibRowwise.shapeCast_a_a1_apply (a := 2048) _ _ p 0).trans ?_
  refine (Cert.LibRowwise.rowMax_apply (a := 2048) (b := 256) _ _ _ _ _ p).trans ?_
  rw [Cert.Online.negInf_val]

/-- The stored running maximum is that value. -/
theorem m_apply (x0 : Vec Ideal S2048x512 .f32) (x1 : Vec Ideal S256x512 .f32) (v31 : Vec Ideal S2048x1 .f32)
    (p : Fin 2048) :
    k0_pay1 (k0_pay13 (F := Ideal) x0 x1 v31) (ix2 p 0)
      = max (v31 (ix2 p 0))
          ((Finset.univ : Finset (Fin 256)).fold max ⊥ fun r => k0_pay10 (F := Ideal) x0 x1 (ix2 p r)) := by
  unfold k0_pay1
  try dsimp only
  rw [shapeCast_self]
  exact max_apply x0 x1 v31 p

/-- The rescaling factor at row p: exp (old maximum − new maximum). -/
theorem scale_apply (x0 : Vec Ideal S2048x512 .f32) (x1 : Vec Ideal S256x512 .f32) (v31 : Vec Ideal S2048x1 .f32)
    (p : Fin 2048) :
    k0_pay14 (F := Ideal) x0 x1 v31 (ix2 p 0)
      = Ideal.exp (v31 (ix2 p 0) - k0_pay13 (F := Ideal) x0 x1 v31 (ix2 p 0)) := by
  unfold k0_pay14
  rfl

/-- The block's exponentials at (p, r): exp (similarity − new maximum of row p). -/
theorem expo_apply (x0 : Vec Ideal S2048x512 .f32) (x1 : Vec Ideal S256x512 .f32) (v31 : Vec Ideal S2048x1 .f32)
    (p : Fin 2048) (r : Fin 256) :
    k0_pay15 (F := Ideal) x0 x1 v31 (ix2 p r)
      = Ideal.exp (k0_pay10 (F := Ideal) x0 x1 (ix2 p r) - k0_pay13 (F := Ideal) x0 x1 v31 (ix2 p 0)) := by
  unfold k0_pay15
  try dsimp only
  show Ideal.exp (k0_pay10 (F := Ideal) x0 x1 (ix2 p r)
      - broadcastTo S2048x256 (k0_pay13 (F := Ideal) x0 x1 v31) _ (ix2 p r)) = _
  rw [Cert.LibRowwise.broadcastTo_a1_ab_apply (a := 2048) (b := 256) _ _ p r]

/-- The new running sum of exponentials at row p: the old one rescaled plus the block's exponentials, the row's own
    column (where the test bit is 1) contributing 0. -/
theorem l_apply (i : grid0.Coords) (x0 : Vec Ideal S2048x512 .f32) (x1 : Vec Ideal S256x512 .f32)
    (v31 v42 : Vec Ideal S2048x1 .f32) (p : Fin 2048) :
    k0_pay2 (F := Ideal) (k0_pay11 i) (k0_pay14 (F := Ideal) x0 x1 v31) (k0_pay15 (F := Ideal) x0 x1 v31) v42 (ix2 p 0)
      = Ideal.exp (v31 (ix2 p 0) - k0_pay13 (F := Ideal) x0 x1 v31 (ix2 p 0)) * v42 (ix2 p 0)
        + ∑ r : Fin 256, (if k0_pay11 i (ix2 p r) = 1#1 then (0 : EReal)
            else Ideal.exp (k0_pay10 (F := Ideal) x0 x1 (ix2 p r) - k0_pay13 (F := Ideal) x0 x1 v31 (ix2 p 0))) := by
  unfold k0_pay2
  try dsimp only
  rw [shapeCast_self]
  refine (addf_apply _ _ _).trans ?_
  refine congrArg₂ (· + ·) ?_ ?_
  · refine (mulf_apply _ _ _).trans ?_
    rw [scale_apply]
  · refine (Cert.LibRowwise.shapeCast_a_a1_apply (a := 2048) _ _ p 0).trans ?_
    refine (Cert.LibRowwise.rowSum_apply (a := 2048) (b := 256) _ _ _ _ _ p).trans ?_
    refine Finset.sum_congr rfl fun r _ => ?_
    refine (select_apply _ _ _ _).trans ?_
    rw [expo_apply]
    by_cases h : k0_pay11 i (ix2 p r) = 1#1
    · rw [h, select_one, if_pos rfl]
      exact Ideal.ofBits_zero_f32
    · rw [eq_zero_of_ne_one h, select_zero, if_neg (by decide)]

/-- The new running masked sum at row p. -/
theorem s_apply (x0 : Vec Ideal S2048x512 .f32) (x1 : Vec Ideal S256x512 .f32) (x2 : Vec Ideal S2048x1 .i32)
    (x3 : Vec Ideal S1x256 .i32) (v47 : Vec Ideal S2048x1 .f32) (p : Fin 2048) :
    k0_pay3 (F := Ideal) (k0_pay10 (F := Ideal) x0 x1) (k0_pay12 (F := Ideal) x2 x3) v47 (ix2 p 0)
      = v47 (ix2 p 0)
        + ∑ r : Fin 256, k0_pay12 (F := Ideal) x2 x3 (ix2 p r) * k0_pay10 (F := Ideal) x0 x1 (ix2 p r) := by
  unfold k0_pay3
  try dsimp only
  rw [shapeCast_self]
  refine (addf_apply _ _ _).trans ?_
  refine congrArg (v47 (ix2 p 0) + ·) ?_
  refine (Cert.LibRowwise.shapeCast_a_a1_apply (a := 2048) _ _ p 0).trans ?_
  exact Cert.LibRowwise.rowSum_apply (a := 2048) (b := 256) _ _ _ _ _ p

/-- The new running count at row p. -/
theorem c_apply (x2 : Vec Ideal S2048x1 .i32) (x3 : Vec Ideal S1x256 .i32) (v52 : Vec Ideal S2048x1 .f32)
    (p : Fin 2048) :
    k0_pay4 (F := Ideal) (k0_pay12 (F := Ideal) x2 x3) v52 (ix2 p 0)
      = v52 (ix2 p 0) + ∑ r : Fin 256, k0_pay12 (F := Ideal) x2 x3 (ix2 p r) := by
  unfold k0_pay4
  try dsimp only
  rw [shapeCast_self]
  refine (addf_apply _ _ _).trans ?_
  refine congrArg (v52 (ix2 p 0) + ·) ?_
  refine (Cert.LibRowwise.shapeCast_a_a1_apply (a := 2048) _ _ p 0).trans ?_
  exact Cert.LibRowwise.rowSum_apply (a := 2048) (b := 256) _ _ _ _ _ p

/-- One block's update of the four running numbers of row p is the specification's step on the block's
    similarities, label indicators and own-column tests. -/
theorem step_apply (i : grid0.Coords) (x0 : Vec Ideal S2048x512 .f32) (x1 : Vec Ideal S256x512 .f32)
    (x2 : Vec Ideal S2048x1 .i32) (x3 : Vec Ideal S1x256 .i32) (v31 v42 v47 v52 : Vec Ideal S2048x1 .f32)
    (p : Fin 2048) :
    (⟨k0_pay1 (k0_pay13 (F := Ideal) x0 x1 v31) (ix2 p 0),
      k0_pay2 (F := Ideal) (k0_pay11 i) (k0_pay14 (F := Ideal) x0 x1 v31) (k0_pay15 (F := Ideal) x0 x1 v31) v42 (ix2 p 0),
      k0_pay3 (F := Ideal) (k0_pay10 (F := Ideal) x0 x1) (k0_pay12 (F := Ideal) x2 x3) v47 (ix2 p 0),
      k0_pay4 (F := Ideal) (k0_pay12 (F := Ideal) x2 x3) v52 (ix2 p 0)⟩ : Cert.Spec.St)
      = Cert.Spec.step ⟨v31 (ix2 p 0), v42 (ix2 p 0), v47 (ix2 p 0), v52 (ix2 p 0)⟩
          (fun r : Fin 256 => k0_pay10 (F := Ideal) x0 x1 (ix2 p r))
          (fun r : Fin 256 => k0_pay12 (F := Ideal) x2 x3 (ix2 p r))
          (fun r : Fin 256 => k0_pay11 i (ix2 p r) = 1#1) := by
  rw [m_apply, l_apply, s_apply, c_apply, max_apply]
  rfl

/-- The loss read off the four running numbers, row by row: (0 − ((s − m·c) − c·log (l + ε))) / (c + ε). -/
theorem out_apply (vl vc vs vm : Vec Ideal S2048x1 .f32) (p : Fin 2048) :
    k0_pay5 (F := Ideal) vl vc vs vm (ix2 p 0)
      = Cert.Spec.rowOut ⟨vm (ix2 p 0), vl (ix2 p 0), vs (ix2 p 0), vc (ix2 p 0)⟩ := by
  unfold k0_pay5 Cert.Spec.rowOut
  try dsimp only
  show Ideal.div (Ideal.ofBits .f32 0x00000000#32
      - ((vs (ix2 p 0) - vm (ix2 p 0) * vc (ix2 p 0))
        - vc (ix2 p 0) * Ideal.log (vl (ix2 p 0) + Ideal.ofBits .f32 0x322BCC77#32)))
      (vc (ix2 p 0) + Ideal.ofBits .f32 0x322BCC77#32) = _
  rw [Ideal.ofBits_zero_f32]
  rfl

/-- The reset values, row by row: −∞ for the maximum, 0 for the three sums. -/
theorem reset_apply (p : Fin 2048) :
    k0_pay6 (F := Ideal) (ix2 p 0) = ⊥ ∧ k0_pay7 (F := Ideal) (ix2 p 0) = 0
      ∧ k0_pay8 (F := Ideal) (ix2 p 0) = 0 ∧ k0_pay9 (F := Ideal) (ix2 p 0) = 0 := by
  refine ⟨?_, ?_, ?_, ?_⟩
  · unfold k0_pay6
    try dsimp only
    rw [shapeCast_self]
    exact Cert.Online.negInf_val
  · unfold k0_pay7
    try dsimp only
    rw [shapeCast_self]
    exact Ideal.ofBits_zero_f32
  · unfold k0_pay8
    try dsimp only
    rw [shapeCast_self]
    exact Ideal.ofBits_zero_f32
  · unfold k0_pay9
    try dsimp only
    rw [shapeCast_self]
    exact Ideal.ofBits_zero_f32

end Cert.KernelIdeal.PayloadValue

end
-- ==== Proof.KI.RowState.lean ====
/-
  The four running numbers of a row, point by point, are the specification's streamed state.

  The grid's point t = 32·i + j folds the j-th block of 256 columns into the running numbers of the rows
  2048 i … 2048 i + 2047. At j = 0 the numbers are first reset, so after the point they are one step from the
  initial state; at every later j they are one step from what the point before left — and the point before has the
  same i, hence the same rows. A step's three rows of data are the specification's: the similarity of row n with
  column 256 j + r, the label indicator of the two, and the test "column 256 j + r is row n itself". So after point
  t the numbers of row n are the streamed state after j + 1 blocks, and at j = 31 the loss written for the row is
  the streamed state's read-off after all 32 blocks.
-/
import proofs.«142344_j74028056314074_1_alg».proof.Proof.KI.Frame
import proofs.«142344_j74028056314074_1_alg».proof.Proof.KI.Pieces
import proofs.«142344_j74028056314074_1_alg».proof.Proof.KI.Payloads
import proofs.«142344_j74028056314074_1_alg».proof.Proof.KI.HostValue
import proofs.«142344_j74028056314074_1_alg».proof.Proof.Online
import proofs.«142344_j74028056314074_1_alg».proof.Proof.Spec

noncomputable section

namespace Cert.KernelIdeal.RowState

open Cert.KernelIdeal Cert.KernelIdeal.Gen Cert.KernelIdeal.Hand
open Idealize.ShloMosaic Idealize.ShloMosaic.TcCoe Idealize.ShloMosaic.ValueIdx Idealize.SL.Sem
open scoped BigOperators

/-! ## The specification's step and streamed state -/

/-- A step depends on its three rows of data only through their values, and on the own-column test only through
    its truth values (whichever way it is decided). -/
theorem step_congr {B : ℕ} (st : Cert.Spec.St) (raw raw' msk msk' : Fin B → EReal) (own own' : Fin B → Prop)
    [DecidablePred own] [DecidablePred own'] (hraw : ∀ r, raw r = raw' r) (hmsk : ∀ r, msk r = msk' r)
    (hown : ∀ r, own r ↔ own' r) :
    Cert.Spec.step st raw msk own = Cert.Spec.step st raw' msk' own' := by
  have e1 : raw = raw' := funext hraw
  have e2 : msk = msk' := funext hmsk
  subst e1 e2
  unfold Cert.Spec.step
  simp only [Cert.Spec.St.mk.injEq, true_and, and_true]
  refine congrArg (_ + ·) (Finset.sum_congr rfl fun r _ => ?_)
  exact if_congr (hown r) rfl rfl

/-- The streamed state after one more block, while blocks remain. -/
theorem stateAt_succ {T B : ℕ} (raw msk : Fin (T * B) → EReal) (n : Fin (T * B)) {j : ℕ} (hj : j < T) :
    Cert.Spec.stateAt raw msk n (j + 1)
      = Cert.Spec.step (Cert.Spec.stateAt raw msk n j) (fun r => raw (Cert.Spec.col ⟨j, hj⟩ r))
          (fun r => msk (Cert.Spec.col ⟨j, hj⟩ r)) (fun r => Cert.Spec.col ⟨j, hj⟩ r = n) := by
  rw [Cert.Spec.stateAt, dif_pos hj]

/-! ## A point's three rows of data are the specification's -/

section Data

variable (m : (ℓ : Loc nD τ sig) → Buf (Elt Ideal) ℓ) (c : Dev nD)

/-- Column r of the j-th block of columns is the point's column r as a row of the whole matrix. -/
theorem col_eq (t : Fin cfg0.N) (j : ℕ) (ht : t.val % 32 = j) (hj : j < 32) (r : Fin 256) :
    (Cert.Spec.col (T := 32) (B := 256) ⟨j, hj⟩ r : Fin 8192) = HostValue.colOf t r := by
  apply Fin.ext
  show r.val + 256 * j = 256 * (t.val % 32) + r.val
  rw [ht]
  exact Nat.add_comm _ _

/-- The similarity block at (p, r) is the similarity of the two rows of the whole matrix. -/
theorem raw_eq (t : Fin cfg0.N) (p : Fin 2048) (r : Fin 256) :
    k0_pay10 (F := Ideal) (iblk (F := Ideal) m c 0 t) (iblk (F := Ideal) m c 1 t) (ix2 p r)
      = Cert.Spec.sim (HostValue.feat m c) (HostValue.rowOf t p) (HostValue.colOf t r) := by
  refine (PayloadValue.raw_apply (iblk (F := Ideal) m c 0 t) (iblk (F := Ideal) m c 1 t) p r).trans ?_
  unfold Cert.Spec.sim
  refine congrArg (fun s => Ideal.div s Cert.Spec.theta) (Finset.sum_congr rfl fun k _ => ?_)
  exact congrArg₂ (· * ·) (HostValue.rowFeat_apply m c t p k) (HostValue.colFeat_apply m c t r k)

/-- The label indicator block at (p, r) is the indicator of the two rows' labels. -/
theorem msk_eq (t : Fin cfg0.N) (p : Fin 2048) (r : Fin 256) :
    k0_pay12 (F := Ideal) (iblk (F := Ideal) m c 2 t) (iblk (F := Ideal) m c 3 t) (ix2 p r)
      = Cert.Spec.same (HostValue.lab m c) (HostValue.rowOf t p) (HostValue.colOf t r) := by
  refine (PayloadValue.msk_apply (iblk (F := Ideal) m c 2 t) (iblk (F := Ideal) m c 3 t) p r).trans ?_
  unfold Cert.Spec.same
  have e1 := HostValue.rowLab_apply m c t p
  have e2 := HostValue.colLab_apply m c t r
  exact if_congr (by rw [e1, e2]) rfl rfl

/-- The own-column bit at (p, r) says that the point's column r is the point's row p. -/
theorem own_iff (t : Fin cfg0.N) (j : ℕ) (ht : t.val % 32 = j) (hj : j < 32) (p : Fin 2048) (r : Fin 256) :
    k0_pay11 (grid0.coords t) (ix2 p r) = 1#1
      ↔ (Cert.Spec.col (T := 32) (B := 256) ⟨j, hj⟩ r : Fin 8192) = HostValue.rowOf t p := by
  obtain ⟨e0, e1⟩ := HostValue.coords_val t
  rw [PayloadValue.own_apply, e0, e1, Fin.ext_iff]
  show _ ↔ r.val + 256 * j = 2048 * (t.val / 32) + p.val
  omega

/-- A step on the point's three rows of data is the specification's step of block j on row n's data. -/
theorem step_spec (t : Fin cfg0.N) (j : ℕ) (ht : t.val % 32 = j) (hj : j < 32) (p : Fin 2048) (st : Cert.Spec.St) :
    Cert.Spec.step st
        (fun r : Fin 256 => k0_pay10 (F := Ideal) (iblk (F := Ideal) m c 0 t) (iblk (F := Ideal) m c 1 t) (ix2 p r))
        (fun r : Fin 256 => k0_pay12 (F := Ideal) (iblk (F := Ideal) m c 2 t) (iblk (F := Ideal) m c 3 t) (ix2 p r))
        (fun r : Fin 256 => k0_pay11 (grid0.coords t) (ix2 p r) = 1#1)
      = Cert.Spec.step st
        (fun r : Fin 256 => Cert.Spec.sim (HostValue.feat m c) (HostValue.rowOf t p)
          (Cert.Spec.col (T := 32) (B := 256) ⟨j, hj⟩ r))
        (fun r : Fin 256 => Cert.Spec.same (HostValue.lab m c) (HostValue.rowOf t p)
          (Cert.Spec.col (T := 32) (B := 256) ⟨j, hj⟩ r))
        (fun r : Fin 256 => Cert.Spec.col (T := 32) (B := 256) ⟨j, hj⟩ r = HostValue.rowOf t p) :=
  step_congr st _ _ _ _ _ _
    (fun r => (raw_eq m c t p r).trans (congrArg _ (col_eq t j ht hj r).symm))
    (fun r => (msk_eq m c t p r).trans (congrArg _ (col_eq t j ht hj r).symm))
    (fun r => own_iff t j ht hj p r)

end Data

/-! ## What a point leaves, row by row -/

section Points

variable (m : (ℓ : Loc nD τ sig) → Buf (Elt Ideal) ℓ)

variable (c : Dev nD)

/-- The four running numbers of the point's row p after point t, as a state. -/
def stOf (t : Fin cfg0.N) (p : Fin 2048) : Cert.Spec.St :=
  ⟨(outsAt0 (F := Ideal) m c t.val t.isLt).2.1 (ix2 p 0), (outsAt0 (F := Ideal) m c t.val t.isLt).2.2.1 (ix2 p 0),
    (outsAt0 (F := Ideal) m c t.val t.isLt).2.2.2.1 (ix2 p 0), (outsAt0 (F := Ideal) m c t.val t.isLt).2.2.2.2 (ix2 p 0)⟩

/-- The point before a point that is not the first of its row of blocks. -/
def prev (t : Fin cfg0.N) : Fin cfg0.N := ⟨t.val - 1, Nat.lt_of_le_of_lt (Nat.sub_le _ _) t.isLt⟩

/-- At the first block of columns the numbers are one step from the initial state. -/
theorem stOf_first (t : Fin cfg0.N) (h0 : t.val % 32 = 0) (p : Fin 2048) :
    stOf m c t p = Cert.Spec.step Cert.Spec.St.init
      (fun r : Fin 256 => k0_pay10 (F := Ideal) (iblk (F := Ideal) m c 0 t) (iblk (F := Ideal) m c 1 t) (ix2 p r))
      (fun r : Fin 256 => k0_pay12 (F := Ideal) (iblk (F := Ideal) m c 2 t) (iblk (F := Ideal) m c 3 t) (ix2 p r))
      (fun r : Fin 256 => k0_pay11 (grid0.coords t) (ix2 p r) = 1#1) := by
  obtain ⟨r6, r7, r8, r9⟩ := PayloadValue.reset_apply p
  unfold stOf
  rw [outsAt0_A m c t h0, outsA_eq (F := Ideal) m c t _ _]
  dsimp only
  refine (PayloadValue.step_apply (grid0.coords t) (iblk (F := Ideal) m c 0 t) (iblk (F := Ideal) m c 1 t)
    (iblk (F := Ideal) m c 2 t) (iblk (F := Ideal) m c 3 t) (k0_pay6 (F := Ideal)) (k0_pay7 (F := Ideal))
    (k0_pay8 (F := Ideal)) (k0_pay9 (F := Ideal)) p).trans ?_
  rw [r6, r7, r8, r9]
  rfl

/-- At a later block of columns they are one step from what the point before left. -/
theorem stOf_later (t : Fin cfg0.N) (h0 : ¬t.val % 32 = 0) (p : Fin 2048) :
    stOf m c t p = Cert.Spec.step (stOf m c (prev t) p)
      (fun r : Fin 256 => k0_pay10 (F := Ideal) (iblk (F := Ideal) m c 0 t) (iblk (F := Ideal) m c 1 t) (ix2 p r))
      (fun r : Fin 256 => k0_pay12 (F := Ideal) (iblk (F := Ideal) m c 2 t) (iblk (F := Ideal) m c 3 t) (ix2 p r))
      (fun r : Fin 256 => k0_pay11 (grid0.coords t) (ix2 p r) = 1#1) := by
  unfold stOf prev
  by_cases h1 : t.val % 32 = 31
  · rw [outsAt0_C m c t h0 h1, outsC_eq (F := Ideal) m c t _ _ _]
    dsimp only
    exact PayloadValue.step_apply (grid0.coords t) (iblk (F := Ideal) m c 0 t) (iblk (F := Ideal) m c 1 t)
      (iblk (F := Ideal) m c 2 t) (iblk (F := Ideal) m c 3 t) _ _ _ _ p
  · rw [outsAt0_B m c t h0 h1, outsB_eq (F := Ideal) m c t _ _ _]
    dsimp only
    exact PayloadValue.step_apply (grid0.coords t) (iblk (F := Ideal) m c 0 t) (iblk (F := Ideal) m c 1 t)
      (iblk (F := Ideal) m c 2 t) (iblk (F := Ideal) m c 3 t) _ _ _ _ p

/-- The point before has the same rows. -/
theorem rowOf_prev (t : Fin cfg0.N) (h0 : ¬t.val % 32 = 0) (p : Fin 2048) :
    HostValue.rowOf (prev t) p = HostValue.rowOf t p := by
  apply Fin.ext
  show 2048 * ((t.val - 1) / 32) + p.val = 2048 * (t.val / 32) + p.val
  omega

/-- After the point at block j of its row of blocks, row n's numbers are the streamed state after j + 1 blocks. -/
theorem stOf_eq : ∀ (j : ℕ) (t : Fin cfg0.N), t.val % 32 = j → ∀ p : Fin 2048,
    stOf m c t p = Cert.Spec.stateAt (T := 32) (B := 256)
      (Cert.Spec.sim (HostValue.feat m c) (HostValue.rowOf t p))
      (Cert.Spec.same (HostValue.lab m c) (HostValue.rowOf t p)) (HostValue.rowOf t p) (j + 1) := by
  intro j
  induction j with
  | zero =>
    intro t ht p
    refine ((stOf_first m c t ht p).trans ?_).trans
      (stateAt_succ (T := 32) (B := 256) _ _ _ (show 0 < 32 by decide)).symm
    exact step_spec m c t 0 ht (by decide) p Cert.Spec.St.init
  | succ j ih =>
    intro t ht p
    have hlt := Nat.mod_lt t.val (show 0 < 32 by decide)
    have hj : j + 1 < 32 := by omega
    have h0 : ¬t.val % 32 = 0 := by omega
    have ht' : (prev t).val % 32 = j := by
      show (t.val - 1) % 32 = j
      omega
    have ih' := ih (prev t) ht' p
    rw [rowOf_prev t h0 p] at ih'
    refine ((stOf_later m c t h0 p).trans ?_).trans
      (stateAt_succ (T := 32) (B := 256) _ _ _ hj).symm
    rw [ih']
    exact step_spec m c t (j + 1) ht hj p _

/-- The four running numbers of a row after a point are the streamed state after the point's block. -/
theorem state_apply (t : Fin cfg0.N) (p : Fin 2048) :
    (⟨(outsAt0 (F := Ideal) m c t.val t.isLt).2.1 (ix2 p 0), (outsAt0 (F := Ideal) m c t.val t.isLt).2.2.1 (ix2 p 0),
      (outsAt0 (F := Ideal) m c t.val t.isLt).2.2.2.1 (ix2 p 0),
      (outsAt0 (F := Ideal) m c t.val t.isLt).2.2.2.2 (ix2 p 0)⟩ : Cert.Spec.St)
      = Cert.Spec.stateAt (T := 32) (B := 256)
          (Cert.Spec.sim (HostValue.feat m c) (HostValue.rowOf t p))
          (Cert.Spec.same (HostValue.lab m c) (HostValue.rowOf t p)) (HostValue.rowOf t p) (t.val % 32 + 1) :=
  stOf_eq m c (t.val % 32) t rfl p

/-- At the last block of columns the loss written for a row is the streamed state's read-off after all 32
    blocks. -/
theorem out_apply (t : Fin cfg0.N) (h31 : t.val % 32 = 31) (p : Fin 2048) :
    (outsAt0 (F := Ideal) m c t.val t.isLt).1 (ix2 p 0)
      = Cert.Spec.rowOut (Cert.Spec.stateAt (T := 32) (B := 256)
          (Cert.Spec.sim (HostValue.feat m c) (HostValue.rowOf t p))
          (Cert.Spec.same (HostValue.lab m c) (HostValue.rowOf t p)) (HostValue.rowOf t p) 32) := by
  have h0 : ¬t.val % 32 = 0 := by omega
  have hs := stOf_eq m c 31 t h31 p
  unfold stOf at hs
  rw [outsAt0_C m c t h0 h31, outsC_eq (F := Ideal) m c t _ _ _] at hs ⊢
  dsimp only at hs ⊢
  rw [PayloadValue.out_apply]
  exact congrArg Cert.Spec.rowOut hs

end Points

end Cert.KernelIdeal.RowState

end
-- ==== Proof.RefValue.lean ====
/-
  The reference program's result, read as the plain two-pass loss of its own feature matrix and labels.

  The program lays the features out as a matrix f (one row per position, one column per channel) and the labels as a
  vector. Everything after that is row-wise: entry (n, k) of the similarity matrix is (Σ_c f n c · f k c) / θ; a row's
  maximum is a fold of max from −∞; the softmax denominator leaves out the row's own column through the factor
  1 − [n = k]; the label indicator is the comparison of two label words read as 1 or 0. Each of these is identified here
  with the corresponding quantity of the specification, entry by entry, and the mean over the rows is the specification's
  result. Nothing here needs the entries to be finite: only 0 + x = x and the meaning of the constant words are used.
-/
import proofs.«142344_j74028056314074_1_alg».proof.Proof.Gen.ReferenceIdeal.Read
import proofs.«142344_j74028056314074_1_alg».proof.Proof.Spec
import proofs.«142344_j74028056314074_1_alg».proof.Proof.LibRowwise

noncomputable section

namespace Cert.RefValue

open Cert.ReferenceIdeal Cert.ReferenceIdeal.Gen Cert.ReferenceIdeal.Read Idealize.ShloMosaic Idealize.ShloMosaic.ValueIdx
open scoped BigOperators

/-- The feature array as the program receives it, -/
abbrev Feat : Type := (⟨S2x512x64x64, .f32⟩ : BufTy).Contents (Elt Ideal)
/-- and the label array. -/
abbrev Labs : Type := (⟨S2x64x64, .i32⟩ : BufTy).Contents (Elt Ideal)

/-- The feature matrix: row n (a position), column c (a channel). -/
def feat (x : Feat) : Fin 8192 → Fin 512 → EReal := fun n c => val_main_v1 (F := Ideal) x (ix2 n c)

/-- The label of position n. -/
def lab (y : Labs) : Fin 8192 → BitVec 32 := fun n => val_main_v2 (F := Ideal) y (ix1 n)

/-! ## The constant words -/

/-- The word of −∞ denotes the bottom of the extended reals. -/
theorem ofBits_neg_inf : Ideal.ofBits .f32 0xFF800000#32 = (⊥ : EReal) := by
  simp [Ideal.ofBits, Ideal.ieee]

/-- A comparison of two words for equality, read as a float, is 1 when they are equal and 0 otherwise. -/
theorem uitofp_cmpi_eq (a b : BitVec 32) :
    FloatOps.uitofp (F := Ideal) .f32 (IntOp.cmpi .eq a b) = if a = b then (1 : EReal) else 0 := by
  show (((BitVec.ofBool (a == b)).toNat : ℝ) : EReal) = _
  by_cases h : a = b
  · simp [h]
  · simp [h]

/-- Row and column numbers below 8192, as 32-bit words, are equal exactly when the numbers are. -/
theorem word_eq_iff (n k : Fin 8192) : IntOp.addi (BitVec.ofNat 32 n.val) 0#32 = BitVec.ofNat 32 k.val ↔ n = k := by
  unfold IntOp.addi
  rw [BitVec.add_zero]
  constructor
  · intro h
    have e := congrArg BitVec.toNat h
    simp only [BitVec.toNat_ofNat] at e
    have hn := n.isLt
    have hk := k.isLt
    apply Fin.ext
    omega
  · rintro rfl
    rfl

/-! ## Index equations: the program's composed index maps at (n, k) -/

theorem lidx_dot (n k : Fin 8192) (c : Fin 512) : lidx_main_v10 (ix2 n k) c = ix2 n c :=
  funext fun a => Fin.ext (by match a with | ⟨0, _⟩ => rfl | ⟨1, _⟩ => rfl)

theorem ridx_dot (n k : Fin 8192) (c : Fin 512) : idx_main_v9 (ridx_main_v10 (ix2 n k) c) = ix2 k c :=
  funext fun a => Fin.ext (by match a with | ⟨0, _⟩ => rfl | ⟨1, _⟩ => rfl)

theorem idx_rowLabel (n k : Fin 8192) : idx_main_v3 (idx_main_v5 (ix2 n k)) = ix1 n :=
  funext fun a => Fin.ext (by match a with | ⟨0, _⟩ => rfl)

theorem idx_colLabel (n k : Fin 8192) : idx_main_v4 (idx_main_v6 (ix2 n k)) = ix1 k :=
  funext fun a => Fin.ext (by match a with | ⟨0, _⟩ => rfl)

theorem idx_rowOf (n k : Fin 8192) : idx_main_v14 (idx_main_v15 (ix2 n k)) = ix1 n :=
  funext fun a => Fin.ext (by match a with | ⟨0, _⟩ => rfl)

/-! ## Entries -/

/-- Entry (n, k) of the similarity matrix. -/
theorem sim_apply (x : Feat) (n k : Fin 8192) :
    val_main_v12 (F := Ideal) x (ix2 n k) = Spec.sim (feat x) n k := by
  rw [val_main_v12_apply, val_main_v10_apply, val_main_v11_apply, val_main_cst_apply]
  simp only [val_main_v9_apply, lidx_dot, ridx_dot, Ideal.hostDivf_def, Ideal.ofBits_def]
  rfl

/-- Entry (n, k) of the label comparison: whether positions n and k carry one label. -/
theorem same_apply (y : Labs) (n k : Fin 8192) :
    val_main_v8 (F := Ideal) y (ix2 n k) = Spec.same (lab y) n k := by
  rw [val_main_v8_apply, val_main_v7_apply, val_main_v5_apply, val_main_v6_apply, val_main_v3_apply,
    val_main_v4_apply, idx_rowLabel, idx_colLabel, uitofp_cmpi_eq]
  rfl

/-- Entry (n, k) of the factor that leaves a row's own column out: 1 − [n = k]. -/
theorem offDiag_apply (n k : Fin 8192) :
    val_main_v25 (F := Ideal) (ix2 n k) = 1 - (if n = k then (1 : EReal) else 0) := by
  rw [val_main_v25_apply, val_main_v24_apply, val_main_cst_1_apply, val_main_v23_apply, val_main_v22_apply,
    val_main_v21_apply, val_main_v18_apply, val_main_v19_apply, val_main_v20_apply, val_main_c_apply,
    uitofp_cmpi_eq]
  simp only [Ideal.subf_def, Ideal.ofBits_def, Ideal.ofBits_one_f32]
  show 1 - (if IntOp.addi (BitVec.ofNat 32 n.val) 0#32 = BitVec.ofNat 32 k.val then (1 : EReal) else 0) = _
  simp only [word_eq_iff]

/-- Row n's maximum: the fold of max over the row's similarities from −∞. -/
theorem rowMax_apply (x : Feat) (n : Fin 8192) :
    val_main_v13 (F := Ideal) x (ix1 n) = Spec.rowMaxOf (Spec.sim (feat x) n) := by
  unfold val_main_v13
  refine (LibRowwise.hostRowMax_apply (val_main_v12 (F := Ideal) x) (val_main_cst_0 (F := Ideal))
    reducesTo_S8192x8192_S8192_d1 (by decide) h_S_ n).trans ?_
  rw [val_main_cst_0_apply]
  simp only [Ideal.ofBits_def, ofBits_neg_inf, sim_apply]
  rfl

/-! ## Row quantities -/

theorem idx_sumRow (n k : Fin 8192) : idx_main_v27 (ix1 n) k = ix2 n k :=
  funext fun a => Fin.ext (by match a with | ⟨0, _⟩ => rfl | ⟨1, _⟩ => rfl)

theorem idx_sumRow' (n k : Fin 8192) : idx_main_v35 (ix1 n) k = ix2 n k :=
  funext fun a => Fin.ext (by match a with | ⟨0, _⟩ => rfl | ⟨1, _⟩ => rfl)

theorem idx_sumRow'' (n k : Fin 8192) : idx_main_v37 (ix1 n) k = ix2 n k :=
  funext fun a => Fin.ext (by match a with | ⟨0, _⟩ => rfl | ⟨1, _⟩ => rfl)

theorem idx_keptRow (n : Fin 8192) (u : Fin 1) : idx_main_v28 (ix2 n u) = ix1 n :=
  funext fun a => Fin.ext (by match a with | ⟨0, _⟩ => rfl)

theorem idx_keptCol (n k : Fin 8192) : idx_main_v32 (ix2 n k) = ix2 n (0 : Fin 1) :=
  funext fun a => Fin.ext (by match a with | ⟨0, _⟩ => rfl | ⟨1, _⟩ => rfl)

/-- Entry (n, k) of the similarities with the row's maximum taken off. -/
theorem centred_apply (x : Feat) (n k : Fin 8192) :
    val_main_v16 (F := Ideal) x (ix2 n k) = Spec.sim (feat x) n k - Spec.rowMaxOf (Spec.sim (feat x) n) := by
  rw [val_main_v16_apply, val_main_v15_apply, val_main_v14_apply, idx_rowOf, sim_apply, rowMax_apply]
  rfl

/-- Row n's softmax denominator: the exponentials of the centred row, its own column left out, plus ε. -/
theorem rowZ_apply (x : Feat) (n : Fin 8192) :
    val_main_v30 (F := Ideal) x (ix2 n (0 : Fin 1)) = Spec.rowZ (Spec.sim (feat x) n) n := by
  rw [val_main_v30_apply, val_main_v28_apply, val_main_v29_apply, val_main_cst_3_apply, idx_keptRow,
    val_main_v27_apply, val_main_cst_2_apply]
  simp only [idx_sumRow, val_main_v26_apply, val_main_v17_apply, centred_apply, offDiag_apply, Ideal.addf_def,
    Ideal.mulf_def, Ideal.hostUnary_exp_def, Ideal.ofBits_def, Ideal.ofBits_zero_f32, zero_add]
  rfl

/-- Row n's numerator: the label-weighted sum of the centred similarities less the log of the denominator. -/
theorem rowNum_apply (x : Feat) (y : Labs) (n : Fin 8192) :
    val_main_v35 (F := Ideal) x y (ix1 n)
      = ∑ k : Fin 8192, Spec.same (lab y) n k *
          ((Spec.sim (feat x) n k - Spec.rowMaxOf (Spec.sim (feat x) n)) - Ideal.log (Spec.rowZ (Spec.sim (feat x) n) n)) := by
  rw [val_main_v35_apply, val_main_cst_4_apply]
  simp only [idx_sumRow', val_main_v34_apply, val_main_v33_apply, val_main_v32_apply, val_main_v31_apply, idx_keptCol,
    same_apply, centred_apply, rowZ_apply, Ideal.mulf_def, Ideal.subf_def, Ideal.hostUnary_log_def, Ideal.ofBits_def,
    Ideal.ofBits_zero_f32, zero_add]

/-- Row n's count of equal labels, plus ε. -/
theorem rowCount_apply (y : Labs) (n : Fin 8192) :
    val_main_v39 (F := Ideal) y (ix1 n) = (∑ k : Fin 8192, Spec.same (lab y) n k) + Spec.eps := by
  rw [val_main_v39_apply, val_main_v38_apply, val_main_cst_6_apply, val_main_v37_apply, val_main_cst_5_apply]
  simp only [idx_sumRow'', same_apply, Ideal.addf_def, Ideal.ofBits_def, Ideal.ofBits_zero_f32, zero_add]
  rfl

/-- Row n's loss. -/
theorem rowLoss_apply (x : Feat) (y : Labs) (n : Fin 8192) :
    val_main_v40 (F := Ideal) x y (ix1 n) = Spec.rowLoss (Spec.sim (feat x) n) (Spec.same (lab y) n) n := by
  rw [val_main_v40_apply, val_main_v36_apply, rowNum_apply, rowCount_apply]
  simp only [Ideal.hostDivf_def, Ideal.hostNegf_def, Ideal.negf_def]
  rfl

/-! ## The mean over the rows -/

/-- A one-axis index set of extent 8192 is its coordinate's range, -/
def idxEquiv1 : S8192.Idx ≃ Fin 8192 where
  toFun i := i 0
  invFun n := ix1 n
  left_inv i := (eq_ix1 i).symm
  right_inv _ := rfl

/-- so a sum over it is the sum over the coordinate. -/
theorem sum_rows (g : S8192.Idx → EReal) : ∑ j, g j = ∑ n : Fin 8192, g (ix1 n) := by
  rw [← Equiv.sum_comp idxEquiv1.symm g]
  rfl

/-- The reference's result is the plain two-pass loss of its feature matrix and labels. -/
theorem result_eq (x : Feat) (y : Labs) :
    val_main_v42 (F := Ideal) x y ix0 = Spec.result (feat x) (lab y) := by
  rw [val_main_v42_apply, val_main_v41_apply, val_main_cst_7_apply, val_main_cst_8_apply, sum_rows]
  simp only [rowLoss_apply, Ideal.hostDivf_def, Ideal.ofBits_def, Ideal.ofBits_zero_f32, zero_add]
  rfl

/-! ## The feature matrix and the labels as the program's own first operations -/

/-- The feature matrix is the transposed array (channels last) laid out one row per position. -/
theorem feat_eq (x : Feat) (n : Fin 8192) (c : Fin 512) :
    feat x n c = shapeCast S8192x512 (transpose S2x64x64x512 [0, 2, 3, 1] x transposes_S2x512x64x64_S2x64x64x512_0_2_3_1)
      shapeCasts_S2x64x64x512_S8192x512 (ix2 n c) := rfl

/-- The labels are the label array laid out as one vector. -/
theorem lab_eq (y : Labs) (n : Fin 8192) :
    lab y n = shapeCast S8192 y shapeCasts_S2x64x64_S8192 (ix1 n) := rfl

/-! ## In the form the program's run states its result -/

/-- The result buffer, as a function on its one index. -/
theorem result_fun (x : Feat) (y : Labs) :
    val_main_v42 (F := Ideal) x y = fun _ => Spec.result (feat x) (lab y) :=
  funext fun i => (congrArg (val_main_v42 (F := Ideal) x y) (eq_ix0 i)).trans (result_eq x y)

/-- The term the program's run leaves in its result buffer, from any launch memory on any device, is the plain
    two-pass loss of the feature matrix and labels read off that memory's two argument arrays. -/
theorem run_result (m : (ℓ : Loc nD τ sig) → Buf (Elt Ideal) ℓ) (c : Dev nD) :
    Cert.ReferenceIdeal.Value.res_main_v42 (F := Ideal) m c
      = fun _ => Spec.result (feat (m ((c.tc : Thread nD τ).loc main_arg0))) (lab (m ((c.tc : Thread nD τ).loc main_arg1))) :=
  (val_main_v42_eq (F := Ideal) m c).trans (result_fun _ _)

end Cert.RefValue

end
-- ==== Proof.LibFiniteDecode.lean ====
/-
  "Every entry has absolute value below +∞" read as "every entry is a real".

  A precondition that an array is finite is printed as an all-reduce by "and" of the comparison |a| < +∞ against the
  word of +∞. On the extended reals |x| < +∞ says x is neither infinity, that is, x is a real. The lemma below takes one
  such conjunct — the all-reduce equal to 1 — to "every entry of `a` is real", for an array of any shape reduced over all
  its axes.
-/
import Idealize.ShloMosaic.PureOps.Ideal
import Idealize.ShloMosaic.Lib.ReduceAll
import Idealize.ShloMosaic.Lib.ValueIdx

noncomputable section

namespace Cert.LibFiniteDecode

open Idealize.ShloMosaic Idealize.ShloMosaic.ValueIdx

/-- The scalar shape has one index. -/
instance : Subsingleton (⟨0, ![]⟩ : Shape).Idx := ⟨fun a b => funext fun d => d.elim0⟩

/-- The word of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt (x : EReal) (h : max x (-x) < ⊤) : ∃ r : ℝ, x = ((r : ℝ) : EReal) := by
  induction x using EReal.rec with
  | bot => simp at h
  | coe r => exact ⟨r, rfl⟩
  | top => simp at h

/-- One conjunct of a finiteness precondition: an all-reduce by "and" of the comparison |a| < +∞ that is 1 makes every
    entry of `a` a real. -/
theorem real_of_all {s : Shape} {axes : List (Fin s.rank)} (a : FVec Ideal s .f32)
    (hb : (⟨0, ![]⟩ : Shape).BroadcastsInDim s ![]) (hred : s.ReducesTo axes ⟨0, ![]⟩) (hu : 0 < (⟨0, ![]⟩ : Shape).numel)
    (e : Host.reduce IntOp.andi (cmpf .olt (Host.absf a) (broadcastInDim s ![] hb (constant ⟨0, ![]⟩ .f32 0x7F800000#32)))
      (constantI ⟨0, ![]⟩ 1 1#1) hred hu ix0 = 1#1) (i : s.Idx) : ∃ r : ℝ, a i = ((r : ℝ) : EReal) := by
  have h := Host.reduce_andi_all _ _ hred hu ix0 e i
  have h' : Ideal.cmp .olt (max (a i) (-(a i))) (Ideal.ofBits .f32 0x7F800000#32) = 1#1 := h
  rw [ofBits_inf] at h'
  refine real_of_abs_lt (a i) ?_
  unfold Ideal.cmp at h'
  by_contra hn
  simp [hn] at h'

end Cert.LibFiniteDecode

end
-- ==== Proof.Finite.lean ====
/-
  From the finiteness precondition to "every entry of the feature array is a real number".

  The precondition is printed as: take absolute values, compare each with the word of +∞, and reduce all comparisons by
  "and" from the constant true. If that reduction is 1 then every comparison |x i| < +∞ holds, and an extended real whose
  absolute value is below +∞ is a real.
-/
import proofs.«142344_j74028056314074_1_alg».proof.Pre_finite_inputs
import proofs.«142344_j74028056314074_1_alg».proof.Proof.LibFiniteDecode

noncomputable section

namespace Cert.Finite

open Idealize.ShloMosaic Idealize.ShloMosaic.ValueIdx

/-- If the printed finiteness predicate of the two argument arrays is all ones, every entry of the first is a real. -/
theorem real_of_pre [Cert.Pre_finite_inputs.Facts]
    (x : FVec Ideal Cert.Pre_finite_inputs.S2x512x64x64 .f32) (y : IVec Cert.Pre_finite_inputs.S2x64x64 32)
    (h : Cert.Pre_finite_inputs.fn (F := Ideal) x y = fun _ => 1#1) (i : Cert.Pre_finite_inputs.S2x512x64x64.Idx) :
    ∃ r : ℝ, x i = ((r : ℝ) : EReal) := by
  have e := congrFun h ix0
  dsimp only [Cert.Pre_finite_inputs.fn] at e
  exact Cert.LibFiniteDecode.real_of_all x _ _ _ e i

end Cert.Finite

end
-- ==== Proof.Bridge.lean ====
/-
  The two idealized programs compute one number.
  The kernel program lays the features out as an 8192 × 512 matrix f and the labels as a vector, and its region and
  closing operations return the streamed form of the loss (32 blocks of 256 columns per row); the reference lays
  the arguments out by the same operations and returns the plain two-pass form.  On finite features every
  similarity is a real number, the rescaled exponentials of the streamed form telescope and its masked sums
  distribute: the two forms are equal.  Finiteness of f's entries is the precondition's, each entry of f being an
  entry of the argument array.
-/
import proofs.«142344_j74028056314074_1_alg».proof.Defs
import proofs.«142344_j74028056314074_1_alg».proof.Proof.Gen.Pre_finite_inputs
import proofs.«142344_j74028056314074_1_alg».proof.Proof.KI.Final
import proofs.«142344_j74028056314074_1_alg».proof.Proof.KI.RowState
import proofs.«142344_j74028056314074_1_alg».proof.Proof.RefValue
import proofs.«142344_j74028056314074_1_alg».proof.Proof.Finite
import proofs.«142344_j74028056314074_1_alg».proof.Proof.Online

noncomputable section

namespace Cert.Bridge

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ)

/-- Both programs lay the feature array out by the same two operations: one matrix. -/
theorem feat_agree (c : Dev Cert.KernelIdeal.nD) :
    Cert.KernelIdeal.HostValue.feat m c
      = Cert.RefValue.feat (m ((c.tc : Thread Cert.KernelIdeal.nD Cert.KernelIdeal.τ).loc Cert.KernelIdeal.main_arg0)) := by
  funext n k
  rw [Cert.KernelIdeal.HostValue.feat_eq, Cert.RefValue.feat_eq]

/-- And the label array by the same one. -/
theorem lab_agree (c : Dev Cert.KernelIdeal.nD) :
    Cert.KernelIdeal.HostValue.lab m c
      = Cert.RefValue.lab (m ((c.tc : Thread Cert.KernelIdeal.nD Cert.KernelIdeal.τ).loc Cert.KernelIdeal.main_arg1)) := by
  funext n
  rw [Cert.KernelIdeal.HostValue.lab_eq, Cert.RefValue.lab_eq]

/-- Under the precondition every entry of the feature matrix is a real number: it is an entry of the argument. -/
theorem feat_real (hpre : Cert.Pre_KernelIdeal m) (c : Dev Cert.KernelIdeal.nD) (n : Fin 8192) (k : Fin 512) :
    ∃ x : ℝ, Cert.KernelIdeal.HostValue.feat m c n k = ((x : ℝ) : EReal) := by
  rw [Cert.KernelIdeal.HostValue.feat_eq]
  exact Cert.Finite.real_of_pre _ _ (hpre c) _

/-- The kernel program's result buffer ends at the plain form of the loss of the laid-out arguments. -/
theorem kernel_result (hpre : Cert.Pre_KernelIdeal m) (c : Dev Cert.KernelIdeal.nD) :
    Cert.KernelIdeal.Hand.Wfin (F := Ideal) m c (Proc.devRef .tc Cert.KernelIdeal.main_v7)
      = fun _ => Cert.Spec.result
          (Cert.RefValue.feat (m ((c.tc : Thread Cert.KernelIdeal.nD Cert.KernelIdeal.τ).loc Cert.KernelIdeal.main_arg0)))
          (Cert.RefValue.lab (m ((c.tc : Thread Cert.KernelIdeal.nD Cert.KernelIdeal.τ).loc Cert.KernelIdeal.main_arg1))) := by
  rw [Cert.KernelIdeal.Final.result7 m c (Cert.KernelIdeal.RowState.out_apply m c),
    Cert.Online.streamed_eq_result (T := 32) (B := 256) (by decide) (by decide) _ _ (feat_real m hpre c), feat_agree, lab_agree]

/-- At the ideal instance the two programs, run from memories agreeing on the arguments, end with equal results. -/
theorem algebraic : Cert.algebraic_KernelIdeal_ReferenceIdeal := by
  intro m ρ m' ρ' hpre hagree
  refine ⟨fun c => fun _ => Cert.Spec.result
      (Cert.RefValue.feat (m ((c.tc : Thread Cert.KernelIdeal.nD Cert.KernelIdeal.τ).loc Cert.KernelIdeal.main_arg0)))
      (Cert.RefValue.lab (m ((c.tc : Thread Cert.KernelIdeal.nD Cert.KernelIdeal.τ).loc Cert.KernelIdeal.main_arg1))), ?_, ?_⟩
  · exact (θ_run Cert.KernelIdeal.defs _ _).mono (fun r h c =>
      ⟨(h c Cert.KernelIdeal.main_v7 (by decide)).trans (kernel_result m hpre c),
       (h c Cert.KernelIdeal.main_arg0 (by decide)).trans (Cert.KernelIdeal.Hand.Wfin_kept m c Cert.KernelIdeal.main_arg0 (by decide) (by decide) (by decide)),
       (h c Cert.KernelIdeal.main_arg1 (by decide)).trans (Cert.KernelIdeal.Hand.Wfin_kept m c Cert.KernelIdeal.main_arg1 (by decide) (by decide) (by decide))⟩)
      (Cert.KernelIdeal.Hand.run_main (F := Ideal) m ρ)
  · refine (θ_run Cert.ReferenceIdeal.defs _ _).mono (fun r h c => ⟨(h c).1.trans ?_, (h c).2⟩)
      (Cert.ReferenceIdeal.Value.run (F := Ideal) m' ρ')
    rw [Cert.RefValue.run_result, (hagree c).1, (hagree c).2]
    rfl

end Cert.Bridge

end
-- ==== Proof.lean ====
/-
  A supervised contrastive loss over 8192 feature rows of 512 channels: for each row the masked mean of the
  log-softmax of its similarities to all rows (its own column left out of the softmax's denominator), averaged over
  the rows.  The kernel streams the 8192 × 8192 similarity matrix through a 4 × 32 grid of 2048 × 256 blocks, keeping
  per row a running maximum, a rescaled running sum of exponentials, a running masked sum and a running count; the
  reference forms the matrix whole.

  The claims.  Each program runs to the end, faults nowhere and leaves its arguments unchanged: for the two kernel
  programs by running the body at each of the 128 grid points in its case (first / middle / last block of columns)
  and launching the region with the feature matrix's share dealt in halves to the two windows that read it; for the
  reference by its straight-line run.  The ideal pass rewrote nothing, so the kernel program read on extended reals
  is its own idealization.  And on extended reals, for finite features, the streamed and the plain form of the loss
  are one number: the running quantities after the last block are the row's maximum, its softmax denominator, its
  masked sum and its count, by exp a · exp b = exp (a + b) and distributivity over reals.
-/
import proofs.«142344_j74028056314074_1_alg».proof.Defs
import proofs.«142344_j74028056314074_1_alg».proof.Proof.Gen.Kernel
import proofs.«142344_j74028056314074_1_alg».proof.Proof.Gen.Kernel.Skeleton
import proofs.«142344_j74028056314074_1_alg».proof.Proof.Gen.Kernel.Launch
import proofs.«142344_j74028056314074_1_alg».proof.Proof.Gen.Kernel.Points
import proofs.«142344_j74028056314074_1_alg».proof.Proof.Gen.KernelIdeal
import proofs.«142344_j74028056314074_1_alg».proof.Proof.Gen.KernelIdeal.Skeleton
import proofs.«142344_j74028056314074_1_alg».proof.Proof.Gen.KernelIdeal.Launch
import proofs.«142344_j74028056314074_1_alg».proof.Proof.Gen.KernelIdeal.Points
import proofs.«142344_j74028056314074_1_alg».proof.Proof.Gen.ReferenceIdeal
import proofs.«142344_j74028056314074_1_alg».proof.Proof.Gen.Pre_finite_inputs
import proofs.«142344_j74028056314074_1_alg».proof.Proof.Gen.ReferenceIdeal.Read
import proofs.«142344_j74028056314074_1_alg».proof.Proof.K.Launch
import proofs.«142344_j74028056314074_1_alg».proof.Proof.KI.Launch
import proofs.«142344_j74028056314074_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel := fun m ρ _ => Cert.Kernel.Hand.frame m ρ

/-- So does its reading on extended reals. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, trivial, Cert.Bridge.algebraic⟩

end Cert.Proof

end
